-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S180000x4 : Shape := ⟨2, ![180000, 4]⟩
abbrev S80000x36x36 : Shape := ⟨3, ![80000, 36, 36]⟩
abbrev S2x80000 : Shape := ⟨2, ![2, 80000]⟩
abbrev S180000 : Shape := ⟨1, ![180000]⟩
abbrev S16x16 : Shape := ⟨2, ![16, 16]⟩
abbrev S16 : Shape := ⟨1, ![16]⟩
abbrev S_ : Shape := ⟨0, ![]⟩

class Facts : Prop where
  bcast_S_S180000x4 : S_.BroadcastsInDim S180000x4 (![] : Fin 0 → Fin S180000x4.rank)
  reducesTo_S180000x4_S_d0_1 : S180000x4.ReducesTo [0, 1] S_
  h_S_ : 0 < S_.numel
  bcast_S_S80000x36x36 : S_.BroadcastsInDim S80000x36x36 (![] : Fin 0 → Fin S80000x36x36.rank)
  reducesTo_S80000x36x36_S_d0_1_2 : S80000x36x36.ReducesTo [0, 1, 2] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S16x16 .f32) (main_arg7 : FVec F S16 .f32) (main_arg8 : FVec F S16x16 .f32) (main_arg9 : FVec F S16 .f32) (main_v13 : IVec S_ 1) (main_v16 : IVec S80000x36x36 1) : IVec S_ 1 :=
  let main_c_5 : IVec S_ 1 := constantI S_ 1 1#1
  let main_v17 : IVec S_ 1 := (fun x v => Host.reduce IntOp.andi x v reducesTo_S80000x36x36_S_d0_1_2 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg8
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg9 main_v33

def fn {F : FTy → Type} [FloatOps F] (main_arg0 : FVec F S180000x4 .f32) (main_arg1 : FVec F S180000x4 .f32) (main_arg2 : FVec F S180000x4 .f32) (main_arg3 : FVec F S80000x36x36 .f32) (main_arg4 : IVec S2x80000 32) (main_arg5 : IVec S180000 32) (main_arg6 : FVec F S16x16 .f32) (main_arg7 : FVec F S16 .f32) (main_arg8 : FVec F S16x16 .f32) (main_arg9 : FVec F S16 .f32) : IVec S_ 1 :=
  let main_v0 : FVec F S180000x4 .f32 := Host.absf main_arg0
  let main_cst : FVec F S_ .f32 := constant S_ .f32 0x7F800000#32
  let main_v1 : FVec F S180000x4 .f32 := broadcastInDim S180000x4 ![] bcast_S_S180000x4 main_cst
  let main_v2 : IVec S180000x4 1 := cmpf .olt main_v0 main_v1
  let main_c : IVec S_ 1 := constantI S_ 1 1#1
  let main_v3 : IVec S_ 1 := (fun x v => Host.reduce IntOp.andi x v reducesTo_S180000x4_S_d0_1 h_S_) main_v2 main_c
  let main_v4 : FVec F S180000x4 .f32 := Host.absf main_arg1
  let main_cst_0 : FVec F S_ .f32 := constant S_ .f32 0x7F800000#32
  let main_v5 : FVec F S180000x4 .f32 := broadcastInDim S180000x4 ![] bcast_S_S180000x4 main_cst_0
  let main_v6 : IVec S180000x4 1 := cmpf .olt main_v4 main_v5
  let main_c_1 : IVec S_ 1 := constantI S_ 1 1#1
  let main_v7 : IVec S_ 1 := (fun x v => Host.reduce IntOp.andi x v reducesTo_S180000x4_S_d0_1 h_S_) main_v6 main_c_1
  let main_v8 : IVec S_ 1 := andi main_v3 main_v7
  let main_v9 : FVec F S180000x4 .f32 := Host.absf main_arg2
  let main_cst_2 : FVec F S_ .f32 := constant S_ .f32 0x7F800000#32
  let main_v10 : FVec F S180000x4 .f32 := broadcastInDim S180000x4 ![] bcast_S_S180000x4 main_cst_2
  let main_v11 : IVec S180000x4 1 := cmpf .olt main_v9 main_v10
  let main_c_3 : IVec S_ 1 := constantI S_ 1 1#1
  let main_v12 : IVec S_ 1 := (fun x v => Host.reduce IntOp.andi x v reducesTo_S180000x4_S_d0_1 h_S_) main_v11 main_c_3
  let main_v13 : IVec S_ 1 := andi main_v8 main_v12
  let main_v14 : FVec F S80000x36x36 .f32 := Host.absf main_arg3
  let main_cst_4 : FVec F S_ .f32 := constant S_ .f32 0x7F800000#32
  let main_v15 : FVec F S80000x36x36 .f32 := broadcastInDim S80000x36x36 ![] bcast_S_S80000x36x36 main_cst_4
  let main_v16 : IVec S80000x36x36 1 := cmpf .olt main_v14 main_v15
  fn_part1 (F := F) main_arg6 main_arg7 main_arg8 main_arg9 main_v13 main_v16
-- ==== Kernel.lean ====
abbrev S180000x4 : Shape := ⟨2, ![180000, 4]⟩
abbrev S80000x36x36 : Shape := ⟨3, ![80000, 36, 36]⟩
abbrev S2x80000 : Shape := ⟨2, ![2, 80000]⟩
abbrev S180000 : Shape := ⟨1, ![180000]⟩
abbrev S16x16 : Shape := ⟨2, ![16, 16]⟩
abbrev S16 : Shape := ⟨1, ![16]⟩
abbrev S_ : Shape := ⟨0, ![]⟩
abbrev S5000 : Shape := ⟨1, ![5000]⟩
abbrev S180000x1 : Shape := ⟨2, ![180000, 1]⟩
abbrev S1 : Shape := ⟨1, ![1]⟩
abbrev S4999 : Shape := ⟨1, ![4999]⟩
abbrev S5000x36x4 : Shape := ⟨3, ![5000, 36, 4]⟩
abbrev S180000x2 : Shape := ⟨2, ![180000, 2]⟩
abbrev S1x80000 : Shape := ⟨2, ![1, 80000]⟩
abbrev S80000 : Shape := ⟨1, ![80000]⟩
abbrev S80000x1 : Shape := ⟨2, ![80000, 1]⟩
abbrev S80000x36x4 : Shape := ⟨3, ![80000, 36, 4]⟩
abbrev S160x36x36 : Shape := ⟨3, ![160, 36, 36]⟩
abbrev S160x36x4 : Shape := ⟨3, ![160, 36, 4]⟩
abbrev S160x4x4 : Shape := ⟨3, ![160, 4, 4]⟩
abbrev S160x16 : Shape := ⟨2, ![160, 16]⟩
abbrev S1x16 : Shape := ⟨2, ![1, 16]⟩

abbrev nBuf : Space → Nat
  | .hbm => 162
  | .vmem => 14
  | .smem => 0
  | _ => 0

abbrev hbmTy0_0 (i : Nat) : BufTy := match i % 128 with
  | 0 => ⟨S180000x4, .f32⟩
  | 1 => ⟨S180000x4, .f32⟩
  | 2 => ⟨S180000x4, .f32⟩
  | 3 => ⟨S80000x36x36, .f32⟩
  | 4 => ⟨S2x80000, .i32⟩
  | 5 => ⟨S180000, .i32⟩
  | 6 => ⟨S16x16, .f32⟩
  | 7 => ⟨S16, .f32⟩
  | 8 => ⟨S16x16, .f32⟩
  | 9 => ⟨S16, .f32⟩
  | 10 => ⟨S_, .i32⟩
  | 11 => ⟨S5000, .i32⟩
  | 12 => ⟨S_, .i32⟩
  | 13 => ⟨S180000, .i32⟩
  | 14 => ⟨S180000, .i1⟩
  | 15 => ⟨S_, .i32⟩
  | 16 => ⟨S180000, .i32⟩
  | 17 => ⟨S180000, .i32⟩
  | 18 => ⟨S180000, .i32⟩
  | 19 => ⟨S180000x1, .i32⟩
  | 20 => ⟨S_, .i32⟩
  | 21 => ⟨S180000, .i32⟩
  | 22 => ⟨S5000, .i32⟩
  | 23 => ⟨S_, .i32⟩
  | 24 => ⟨S1, .i32⟩
  | 25 => ⟨S_, .i32⟩
  | 26 => ⟨S_, .i32⟩
  | 27 => ⟨S5000, .i32⟩
  | 28 => ⟨S4999, .i32⟩
  | 29 => ⟨S5000, .i32⟩
  | 30 => ⟨S180000, .i32⟩
  | 31 => ⟨S_, .i32⟩
  | 32 => ⟨S180000, .i32⟩
  | 33 => ⟨S180000, .i1⟩
  | 34 => ⟨S_, .i32⟩
  | 35 => ⟨S180000, .i32⟩
  | 36 => ⟨S180000, .i32⟩
  | 37 => ⟨S180000, .i32⟩
  | 38 => ⟨S180000x1, .i32⟩
  | 39 => ⟨S180000, .i32⟩
  | 40 => ⟨S180000, .i32⟩
  | 41 => ⟨S_, .f32⟩
  | 42 => ⟨S5000x36x4, .f32⟩
  | 43 => ⟨S_, .i32⟩
  | 44 => ⟨S180000, .i32⟩
  | 45 => ⟨S180000, .i1⟩
  | 46 => ⟨S_, .i32⟩
  | 47 => ⟨S180000, .i32⟩
  | 48 => ⟨S180000, .i32⟩
  | 49 => ⟨S180000, .i32⟩
  | 50 => ⟨S_, .i32⟩
  | 51 => ⟨S180000, .i32⟩
  | 52 => ⟨S180000, .i1⟩
  | 53 => ⟨S_, .i32⟩
  | 54 => ⟨S180000, .i32⟩
  | 55 => ⟨S180000, .i32⟩
  | 56 => ⟨S180000, .i32⟩
  | 57 => ⟨S180000x1, .i32⟩
  | 58 => ⟨S180000x1, .i32⟩
  | 59 => ⟨S180000x2, .i32⟩
  | 60 => ⟨S5000x36x4, .f32⟩
  | 61 => ⟨S_, .f32⟩
  | 62 => ⟨S5000x36x4, .f32⟩
  | 63 => ⟨S_, .i32⟩
  | 64 => ⟨S180000, .i32⟩
  | 65 => ⟨S180000, .i1⟩
  | 66 => ⟨S_, .i32⟩
  | 67 => ⟨S180000, .i32⟩
  | 68 => ⟨S180000, .i32⟩
  | 69 => ⟨S180000, .i32⟩
  | 70 => ⟨S_, .i32⟩
  | 71 => ⟨S180000, .i32⟩
  | 72 => ⟨S180000, .i1⟩
  | 73 => ⟨S_, .i32⟩
  | 74 => ⟨S180000, .i32⟩
  | 75 => ⟨S180000, .i32⟩
  | 76 => ⟨S180000, .i32⟩
  | 77 => ⟨S180000x1, .i32⟩
  | 78 => ⟨S180000x1, .i32⟩
  | 79 => ⟨S180000x2, .i32⟩
  | 80 => ⟨S5000x36x4, .f32⟩
  | 81 => ⟨S_, .f32⟩
  | 82 => ⟨S5000x36x4, .f32⟩
  | 83 => ⟨S_, .i32⟩
  | 84 => ⟨S180000, .i32⟩
  | 85 => ⟨S180000, .i1⟩
  | 86 => ⟨S_, .i32⟩
  | 87 => ⟨S180000, .i32⟩
  | 88 => ⟨S180000, .i32⟩
  | 89 => ⟨S180000, .i32⟩
  | 90 => ⟨S_, .i32⟩
  | 91 => ⟨S180000, .i32⟩
  | 92 => ⟨S180000, .i1⟩
  | 93 => ⟨S_, .i32⟩
  | 94 => ⟨S180000, .i32⟩
  | 95 => ⟨S180000, .i32⟩
  | 96 => ⟨S180000, .i32⟩
  | 97 => ⟨S180000x1, .i32⟩
  | 98 => ⟨S180000x1, .i32⟩
  | 99 => ⟨S180000x2, .i32⟩
  | 100 => ⟨S5000x36x4, .f32⟩
  | 101 => ⟨S1x80000, .i32⟩
  | 102 => ⟨S80000, .i32⟩
  | 103 => ⟨S1x80000, .i32⟩
  | 104 => ⟨S80000, .i32⟩
  | 105 => ⟨S_, .i32⟩
  | 106 => ⟨S80000, .i32⟩
  | 107 => ⟨S80000, .i1⟩
  | 108 => ⟨S_, .i32⟩
  | 109 => ⟨S80000, .i32⟩
  | 110 => ⟨S80000, .i32⟩
  | 111 => ⟨S80000, .i32⟩
  | 112 => ⟨S80000x1, .i32⟩
  | 113 => ⟨S80000x36x4, .f32⟩
  | 114 => ⟨S_, .i32⟩
  | 115 => ⟨S80000, .i32⟩
  | 116 => ⟨S80000, .i1⟩
  | 117 => ⟨S_, .i32⟩
  | 118 => ⟨S80000, .i32⟩
  | 119 => ⟨S80000, .i32⟩
  | 120 => ⟨S80000, .i32⟩
  | 121 => ⟨S80000x1, .i32⟩
  | 122 => ⟨S80000x36x4, .f32⟩
  | 123 => ⟨S_, .i32⟩
  | 124 => ⟨S80000, .i32⟩
  | 125 => ⟨S80000, .i1⟩
  | 126 => ⟨S_, .i32⟩
  | 127 => ⟨S80000, .i32⟩
  | _ => ⟨S180000x4, .f32⟩

abbrev hbmTy0_1 (i : Nat) : BufTy := match i % 128 with
  | 0 => ⟨S80000, .i32⟩
  | 1 => ⟨S80000, .i32⟩
  | 2 => ⟨S80000x1, .i32⟩
  | 3 => ⟨S80000x36x4, .f32⟩
  | 4 => ⟨S80000x36x4, .f32⟩
  | 5 => ⟨S_, .f32⟩
  | 6 => ⟨S5000x36x4, .f32⟩
  | 7 => ⟨S_, .i32⟩
  | 8 => ⟨S80000, .i32⟩
  | 9 => ⟨S80000, .i1⟩
  | 10 => ⟨S_, .i32⟩
  | 11 => ⟨S80000, .i32⟩
  | 12 => ⟨S80000, .i32⟩
  | 13 => ⟨S80000, .i32⟩
  | 14 => ⟨S80000x1, .i32⟩
  | 15 => ⟨S5000x36x4, .f32⟩
  | 16 => ⟨S_, .i32⟩
  | 17 => ⟨S180000, .i32⟩
  | 18 => ⟨S180000, .i1⟩
  | 19 => ⟨S_, .i32⟩
  | 20 => ⟨S180000, .i32⟩
  | 21 => ⟨S180000, .i32⟩
  | 22 => ⟨S180000, .i32⟩
  | 23 => ⟨S_, .i32⟩
  | 24 => ⟨S180000, .i32⟩
  | 25 => ⟨S180000, .i1⟩
  | 26 => ⟨S_, .i32⟩
  | 27 => ⟨S180000, .i32⟩
  | 28 => ⟨S180000, .i32⟩
  | 29 => ⟨S180000, .i32⟩
  | 30 => ⟨S180000x1, .i32⟩
  | 31 => ⟨S180000x1, .i32⟩
  | 32 => ⟨S180000x2, .i32⟩
  | 33 => ⟨S180000x4, .f32⟩
  | _ => ⟨S180000x4, .f32⟩

abbrev hbmTy (i : Nat) : BufTy := match i / 128 with
  | 0 => hbmTy0_0 i
  | 1 => hbmTy0_1 i
  | _ => ⟨S180000x4, .f32⟩

abbrev bufTy : (tb : Table) → Fin (tcTables nBuf tb) → BufTy
  | .hbm, ⟨i, _⟩ => hbmTy i
  | .local _ .vmem, ⟨0, _⟩ => ⟨S160x36x36, .f32⟩
  | .local _ .vmem, ⟨1, _⟩ => ⟨S160x36x36, .f32⟩
  | .local _ .vmem, ⟨2, _⟩ => ⟨S160x36x4, .f32⟩
  | .local _ .vmem, ⟨3, _⟩ => ⟨S160x36x4, .f32⟩
  | .local _ .vmem, ⟨4, _⟩ => ⟨S160x36x4, .f32⟩
  | .local _ .vmem, ⟨5, _⟩ => ⟨S160x36x4, .f32⟩
  | .local _ .vmem, ⟨6, _⟩ => ⟨S160x36x4, .f32⟩
  | .local _ .vmem, ⟨7, _⟩ => ⟨S160x36x4, .f32⟩
  | .local _ .vmem, ⟨8, _⟩ => ⟨S16x16, .f32⟩
  | .local _ .vmem, ⟨9, _⟩ => ⟨S16, .f32⟩
  | .local _ .vmem, ⟨10, _⟩ => ⟨S16x16, .f32⟩
  | .local _ .vmem, ⟨11, _⟩ => ⟨S16, .f32⟩
  | .local _ .vmem, ⟨12, _⟩ => ⟨S160x36x4, .f32⟩
  | .local _ .vmem, ⟨13, _⟩ => ⟨S160x36x4, .f32⟩
  | _, _ => ⟨S180000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_call0_call0_c : Ref sig .tc := ⟨.hbm, 25, rfl⟩
abbrev main_call0_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_13 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_c_16 : Ref sig .tc := ⟨.hbm, 83, rfl⟩
abbrev main_v53 : Ref sig .tc := ⟨.hbm, 84, rfl⟩
abbrev main_v54 : Ref sig .tc := ⟨.hbm, 85, rfl⟩
abbrev main_c_17 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_18 : Ref sig .tc := ⟨.hbm, 90, rfl⟩
abbrev main_v58 : Ref sig .tc := ⟨.hbm, 91, rfl⟩
abbrev main_v59 : Ref sig .tc := ⟨.hbm, 92, rfl⟩
abbrev main_c_19 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_20 : Ref sig .tc := ⟨.hbm, 105, rfl⟩
abbrev main_v71 : Ref sig .tc := ⟨.hbm, 106, rfl⟩
abbrev main_v72 : Ref sig .tc := ⟨.hbm, 107, rfl⟩
abbrev main_c_21 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_22 : Ref sig .tc := ⟨.hbm, 114, rfl⟩
abbrev main_v78 : Ref sig .tc := ⟨.hbm, 115, rfl⟩
abbrev main_v79 : Ref sig .tc := ⟨.hbm, 116, rfl⟩
abbrev main_c_23 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_24 : Ref sig .tc := ⟨.hbm, 123, rfl⟩
abbrev main_v85 : Ref sig .tc := ⟨.hbm, 124, rfl⟩
abbrev main_v86 : Ref sig .tc := ⟨.hbm, 125, rfl⟩
abbrev main_c_25 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_26 : Ref sig .tc := ⟨.hbm, 133, rfl⟩
abbrev main_v93 : Ref sig .tc := ⟨.hbm, 134, rfl⟩
abbrev main_c_27 : Ref sig .tc := ⟨.hbm, 135, rfl⟩
abbrev main_v94 : Ref sig .tc := ⟨.hbm, 136, rfl⟩
abbrev main_v95 : Ref sig .tc := ⟨.hbm, 137, rfl⟩
abbrev main_c_28 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_29 : Ref sig .tc := ⟨.hbm, 144, rfl⟩
abbrev main_v101 : Ref sig .tc := ⟨.hbm, 145, rfl⟩
abbrev main_v102 : Ref sig .tc := ⟨.hbm, 146, rfl⟩
abbrev main_c_30 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_31 : Ref sig .tc := ⟨.hbm, 151, rfl⟩
abbrev main_v106 : Ref sig .tc := ⟨.hbm, 152, rfl⟩
abbrev main_v107 : Ref sig .tc := ⟨.hbm, 153, rfl⟩
abbrev main_c_32 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S160x36x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x36x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x36x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x36x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S160x36x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S5000 : S_.BroadcastsInDim S5000 (![] : Fin 0 → Fin S5000.rank)
  bcast_S_S180000 : S_.BroadcastsInDim S180000 (![] : Fin 0 → Fin S180000.rank)
  bcast_S180000_S180000x1_0 : S180000.BroadcastsInDim S180000x1 (![0] : Fin 1 → Fin S180000x1.rank)
  bcast_S_S1 : S_.BroadcastsInDim S1 (![] : Fin 0 → Fin S1.rank)
  bcast_S_S_ : S_.BroadcastsInDim S_ (![] : Fin 0 → Fin S_.rank)
  reduceWindows_S5000_S5000_w5000s1p4999_0 : S5000.ReduceWindows (![5000] : Fin 1 → Nat) ![1] ![4999] ![0] S5000
  h_S_ : 0 < S_.numel
  slices_S5000_S4999_0 : S5000.Slices ![0] S4999
  concatenates_S1_S4999_S5000_d0 : Shape.Concatenates [S1, S4999] S5000 0
  bcast_S_S5000x36x4 : S_.BroadcastsInDim S5000x36x4 (![] : Fin 0 → Fin S5000x36x4.rank)
  concatenates_S180000x1_S180000x1_S180000x2_d1 : Shape.Concatenates [S180000x1, S180000x1] S180000x2 1
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  inb_S160x36x36_S160x36x36_0_0_0 : ∀ a, (![0, 0, 0] : Fin 3 → Nat) a + S160x36x36.size a ≤ S160x36x36.size a
  h_S160x36x36 : 0 < S160x36x36.numel
  bitsLt_bf16_f32 : FTy.bits .bf16 < FTy.bits .f32
  inb_S160x36x4_S160x36x4_0_0_0 : ∀ a, (![0, 0, 0] : Fin 3 → Nat) a + S160x36x4.size a ≤ S160x36x4.size a
  h_S160x36x4 : 0 < S160x36x4.numel
  shapeCasts_S160x36x4_S160x36x4 : S160x36x4.ShapeCasts S160x36x4
  shapeCasts_S160x4x4_S160x16 : S160x4x4.ShapeCasts S160x16
  inb_S16x16_S16x16_0_0 : ∀ a, (![0, 0] : Fin 2 → Nat) a + S16x16.size a ≤ S16x16.size a
  h_S16x16 : 0 < S16x16.numel
  inb_S16_S16_0 : ∀ a, (![0] : Fin 1 → Nat) a + S16.size a ≤ S16.size a
  h_S16 : 0 < S16.numel
  transposes_S16x16_p1_0_S16x16 : S16x16.Transposes [1, 0] S16x16
  shapeCasts_S16_S1x16 : S16.ShapeCasts S1x16
  broadcasts_S1x16_S160x16 : S1x16.Broadcasts S160x16
  shapeCasts_S160x16_S160x4x4 : S160x16.ShapeCasts S160x4x4
  scatter_S5000_S180000x1_S180000_n_0_0_1_wf : ScatterDims.WF S5000 S180000x1 S180000 [] [0] [0] 1
  gather_S5000_S180000x1_S180000_n_0_n_n_0_1_1_wf : GatherDims.WF S5000 S180000x1 S180000 [] [0] [] [0] [] 1 ![1]
  scatter_S5000x36x4_S180000x2_S180000x4_1_01_01_1_wf : ScatterDims.WF S5000x36x4 S180000x2 S180000x4 [1] [0, 1] [0, 1] 1
  gather_S5000x36x4_S80000x1_S80000x36x4_12_0_n_n_0_1_1364_wf : GatherDims.WF S5000x36x4 S80000x1 S80000x36x4 [1, 2] [0] [] [0] [] 1 ![1, 36, 4]
  dot_S160x36x36_S160x36x4_S160x36x4_1_1_2_2_0_0_wf : DotDims.WF S160x36x36 S160x36x4 S160x36x4 [1] [1] [2] [2] [0] [0]
  dot_S160x36x4_S160x36x4_S160x4x4_1_1_2_2_0_0_wf : DotDims.WF S160x36x4 S160x36x4 S160x4x4 [1] [1] [2] [2] [0] [0]
  dot_S160x16_S16x16_S160x16_1_0_0_1_n_n_wf : DotDims.WF S160x16 S16x16 S160x16 [1] [0] [0] [1] [] []
  dot_S160x36x36_S160x36x4_S160x36x4_2_1_1_2_0_0_wf : DotDims.WF S160x36x36 S160x36x4 S160x36x4 [2] [1] [1] [2] [0] [0]
  dot_S160x36x4_S160x4x4_S160x36x4_2_1_1_2_0_0_wf : DotDims.WF S160x36x4 S160x4x4 S160x36x4 [2] [1] [1] [2] [0] [0]
  scatter_S5000x36x4_S80000x1_S80000x36x4_12_0_0_1_wf : ScatterDims.WF S5000x36x4 S80000x1 S80000x36x4 [1, 2] [0] [0] 1
  gather_S5000x36x4_S180000x2_S180000x4_1_01_n_n_01_1_114_wf : GatherDims.WF S5000x36x4 S180000x2 S180000x4 [1] [0, 1] [] [0, 1] [] 1 ![1, 1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S160x36x36.size a ≤ S80000x36x36.size a
  hwx0_0 : ∀ i : grid0.Coords, EltTy.bits .f32 = 32 ∨ (Rect.block (s := S80000x36x36) S160x36x36.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S160x36x4.size a ≤ S80000x36x4.size a
  hwx0_1 : ∀ i : grid0.Coords, EltTy.bits .f32 = 32 ∨ (Rect.block (s := S80000x36x4) S160x36x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S160x36x4.size a ≤ S80000x36x4.size a
  hwx0_2 : ∀ i : grid0.Coords, EltTy.bits .f32 = 32 ∨ (Rect.block (s := S80000x36x4) S160x36x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S160x36x4.size a ≤ S80000x36x4.size a
  hwx0_3 : ∀ i : grid0.Coords, EltTy.bits .f32 = 32 ∨ (Rect.block (s := S80000x36x4) S160x36x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S160x36x4.size a ≤ S80000x36x4.size a
  hwx0_8 : ∀ i : grid0.Coords, EltTy.bits .f32 = 32 ∨ (Rect.block (s := S80000x36x4) S160x36x4.size (cc0_transform_8 i) (hinb0_8 i)).WholeWords (EltTy.packing .f32)

variable [Facts₀]

def scatter_S5000_S180000x1_S180000_n_0_0_1 : ScatterDims S5000 S180000x1 S180000 where
  updateWindowDims := []
  insertedWindowDims := [0]
  scatterDimsToOperandDims := [0]
  indexVectorDim := 1
  wf := scatter_S5000_S180000x1_S180000_n_0_0_1_wf
def gather_S5000_S180000x1_S180000_n_0_n_n_0_1_1 : GatherDims S5000 S180000x1 S180000 where
  offsetDims := []
  collapsedSliceDims := [0]
  operandBatchingDims := []
  startIndicesBatchingDims := []
  startIndexMap := [0]
  indexVectorDim := 1
  sliceSizes := ![1]
  wf := gather_S5000_S180000x1_S180000_n_0_n_n_0_1_1_wf
def scatter_S5000x36x4_S180000x2_S180000x4_1_01_01_1 : ScatterDims S5000x36x4 S180000x2 S180000x4 where
  updateWindowDims := [1]
  insertedWindowDims := [0, 1]
  scatterDimsToOperandDims := [0, 1]
  indexVectorDim := 1
  wf := scatter_S5000x36x4_S180000x2_S180000x4_1_01_01_1_wf
def gather_S5000x36x4_S80000x1_S80000x36x4_12_0_n_n_0_1_1364 : GatherDims S5000x36x4 S80000x1 S80000x36x4 where
  offsetDims := [1, 2]
  collapsedSliceDims := [0]
  operandBatchingDims := []
  startIndicesBatchingDims := []
  startIndexMap := [0]
  indexVectorDim := 1
  sliceSizes := ![1, 36, 4]
  wf := gather_S5000x36x4_S80000x1_S80000x36x4_12_0_n_n_0_1_1364_wf
def dot_S160x36x36_S160x36x4_S160x36x4_1_1_2_2_0_0 : DotDims S160x36x36 S160x36x4 S160x36x4 where
  lhsContracting := [1]
  rhsContracting := [1]
  lhsNonContracting := [2]
  rhsNonContracting := [2]
  lhsBatch := [0]
  rhsBatch := [0]
  wf := dot_S160x36x36_S160x36x4_S160x36x4_1_1_2_2_0_0_wf
def dot_S160x36x4_S160x36x4_S160x4x4_1_1_2_2_0_0 : DotDims S160x36x4 S160x36x4 S160x4x4 where
  lhsContracting := [1]
  rhsContracting := [1]
  lhsNonContracting := [2]
  rhsNonContracting := [2]
  lhsBatch := [0]
  rhsBatch := [0]
  wf := dot_S160x36x4_S160x36x4_S160x4x4_1_1_2_2_0_0_wf
def dot_S160x16_S16x16_S160x16_1_0_0_1_n_n : DotDims S160x16 S16x16 S160x16 where
  lhsContracting := [1]
  rhsContracting := [0]
  lhsNonContracting := [0]
  rhsNonContracting := [1]
  lhsBatch := []
  rhsBatch := []
  wf := dot_S160x16_S16x16_S160x16_1_0_0_1_n_n_wf
def dot_S160x36x36_S160x36x4_S160x36x4_2_1_1_2_0_0 : DotDims S160x36x36 S160x36x4 S160x36x4 where
  lhsContracting := [2]
  rhsContracting := [1]
  lhsNonContracting := [1]
  rhsNonContracting := [2]
  lhsBatch := [0]
  rhsBatch := [0]
  wf := dot_S160x36x36_S160x36x4_S160x36x4_2_1_1_2_0_0_wf
def dot_S160x36x4_S160x4x4_S160x36x4_2_1_1_2_0_0 : DotDims S160x36x4 S160x4x4 S160x36x4 where
  lhsContracting := [2]
  rhsContracting := [1]
  lhsNonContracting := [1]
  rhsNonContracting := [2]
  lhsBatch := [0]
  rhsBatch := [0]
  wf := dot_S160x36x4_S160x4x4_S160x36x4_2_1_1_2_0_0_wf
def scatter_S5000x36x4_S80000x1_S80000x36x4_12_0_0_1 : ScatterDims S5000x36x4 S80000x1 S80000x36x4 where
  updateWindowDims := [1, 2]
  insertedWindowDims := [0]
  scatterDimsToOperandDims := [0]
  indexVectorDim := 1
  wf := scatter_S5000x36x4_S80000x1_S80000x36x4_12_0_0_1_wf
def gather_S5000x36x4_S180000x2_S180000x4_1_01_n_n_01_1_114 : GatherDims S5000x36x4 S180000x2 S180000x4 where
  offsetDims := [1]
  collapsedSliceDims := [0, 1]
  operandBatchingDims := []
  startIndicesBatchingDims := []
  startIndexMap := [0, 1]
  indexVectorDim := 1
  sliceSizes := ![1, 1, 4]
  wf := gather_S5000x36x4_S180000x2_S180000x4_1_01_n_n_01_1_114_wf

abbrev win0_0 : Pipeline.Window sig grid0 :=
  Pipeline.Window.ofSpec (Memref.whole main_arg3) S160x36x36.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S160x36x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v84) S160x36x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v91) S160x36x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v92) S160x36x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S180000x4 : Shape := ⟨2, ![180000, 4]⟩
abbrev S80000x36x36 : Shape := ⟨3, ![80000, 36, 36]⟩
abbrev S2x80000 : Shape := ⟨2, ![2, 80000]⟩
abbrev S180000 : Shape := ⟨1, ![180000]⟩
abbrev S16x16 : Shape := ⟨2, ![16, 16]⟩
abbrev S16 : Shape := ⟨1, ![16]⟩
abbrev S_ : Shape := ⟨0, ![]⟩
abbrev S5000 : Shape := ⟨1, ![5000]⟩
abbrev S180000x1 : Shape := ⟨2, ![180000, 1]⟩
abbrev S1 : Shape := ⟨1, ![1]⟩
abbrev S4999 : Shape := ⟨1, ![4999]⟩
abbrev S5000x36x4 : Shape := ⟨3, ![5000, 36, 4]⟩
abbrev S180000x2 : Shape := ⟨2, ![180000, 2]⟩
abbrev S1x80000 : Shape := ⟨2, ![1, 80000]⟩
abbrev S80000 : Shape := ⟨1, ![80000]⟩
abbrev S80000x1 : Shape := ⟨2, ![80000, 1]⟩
abbrev S80000x36x4 : Shape := ⟨3, ![80000, 36, 4]⟩
abbrev S80000x4x36 : Shape := ⟨3, ![80000, 4, 36]⟩
abbrev S80000x4x4 : Shape := ⟨3, ![80000, 4, 4]⟩
abbrev S80000x16 : Shape := ⟨2, ![80000, 16]⟩
abbrev S1x16 : Shape := ⟨2, ![1, 16]⟩

abbrev nBuf : Space → Nat
  | .hbm => 186
  | .vmem => 0
  | .smem => 0
  | _ => 0

abbrev hbmTy0_0 (i : Nat) : BufTy := match i % 128 with
  | 0 => ⟨S180000x4, .f32⟩
  | 1 => ⟨S180000x4, .f32⟩
  | 2 => ⟨S180000x4, .f32⟩
  | 3 => ⟨S80000x36x36, .f32⟩
  | 4 => ⟨S2x80000, .i32⟩
  | 5 => ⟨S180000, .i32⟩
  | 6 => ⟨S16x16, .f32⟩
  | 7 => ⟨S16, .f32⟩
  | 8 => ⟨S16x16, .f32⟩
  | 9 => ⟨S16, .f32⟩
  | 10 => ⟨S_, .i32⟩
  | 11 => ⟨S5000, .i32⟩
  | 12 => ⟨S_, .i32⟩
  | 13 => ⟨S180000, .i32⟩
  | 14 => ⟨S180000, .i1⟩
  | 15 => ⟨S_, .i32⟩
  | 16 => ⟨S180000, .i32⟩
  | 17 => ⟨S180000, .i32⟩
  | 18 => ⟨S180000, .i32⟩
  | 19 => ⟨S180000x1, .i32⟩
  | 20 => ⟨S_, .i32⟩
  | 21 => ⟨S180000, .i32⟩
  | 22 => ⟨S5000, .i32⟩
  | 23 => ⟨S_, .i32⟩
  | 24 => ⟨S1, .i32⟩
  | 25 => ⟨S_, .i32⟩
  | 26 => ⟨S_, .i32⟩
  | 27 => ⟨S5000, .i32⟩
  | 28 => ⟨S4999, .i32⟩
  | 29 => ⟨S5000, .i32⟩
  | 30 => ⟨S180000, .i32⟩
  | 31 => ⟨S_, .i32⟩
  | 32 => ⟨S180000, .i32⟩
  | 33 => ⟨S180000, .i1⟩
  | 34 => ⟨S_, .i32⟩
  | 35 => ⟨S180000, .i32⟩
  | 36 => ⟨S180000, .i32⟩
  | 37 => ⟨S180000, .i32⟩
  | 38 => ⟨S180000x1, .i32⟩
  | 39 => ⟨S180000, .i32⟩
  | 40 => ⟨S180000, .i32⟩
  | 41 => ⟨S_, .f32⟩
  | 42 => ⟨S5000x36x4, .f32⟩
  | 43 => ⟨S_, .i32⟩
  | 44 => ⟨S180000, .i32⟩
  | 45 => ⟨S180000, .i1⟩
  | 46 => ⟨S_, .i32⟩
  | 47 => ⟨S180000, .i32⟩
  | 48 => ⟨S180000, .i32⟩
  | 49 => ⟨S180000, .i32⟩
  | 50 => ⟨S_, .i32⟩
  | 51 => ⟨S180000, .i32⟩
  | 52 => ⟨S180000, .i1⟩
  | 53 => ⟨S_, .i32⟩
  | 54 => ⟨S180000, .i32⟩
  | 55 => ⟨S180000, .i32⟩
  | 56 => ⟨S180000, .i32⟩
  | 57 => ⟨S180000x1, .i32⟩
  | 58 => ⟨S180000x1, .i32⟩
  | 59 => ⟨S180000x2, .i32⟩
  | 60 => ⟨S5000x36x4, .f32⟩
  | 61 => ⟨S_, .f32⟩
  | 62 => ⟨S5000x36x4, .f32⟩
  | 63 => ⟨S_, .i32⟩
  | 64 => ⟨S180000, .i32⟩
  | 65 => ⟨S180000, .i1⟩
  | 66 => ⟨S_, .i32⟩
  | 67 => ⟨S180000, .i32⟩
  | 68 => ⟨S180000, .i32⟩
  | 69 => ⟨S180000, .i32⟩
  | 70 => ⟨S_, .i32⟩
  | 71 => ⟨S180000, .i32⟩
  | 72 => ⟨S180000, .i1⟩
  | 73 => ⟨S_, .i32⟩
  | 74 => ⟨S180000, .i32⟩
  | 75 => ⟨S180000, .i32⟩
  | 76 => ⟨S180000, .i32⟩
  | 77 => ⟨S180000x1, .i32⟩
  | 78 => ⟨S180000x1, .i32⟩
  | 79 => ⟨S180000x2, .i32⟩
  | 80 => ⟨S5000x36x4, .f32⟩
  | 81 => ⟨S_, .f32⟩
  | 82 => ⟨S5000x36x4, .f32⟩
  | 83 => ⟨S_, .i32⟩
  | 84 => ⟨S180000, .i32⟩
  | 85 => ⟨S180000, .i1⟩
  | 86 => ⟨S_, .i32⟩
  | 87 => ⟨S180000, .i32⟩
  | 88 => ⟨S180000, .i32⟩
  | 89 => ⟨S180000, .i32⟩
  | 90 => ⟨S_, .i32⟩
  | 91 => ⟨S180000, .i32⟩
  | 92 => ⟨S180000, .i1⟩
  | 93 => ⟨S_, .i32⟩
  | 94 => ⟨S180000, .i32⟩
  | 95 => ⟨S180000, .i32⟩
  | 96 => ⟨S180000, .i32⟩
  | 97 => ⟨S180000x1, .i32⟩
  | 98 => ⟨S180000x1, .i32⟩
  | 99 => ⟨S180000x2, .i32⟩
  | 100 => ⟨S5000x36x4, .f32⟩
  | 101 => ⟨S1x80000, .i32⟩
  | 102 => ⟨S80000, .i32⟩
  | 103 => ⟨S1x80000, .i32⟩
  | 104 => ⟨S80000, .i32⟩
  | 105 => ⟨S_, .i32⟩
  | 106 => ⟨S80000, .i32⟩
  | 107 => ⟨S80000, .i1⟩
  | 108 => ⟨S_, .i32⟩
  | 109 => ⟨S80000, .i32⟩
  | 110 => ⟨S80000, .i32⟩
  | 111 => ⟨S80000, .i32⟩
  | 112 => ⟨S80000x1, .i32⟩
  | 113 => ⟨S80000x36x4, .f32⟩
  | 114 => ⟨S_, .i32⟩
  | 115 => ⟨S80000, .i32⟩
  | 116 => ⟨S80000, .i1⟩
  | 117 => ⟨S_, .i32⟩
  | 118 => ⟨S80000, .i32⟩
  | 119 => ⟨S80000, .i32⟩
  | 120 => ⟨S80000, .i32⟩
  | 121 => ⟨S80000x1, .i32⟩
  | 122 => ⟨S80000x36x4, .f32⟩
  | 123 => ⟨S_, .i32⟩
  | 124 => ⟨S80000, .i32⟩
  | 125 => ⟨S80000, .i1⟩
  | 126 => ⟨S_, .i32⟩
  | 127 => ⟨S80000, .i32⟩
  | _ => ⟨S180000x4, .f32⟩

abbrev hbmTy0_1 (i : Nat) : BufTy := match i % 128 with
  | 0 => ⟨S80000, .i32⟩
  | 1 => ⟨S80000, .i32⟩
  | 2 => ⟨S80000x1, .i32⟩
  | 3 => ⟨S80000x36x4, .f32⟩
  | 4 => ⟨S80000x4x36, .f32⟩
  | 5 => ⟨S80000x4x4, .f32⟩
  | 6 => ⟨S80000x16, .f32⟩
  | 7 => ⟨S16x16, .f32⟩
  | 8 => ⟨S80000x16, .f32⟩
  | 9 => ⟨S1x16, .f32⟩
  | 10 => ⟨S80000x16, .f32⟩
  | 11 => ⟨S80000x16, .f32⟩
  | 12 => ⟨S80000x16, .f32⟩
  | 13 => ⟨S80000x16, .f32⟩
  | 14 => ⟨S_, .f32⟩
  | 15 => ⟨S80000x16, .f32⟩
  | 16 => ⟨S80000x16, .f32⟩
  | 17 => ⟨S_, .f32⟩
  | 18 => ⟨S80000x16, .f32⟩
  | 19 => ⟨S80000x16, .f32⟩
  | 20 => ⟨S80000x16, .f32⟩
  | 21 => ⟨S16x16, .f32⟩
  | 22 => ⟨S80000x16, .f32⟩
  | 23 => ⟨S1x16, .f32⟩
  | 24 => ⟨S80000x16, .f32⟩
  | 25 => ⟨S80000x16, .f32⟩
  | 26 => ⟨S80000x4x4, .f32⟩
  | 27 => ⟨S80000x36x4, .f32⟩
  | 28 => ⟨S80000x36x4, .f32⟩
  | 29 => ⟨S_, .f32⟩
  | 30 => ⟨S5000x36x4, .f32⟩
  | 31 => ⟨S_, .i32⟩
  | 32 => ⟨S80000, .i32⟩
  | 33 => ⟨S80000, .i1⟩
  | 34 => ⟨S_, .i32⟩
  | 35 => ⟨S80000, .i32⟩
  | 36 => ⟨S80000, .i32⟩
  | 37 => ⟨S80000, .i32⟩
  | 38 => ⟨S80000x1, .i32⟩
  | 39 => ⟨S5000x36x4, .f32⟩
  | 40 => ⟨S_, .i32⟩
  | 41 => ⟨S180000, .i32⟩
  | 42 => ⟨S180000, .i1⟩
  | 43 => ⟨S_, .i32⟩
  | 44 => ⟨S180000, .i32⟩
  | 45 => ⟨S180000, .i32⟩
  | 46 => ⟨S180000, .i32⟩
  | 47 => ⟨S_, .i32⟩
  | 48 => ⟨S180000, .i32⟩
  | 49 => ⟨S180000, .i1⟩
  | 50 => ⟨S_, .i32⟩
  | 51 => ⟨S180000, .i32⟩
  | 52 => ⟨S180000, .i32⟩
  | 53 => ⟨S180000, .i32⟩
  | 54 => ⟨S180000x1, .i32⟩
  | 55 => ⟨S180000x1, .i32⟩
  | 56 => ⟨S180000x2, .i32⟩
  | 57 => ⟨S180000x4, .f32⟩
  | _ => ⟨S180000x4, .f32⟩

abbrev hbmTy (i : Nat) : BufTy := match i / 128 with
  | 0 => hbmTy0_0 i
  | 1 => hbmTy0_1 i
  | _ => ⟨S180000x4, .f32⟩

abbrev bufTy : (tb : Table) → Fin (tcTables nBuf tb) → BufTy
  | .hbm, ⟨i, _⟩ => hbmTy i
  | _, _ => ⟨S180000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_call0_call0_c : Ref sig .tc := ⟨.hbm, 25, rfl⟩
abbrev main_call0_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_13 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_c_16 : Ref sig .tc := ⟨.hbm, 83, rfl⟩
abbrev main_v53 : Ref sig .tc := ⟨.hbm, 84, rfl⟩
abbrev main_v54 : Ref sig .tc := ⟨.hbm, 85, rfl⟩
abbrev main_c_17 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_18 : Ref sig .tc := ⟨.hbm, 90, rfl⟩
abbrev main_v58 : Ref sig .tc := ⟨.hbm, 91, rfl⟩
abbrev main_v59 : Ref sig .tc := ⟨.hbm, 92, rfl⟩
abbrev main_c_19 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_20 : Ref sig .tc := ⟨.hbm, 105, rfl⟩
abbrev main_v71 : Ref sig .tc := ⟨.hbm, 106, rfl⟩
abbrev main_v72 : Ref sig .tc := ⟨.hbm, 107, rfl⟩
abbrev main_c_21 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_22 : Ref sig .tc := ⟨.hbm, 114, rfl⟩
abbrev main_v78 : Ref sig .tc := ⟨.hbm, 115, rfl⟩
abbrev main_v79 : Ref sig .tc := ⟨.hbm, 116, rfl⟩
abbrev main_c_23 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_24 : Ref sig .tc := ⟨.hbm, 123, rfl⟩
abbrev main_v85 : Ref sig .tc := ⟨.hbm, 124, rfl⟩
abbrev main_v86 : Ref sig .tc := ⟨.hbm, 125, rfl⟩
abbrev main_c_25 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call1_v0 : Ref sig .tc := ⟨.hbm, 140, rfl⟩
abbrev main_call1_v1 : Ref sig .tc := ⟨.hbm, 141, rfl⟩
abbrev main_call1_cst : Ref sig .tc := ⟨.hbm, 142, rfl⟩
abbrev main_call1_v2 : Ref sig .tc := ⟨.hbm, 143, rfl⟩
abbrev main_call1_v3 : Ref sig .tc := ⟨.hbm, 144, rfl⟩
abbrev main_call1_cst_0 : Ref sig .tc := ⟨.hbm, 145, rfl⟩
abbrev main_call1_v4 : Ref sig .tc := ⟨.hbm, 146, rfl⟩
abbrev main_call1_v5 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_26 : Ref sig .tc := ⟨.hbm, 157, rfl⟩
abbrev main_v109 : Ref sig .tc := ⟨.hbm, 158, rfl⟩
abbrev main_c_27 : Ref sig .tc := ⟨.hbm, 159, rfl⟩
abbrev main_v110 : Ref sig .tc := ⟨.hbm, 160, rfl⟩
abbrev main_v111 : Ref sig .tc := ⟨.hbm, 161, rfl⟩
abbrev main_c_28 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_29 : Ref sig .tc := ⟨.hbm, 168, rfl⟩
abbrev main_v117 : Ref sig .tc := ⟨.hbm, 169, rfl⟩
abbrev main_v118 : Ref sig .tc := ⟨.hbm, 170, rfl⟩
abbrev main_c_30 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_31 : Ref sig .tc := ⟨.hbm, 175, rfl⟩
abbrev main_v122 : Ref sig .tc := ⟨.hbm, 176, rfl⟩
abbrev main_v123 : Ref sig .tc := ⟨.hbm, 177, rfl⟩
abbrev main_c_32 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩

abbrev nD : Nat := 1
abbrev τ : Topo := Topo.v7x

variable {F : FTy → Type} [FloatOps F]

class Facts₀ : Prop where
  bcast_S_S5000 : S_.BroadcastsInDim S5000 (![] : Fin 0 → Fin S5000.rank)
  bcast_S_S180000 : S_.BroadcastsInDim S180000 (![] : Fin 0 → Fin S180000.rank)
  bcast_S180000_S180000x1_0 : S180000.BroadcastsInDim S180000x1 (![0] : Fin 1 → Fin S180000x1.rank)
  bcast_S_S1 : S_.BroadcastsInDim S1 (![] : Fin 0 → Fin S1.rank)
  bcast_S_S_ : S_.BroadcastsInDim S_ (![] : Fin 0 → Fin S_.rank)
  reduceWindows_S5000_S5000_w5000s1p4999_0 : S5000.ReduceWindows (![5000] : Fin 1 → Nat) ![1] ![4999] ![0] S5000
  h_S_ : 0 < S_.numel
  slices_S5000_S4999_0 : S5000.Slices ![0] S4999
  concatenates_S1_S4999_S5000_d0 : Shape.Concatenates [S1, S4999] S5000 0
  bcast_S_S5000x36x4 : S_.BroadcastsInDim S5000x36x4 (![] : Fin 0 → Fin S5000x36x4.rank)
  concatenates_S180000x1_S180000x1_S180000x2_d1 : Shape.Concatenates [S180000x1, S180000x1] S180000x2 1
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  shapeCasts_S80000x4x4_S80000x16 : S80000x4x4.ShapeCasts S80000x16
  transposes_S16x16_S16x16_1_0 : S16x16.Transposes [1, 0] S16x16
  bcast_S16_S1x16_1 : S16.BroadcastsInDim S1x16 (![1] : Fin 1 → Fin S1x16.rank)
  bcast_S1x16_S80000x16_0_1 : S1x16.BroadcastsInDim S80000x16 (![0, 1] : Fin 2 → Fin S80000x16.rank)
  bcast_S_S80000x16 : S_.BroadcastsInDim S80000x16 (![] : Fin 0 → Fin S80000x16.rank)
  shapeCasts_S80000x16_S80000x4x4 : S80000x16.ShapeCasts S80000x4x4
  scatter_S5000_S180000x1_S180000_n_0_0_1_wf : ScatterDims.WF S5000 S180000x1 S180000 [] [0] [0] 1
  gather_S5000_S180000x1_S180000_n_0_n_n_0_1_1_wf : GatherDims.WF S5000 S180000x1 S180000 [] [0] [] [0] [] 1 ![1]
  scatter_S5000x36x4_S180000x2_S180000x4_1_01_01_1_wf : ScatterDims.WF S5000x36x4 S180000x2 S180000x4 [1] [0, 1] [0, 1] 1
  gather_S5000x36x4_S80000x1_S80000x36x4_12_0_n_n_0_1_1364_wf : GatherDims.WF S5000x36x4 S80000x1 S80000x36x4 [1, 2] [0] [] [0] [] 1 ![1, 36, 4]
  dot_S80000x36x4_S80000x36x36_S80000x4x36_1_1_2_2_0_0_wf : DotDims.WF S80000x36x4 S80000x36x36 S80000x4x36 [1] [1] [2] [2] [0] [0]
  dot_S80000x4x36_S80000x36x4_S80000x4x4_2_1_1_2_0_0_wf : DotDims.WF S80000x4x36 S80000x36x4 S80000x4x4 [2] [1] [1] [2] [0] [0]
  dot_S80000x16_S16x16_S80000x16_1_0_0_1_n_n_wf : DotDims.WF S80000x16 S16x16 S80000x16 [1] [0] [0] [1] [] []
  dot_S80000x36x36_S80000x36x4_S80000x36x4_2_1_1_2_0_0_wf : DotDims.WF S80000x36x36 S80000x36x4 S80000x36x4 [2] [1] [1] [2] [0] [0]
  dot_S80000x36x4_S80000x4x4_S80000x36x4_2_1_1_2_0_0_wf : DotDims.WF S80000x36x4 S80000x4x4 S80000x36x4 [2] [1] [1] [2] [0] [0]
  scatter_S5000x36x4_S80000x1_S80000x36x4_12_0_0_1_wf : ScatterDims.WF S5000x36x4 S80000x1 S80000x36x4 [1, 2] [0] [0] 1
  gather_S5000x36x4_S180000x2_S180000x4_1_01_n_n_01_1_114_wf : GatherDims.WF S5000x36x4 S180000x2 S180000x4 [1] [0, 1] [] [0, 1] [] 1 ![1, 1, 4]

variable [Facts₀]

def scatter_S5000_S180000x1_S180000_n_0_0_1 : ScatterDims S5000 S180000x1 S180000 where
  updateWindowDims := []
  insertedWindowDims := [0]
  scatterDimsToOperandDims := [0]
  indexVectorDim := 1
  wf := scatter_S5000_S180000x1_S180000_n_0_0_1_wf
def gather_S5000_S180000x1_S180000_n_0_n_n_0_1_1 : GatherDims S5000 S180000x1 S180000 where
  offsetDims := []
  collapsedSliceDims := [0]
  operandBatchingDims := []
  startIndicesBatchingDims := []
  startIndexMap := [0]
  indexVectorDim := 1
  sliceSizes := ![1]
  wf := gather_S5000_S180000x1_S180000_n_0_n_n_0_1_1_wf
def scatter_S5000x36x4_S180000x2_S180000x4_1_01_01_1 : ScatterDims S5000x36x4 S180000x2 S180000x4 where
  updateWindowDims := [1]
  insertedWindowDims := [0, 1]
  scatterDimsToOperandDims := [0, 1]
  indexVectorDim := 1
  wf := scatter_S5000x36x4_S180000x2_S180000x4_1_01_01_1_wf
def gather_S5000x36x4_S80000x1_S80000x36x4_12_0_n_n_0_1_1364 : GatherDims S5000x36x4 S80000x1 S80000x36x4 where
  offsetDims := [1, 2]
  collapsedSliceDims := [0]
  operandBatchingDims := []
  startIndicesBatchingDims := []
  startIndexMap := [0]
  indexVectorDim := 1
  sliceSizes := ![1, 36, 4]
  wf := gather_S5000x36x4_S80000x1_S80000x36x4_12_0_n_n_0_1_1364_wf
def dot_S80000x36x4_S80000x36x36_S80000x4x36_1_1_2_2_0_0 : DotDims S80000x36x4 S80000x36x36 S80000x4x36 where
  lhsContracting := [1]
  rhsContracting := [1]
  lhsNonContracting := [2]
  rhsNonContracting := [2]
  lhsBatch := [0]
  rhsBatch := [0]
  wf := dot_S80000x36x4_S80000x36x36_S80000x4x36_1_1_2_2_0_0_wf
def dot_S80000x4x36_S80000x36x4_S80000x4x4_2_1_1_2_0_0 : DotDims S80000x4x36 S80000x36x4 S80000x4x4 where
  lhsContracting := [2]
  rhsContracting := [1]
  lhsNonContracting := [1]
  rhsNonContracting := [2]
  lhsBatch := [0]
  rhsBatch := [0]
  wf := dot_S80000x4x36_S80000x36x4_S80000x4x4_2_1_1_2_0_0_wf
def dot_S80000x16_S16x16_S80000x16_1_0_0_1_n_n : DotDims S80000x16 S16x16 S80000x16 where
  lhsContracting := [1]
  rhsContracting := [0]
  lhsNonContracting := [0]
  rhsNonContracting := [1]
  lhsBatch := []
  rhsBatch := []
  wf := dot_S80000x16_S16x16_S80000x16_1_0_0_1_n_n_wf
def dot_S80000x36x36_S80000x36x4_S80000x36x4_2_1_1_2_0_0 : DotDims S80000x36x36 S80000x36x4 S80000x36x4 where
  lhsContracting := [2]
  rhsContracting := [1]
  lhsNonContracting := [1]
  rhsNonContracting := [2]
  lhsBatch := [0]
  rhsBatch := [0]
  wf := dot_S80000x36x36_S80000x36x4_S80000x36x4_2_1_1_2_0_0_wf
def dot_S80000x36x4_S80000x4x4_S80000x36x4_2_1_1_2_0_0 : DotDims S80000x36x4 S80000x4x4 S80000x36x4 where
  lhsContracting := [2]
  rhsContracting := [1]
  lhsNonContracting := [1]
  rhsNonContracting := [2]
  lhsBatch := [0]
  rhsBatch := [0]
  wf := dot_S80000x36x4_S80000x4x4_S80000x36x4_2_1_1_2_0_0_wf
def scatter_S5000x36x4_S80000x1_S80000x36x4_12_0_0_1 : ScatterDims S5000x36x4 S80000x1 S80000x36x4 where
  updateWindowDims := [1, 2]
  insertedWindowDims := [0]
  scatterDimsToOperandDims := [0]
  indexVectorDim := 1
  wf := scatter_S5000x36x4_S80000x1_S80000x36x4_12_0_0_1_wf
def gather_S5000x36x4_S180000x2_S180000x4_1_01_n_n_01_1_114 : GatherDims S5000x36x4 S180000x2 S180000x4 where
  offsetDims := [1]
  collapsedSliceDims := [0, 1]
  operandBatchingDims := []
  startIndicesBatchingDims := []
  startIndexMap := [0, 1]
  indexVectorDim := 1
  sliceSizes := ![1, 1, 4]
  wf := gather_S5000x36x4_S180000x2_S180000x4_1_01_n_n_01_1_114_wf

class Facts : Prop extends Facts₀ where

variable [Facts]
-- ==== Proof.EdgeSpec.lean ====
/-
  The message one edge sends, as a function on the extended reals.

  An edge carries a 36 × 36 matrix `em`; its source node gives a 36 × 4 query block `q`, its target node a 36 × 4 key
  block `k` and a 36 × 4 value block `v`. The edge's 4 × 4 score is `score[c, m] = ∑ j, (∑ i, em[i, j] · q[i, c]) · k[j, m]`.
  The score, flattened row-major to 16 numbers, goes through a two-layer perceptron: `x ↦ W₂ · silu (W₁ · x + b₁) + b₂`,
  where `silu x = x · logistic x` and each layer contracts the input with the ROWS of its weight matrix
  (`(W · x)[o] = ∑ p, x[p] · W[o, p]`). The result, unflattened to a 4 × 4 matrix `a`, mixes the channels of the
  transported value: `message[i, m] = ∑ c, (∑ j, em[i, j] · v[j, c]) · a[c, m]`.

  `msg N` applies this to `N` edges at once: arrays indexed `(edge, row, column)`, the weights shared.
  Everything is a finite sum of products on the extended reals; no finiteness is assumed anywhere.
-/
import Idealize.ShloMosaic.Lib.ValueIdx
import Idealize.ShloMosaic.PureOps.Ideal

noncomputable section

namespace Cert.EdgeSpec

open Idealize.ShloMosaic Idealize.ShloMosaic.ValueIdx

/-- The edge's 4 × 4 score: the edge matrix contracted with the query block over rows, then with the key block
    over columns. -/
def score (em : Fin 36 → Fin 36 → EReal) (q k : Fin 36 → Fin 4 → EReal) (c m : Fin 4) : EReal :=
  ∑ j : Fin 36, (∑ i : Fin 36, em i j * q i c) * k j m

/-- A 4 × 4 matrix read at a row-major position `p < 16`: entry `(p / 4, p % 4)`. -/
def flat (a : Fin 4 → Fin 4 → EReal) (p : Fin 16) : EReal :=
  a ⟨p.val / 4, by omega⟩ ⟨p.val % 4, by omega⟩

/-- One dense layer: the input contracted with each row of the weight matrix, plus the bias. -/
def dense (x : Fin 16 → EReal) (w : Fin 16 → Fin 16 → EReal) (b : Fin 16 → EReal) (o : Fin 16) : EReal :=
  (∑ p : Fin 16, x p * w o p) + b o

/-- `silu x = x · logistic x`, with `logistic x = 1 / (1 + e^(-x))` on the extended reals. -/
def silu (x : EReal) : EReal := x * Ideal.logistic x

/-- The perceptron on the flattened score. -/
def mlp (a : Fin 4 → Fin 4 → EReal) (w1 : Fin 16 → Fin 16 → EReal) (b1 : Fin 16 → EReal)
    (w2 : Fin 16 → Fin 16 → EReal) (b2 : Fin 16 → EReal) (o : Fin 16) : EReal :=
  dense (fun p => silu (dense (flat a) w1 b1 p)) w2 b2 o

/-- The edge's message: the value block transported by the edge matrix, its channels mixed by the perceptron's
    output read as a 4 × 4 matrix at row-major position `4 c + m`. -/
def edgeMsg (em : Fin 36 → Fin 36 → EReal) (q k v : Fin 36 → Fin 4 → EReal)
    (w1 : Fin 16 → Fin 16 → EReal) (b1 : Fin 16 → EReal) (w2 : Fin 16 → Fin 16 → EReal) (b2 : Fin 16 → EReal)
    (i : Fin 36) (m : Fin 4) : EReal :=
  ∑ c : Fin 4, (∑ j : Fin 36, em i j * v j c) * mlp (score em q k) w1 b1 w2 b2 ⟨c.val * 4 + m.val, by omega⟩

/-- The messages of `N` edges: entry `(e, i, m)` is edge `e`'s message at `(i, m)`, from the edge's own slices of the
    four edge-indexed arrays and the shared weights. -/
def msg (N : ℕ) (EM : (⟨3, ![N, 36, 36]⟩ : Shape).Idx → EReal) (Q K V : (⟨3, ![N, 36, 4]⟩ : Shape).Idx → EReal)
    (W1 : (⟨2, ![16, 16]⟩ : Shape).Idx → EReal) (B1 : (⟨1, ![16]⟩ : Shape).Idx → EReal)
    (W2 : (⟨2, ![16, 16]⟩ : Shape).Idx → EReal) (B2 : (⟨1, ![16]⟩ : Shape).Idx → EReal) :
    (⟨3, ![N, 36, 4]⟩ : Shape).Idx → EReal :=
  fun y => edgeMsg (fun i j => EM (ix3 (y 0 : Fin N) i j)) (fun i c => Q (ix3 (y 0 : Fin N) i c))
    (fun j m => K (ix3 (y 0 : Fin N) j m)) (fun j c => V (ix3 (y 0 : Fin N) j c))
    (fun o p => W1 (ix2 o p)) (fun o => B1 (ix1 o)) (fun o p => W2 (ix2 o p)) (fun o => B2 (ix1 o)) (y 1) (y 2)

/-- `msg` at explicit coordinates. -/
theorem msg_ix3 (N : ℕ) (EM : (⟨3, ![N, 36, 36]⟩ : Shape).Idx → EReal) (Q K V : (⟨3, ![N, 36, 4]⟩ : Shape).Idx → EReal)
    (W1 : (⟨2, ![16, 16]⟩ : Shape).Idx → EReal) (B1 : (⟨1, ![16]⟩ : Shape).Idx → EReal)
    (W2 : (⟨2, ![16, 16]⟩ : Shape).Idx → EReal) (B2 : (⟨1, ![16]⟩ : Shape).Idx → EReal)
    (e : Fin N) (i : Fin 36) (m : Fin 4) :
    msg N EM Q K V W1 B1 W2 B2 (ix3 e i m)
      = edgeMsg (fun i j => EM (ix3 e i j)) (fun i c => Q (ix3 e i c)) (fun j m => K (ix3 e j m))
          (fun j c => V (ix3 e j c)) (fun o p => W1 (ix2 o p)) (fun o => B1 (ix1 o)) (fun o p => W2 (ix2 o p))
          (fun o => B2 (ix1 o)) i m := rfl

end Cert.EdgeSpec

end
-- ==== Proof.LibDotFin.lean ====
/-
  A matrix product with ONE contracted axis, read at an output position, as a sum over the positions of that axis.

  The contraction index of such a product has a single coordinate, so the sum over contraction indices is a sum
  over `k : Fin K`, `K` the contracted extent. Which operand positions the `k`-th term reads is given by the caller
  as two families `L k`, `R k` of operand indices, with the coordinate-by-coordinate agreement as hypotheses: for a
  literal record of dimension numbers each coordinate agrees by computation, whatever batch axes the product has and
  whichever axes it contracts.
-/
import Idealize.ShloMosaic.Lib.ValueIdx
import Idealize.ShloMosaic.PureOps.Ideal.Laws

noncomputable section

namespace Idealize.ShloMosaic.ValueIdx

/-- The sum over the one-axis contraction index of a product, at output index `j`, is the sum over `k : Fin K` of
    `lhs (L k) * rhs (R k)`, when the dimension numbers' operand indices at `j` and a contraction index `q` are
    `L` and `R` at `q`'s one coordinate. -/
theorem dot_sum_fin {sl sr so : Shape} (d : DotDims sl sr so) (K : ℕ) (hr : d.contr.rank = 1)
    (hs : d.contr.size ⟨0, by omega⟩ = K) (lhs : sl.Idx → EReal) (rhs : sr.Idx → EReal) (j : so.Idx)
    (L : Fin K → sl.Idx) (R : Fin K → sr.Idx)
    (hL : ∀ (q : d.contr.Idx) (a : Fin sl.rank), (d.lhsIdx j q a).val = (L (contrEquiv1 d K hr hs q) a).val)
    (hR : ∀ (q : d.contr.Idx) (a : Fin sr.rank), (d.rhsIdx j q a).val = (R (contrEquiv1 d K hr hs q) a).val) :
    ∑ q : d.contr.Idx, lhs (d.lhsIdx j q) * rhs (d.rhsIdx j q) = ∑ k : Fin K, lhs (L k) * rhs (R k) := by
  rw [← Equiv.sum_comp (contrEquiv1 d K hr hs)]
  refine Finset.sum_congr rfl fun q _ => ?_
  rw [show d.lhsIdx j q = L (contrEquiv1 d K hr hs q) from funext fun a => Fin.ext (hL q a),
    show d.rhsIdx j q = R (contrEquiv1 d K hr hs q) from funext fun a => Fin.ext (hR q a)]

end Idealize.ShloMosaic.ValueIdx

end
-- ==== Proof.KBlock.lean ====
/-
  One grid point of the kernel computes, from its block of 160 edges, the messages of those 160 edges.

  The body contracts the block's edge matrices with the query block over rows and the result with the key block over
  columns (the 4 × 4 score of each edge), flattens the score row-major, applies the two dense layers with
  `x · logistic x` between them (each layer a product with the TRANSPOSED weight matrix, so it contracts with the
  rows of the weights, plus the bias row broadcast over the edges), unflattens, and mixes the channels of the value
  block transported by the edge matrix. Format changes are the identity on the extended reals, a product into the
  zero accumulator is the plain sum over the contracted axis, and a reshape keeps the row-major position: so the
  stored block is `Cert.EdgeSpec.msg 160` of the eight loaded blocks, entry by entry.
-/
import proofs.«151895_j50173807952913_2_alg».proof.Proof.Gen.KernelIdeal.Skeleton
import proofs.«151895_j50173807952913_2_alg».proof.Proof.EdgeSpec
import proofs.«151895_j50173807952913_2_alg».proof.Proof.LibDotFin
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx Cert.EdgeSpec

/-! ## The five products, each at an output position -/

/-- Edge matrices against a 36 × 4 block, contracted over the ROWS of both: entry `(e, j, c)`. -/
theorem dot_rows (A : FVec Ideal S160x36x36 .bf16) (Q : FVec Ideal S160x36x4 .bf16) (e : Fin 160) (j : Fin 36) (c : Fin 4) :
    matmul dot_S160x36x36_S160x36x4_S160x36x4_1_1_2_2_0_0 none A Q (constant S160x36x4 .f32 0x00000000#32) (ix3 e j c)
      = ∑ i : Fin 36, A (ix3 e i j) * Q (ix3 e i c) := by
  refine (Ideal.matmul_constant_zero_apply _ none A Q _).trans ?_
  refine dot_sum_fin _ 36 rfl rfl A Q _ (fun i => ix3 e i j) (fun i => ix3 e i c) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

/-- Two 36 × 4 blocks contracted over their rows: the 4 × 4 entry `(e, c, m)`. -/
theorem dot_cols (T Kk : FVec Ideal S160x36x4 .bf16) (e : Fin 160) (c m : Fin 4) :
    matmul dot_S160x36x4_S160x36x4_S160x4x4_1_1_2_2_0_0 none T Kk (constant S160x4x4 .f32 0x00000000#32) (ix3 e c m)
      = ∑ j : Fin 36, T (ix3 e j c) * Kk (ix3 e j m) := by
  refine (Ideal.matmul_constant_zero_apply _ none T Kk _).trans ?_
  refine dot_sum_fin _ 36 rfl rfl T Kk _ (fun j => ix3 e j c) (fun j => ix3 e j m) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

/-- Edge matrices applied to a 36 × 4 block (columns of the matrix against rows of the block): entry `(e, i, c)`. -/
theorem dot_transport (A : FVec Ideal S160x36x36 .bf16) (Vv : FVec Ideal S160x36x4 .bf16) (e : Fin 160) (i : Fin 36) (c : Fin 4) :
    matmul dot_S160x36x36_S160x36x4_S160x36x4_2_1_1_2_0_0 none A Vv (constant S160x36x4 .f32 0x00000000#32) (ix3 e i c)
      = ∑ j : Fin 36, A (ix3 e i j) * Vv (ix3 e j c) := by
  refine (Ideal.matmul_constant_zero_apply _ none A Vv _).trans ?_
  refine dot_sum_fin _ 36 rfl rfl A Vv _ (fun j => ix3 e i j) (fun j => ix3 e j c) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

/-- A 36 × 4 block against a 4 × 4 matrix: entry `(e, i, m)`. -/
theorem dot_mix (T : FVec Ideal S160x36x4 .bf16) (Mx : FVec Ideal S160x4x4 .bf16) (e : Fin 160) (i : Fin 36) (m : Fin 4) :
    matmul dot_S160x36x4_S160x4x4_S160x36x4_2_1_1_2_0_0 none T Mx (constant S160x36x4 .f32 0x00000000#32) (ix3 e i m)
      = ∑ c : Fin 4, T (ix3 e i c) * Mx (ix3 e c m) := by
  refine (Ideal.matmul_constant_zero_apply _ none T Mx _).trans ?_
  refine dot_sum_fin _ 4 rfl rfl T Mx _ (fun c => ix3 e i c) (fun c => ix3 e c m) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

/-- A dense layer's product: 16 inputs per edge against the TRANSPOSED 16 × 16 weights, so output `o` contracts
    the inputs with ROW `o` of the weights. -/
theorem dot_dense (X : FVec Ideal S160x16 .bf16) (W : FVec Ideal S16x16 .bf16) (e : Fin 160) (o : Fin 16) :
    matmul dot_S160x16_S16x16_S160x16_1_0_0_1_n_n none X (transpose S16x16 [1, 0] W transposes_S16x16_p1_0_S16x16)
        (constant S160x16 .f32 0x00000000#32) (ix2 e o)
      = ∑ p : Fin 16, X (ix2 e p) * W (ix2 o p) := by
  refine (Ideal.matmul_constant_zero_apply _ none X _ _).trans ?_
  refine (dot_sum_fin _ 16 rfl rfl X _ _ (fun p => ix2 e p) (fun p => ix2 p o) ?_ ?_).trans ?_
  · intro q a
    match a with
    | ⟨0, _⟩ => rfl
    | ⟨1, _⟩ => rfl
  · intro q a
    match a with
    | ⟨0, _⟩ => rfl
    | ⟨1, _⟩ => rfl
  · exact Finset.sum_congr rfl fun p _ => congrArg (X (ix2 e p) * ·) (transpose_ix2_apply W _ p o)

/-! ## The bias row and the two reshapes -/

/-- A bias vector made a row and broadcast over the edges reads, at `(e, o)`, the bias at `o`. -/
theorem bias_row (b : FVec Ideal S16 .f32) (e : Fin 160) (o : Fin 16) :
    broadcastTo S160x16 (shapeCast S1x16 b shapeCasts_S16_S1x16) broadcasts_S1x16_S160x16 (ix2 e o) = b (ix1 o) :=
  (broadcastTo_1b_ab_apply _ _ e o).trans (shapeCast_a_1a_apply b _ 0 o)

/-- The 4 × 4 scores flattened: position `p` of edge `e` is entry `(p / 4, p % 4)`. -/
theorem flatten (a : FVec Ideal S160x4x4 .f32) (e : Fin 160) (p : Fin 16) :
    shapeCast S160x16 a shapeCasts_S160x4x4_S160x16 (ix2 e p)
      = a (ix3 e (⟨p.val / 4, by omega⟩ : Fin 4) (⟨p.val % 4, by omega⟩ : Fin 4)) :=
  shapeCast_apply a _ _ _ (by
    rw [Shape.rowMajor_val_three, Shape.rowMajor_val_two]
    show (e.val * 4 + p.val / 4) * 4 + p.val % 4 = e.val * 16 + p.val
    omega)

/-- The 16 outputs unflattened: entry `(c, m)` of edge `e` is position `4 c + m`. -/
theorem unflatten (x : FVec Ideal S160x16 .f32) (e : Fin 160) (c m : Fin 4) :
    shapeCast S160x4x4 x shapeCasts_S160x16_S160x4x4 (ix3 e c m)
      = x (ix2 e (⟨c.val * 4 + m.val, by omega⟩ : Fin 16)) :=
  shapeCast_apply x _ _ _ (by
    rw [Shape.rowMajor_val_two, Shape.rowMajor_val_three]
    show e.val * 16 + (c.val * 4 + m.val) = (e.val * 4 + c.val) * 4 + m.val
    omega)

/-- `x · logistic x` of equal arguments. -/
theorem mul_logistic_congr {a b : EReal} (h : a = b) : a * Ideal.logistic a = b * Ideal.logistic b := by rw [h]

/-- A change of format f32 → bf16 is the identity on the extended reals, at every position. -/
theorem trunc_at {s : Shape} (a : FVec Ideal s .f32) (h : FTy.bf16.bits < FTy.f32.bits) (i : s.Idx) :
    (truncf .bf16 a h : FVec Ideal s .bf16) i = a i := rfl

/-- The activation as the body spells it, at a position: the format change is the identity, and the product and
    the logistic function act entry by entry. -/
theorem act_apply (v : FVec Ideal S160x16 .f32) (j : S160x16.Idx) :
    (truncf .bf16 (mulf v (logistic v)) bitsLt_bf16_f32 : FVec Ideal S160x16 .bf16) j = v j * Ideal.logistic (v j) := rfl

/-! ## The body's arithmetic, entry by entry -/

/-- The 4 × 4 matrix the body multiplies the transported values with: the perceptron's output on the edge's score. -/
theorem mixer_eq (x0 : Vec Ideal S160x36x36 .f32) (x1 x2 : Vec Ideal S160x36x4 .f32) (x4 : Vec Ideal S16x16 .f32)
    (x5 : Vec Ideal S16 .f32) (x6 : Vec Ideal S16x16 .f32) (x7 : Vec Ideal S16 .f32) (e : Fin 160) (c m : Fin 4) :
    k0_pay4 x0 x1 x2 x4 x5 x6 x7 (ix3 e c m)
      = mlp (score (fun i j => x0 (ix3 e i j)) (fun i c => x1 (ix3 e i c)) (fun j m => x2 (ix3 e j m)))
          (fun o p => x4 (ix2 o p)) (fun o => x5 (ix1 o)) (fun o p => x6 (ix2 o p)) (fun o => x7 (ix1 o))
          ⟨c.val * 4 + m.val, by omega⟩ := by
  unfold k0_pay4 k0_pay2 mlp dense silu
  refine (trunc_at _ _ _).trans ((unflatten _ e c m).trans ?_)
  refine congrArg₂ (· + ·) ?_ (bias_row x7 e _)
  refine (dot_dense _ _ e _).trans (Finset.sum_congr rfl fun q _ => congrArg₂ (· * ·) ?_ rfl)
  refine (act_apply _ _).trans (mul_logistic_congr ?_)
  refine congrArg₂ (· + ·) ?_ (bias_row x5 e q)
  refine (dot_dense _ _ e q).trans (Finset.sum_congr rfl fun r _ => congrArg₂ (· * ·) ?_ rfl)
  refine (trunc_at _ _ _).trans ((flatten _ e r).trans ?_)
  unfold flat score
  refine (dot_cols _ _ e _ _).trans (Finset.sum_congr rfl fun j _ => congrArg₂ (· * ·) ?_ ?_)
  · refine (trunc_at _ _ _).trans ((dot_rows _ _ e j _).trans (Finset.sum_congr rfl fun i _ => ?_))
    exact congrArg (x0 (ix3 e i j) * ·) (congrFun (shapeCast_self x1 _) _)
  · exact congrFun (shapeCast_self x2 _) _

/-- The stored payload at `(e, i, m)` is edge `e`'s message at `(i, m)`. -/
theorem payload_eq (x0 : Vec Ideal S160x36x36 .f32) (x1 x2 x3 : Vec Ideal S160x36x4 .f32) (x4 : Vec Ideal S16x16 .f32)
    (x5 : Vec Ideal S16 .f32) (x6 : Vec Ideal S16x16 .f32) (x7 : Vec Ideal S16 .f32) (e : Fin 160) (i : Fin 36) (m : Fin 4) :
    k0_pay1 (k0_pay2 x0) (k0_pay3 x3) (k0_pay4 x0 x1 x2 x4 x5 x6 x7) (ix3 e i m)
      = msg 160 x0 x1 x2 x3 x4 x5 x6 x7 (ix3 e i m) := by
  rw [msg_ix3]
  unfold k0_pay1 edgeMsg
  refine (dot_mix _ _ e i m).trans (Finset.sum_congr rfl fun c _ => congrArg₂ (· * ·) ?_ (mixer_eq x0 x1 x2 x4 x5 x6 x7 e c m))
  unfold k0_pay2 k0_pay3
  refine (trunc_at _ _ _).trans ((dot_transport _ _ e i c).trans (Finset.sum_congr rfl fun j _ => ?_))
  exact congrArg (x0 (ix3 e i j) * ·) (congrFun (shapeCast_self x3 _) _)

end Cert.KernelIdeal.BlockValue

end
-- ==== Proof.KIdx.lean ====
/-
  The grid of the kernel's region and the function its output array ends holding.

  The grid has 500 points; the four edge-indexed windows and the output window sit at block `(t, 0, 0)` at point `t`,
  the four weight windows at block zero at every point (decided over the grid). `edgeMessages` is
  `Cert.EdgeSpec.msg 80000` of the eight arrays as the region finds them; a block of 160 edges of it depends only on
  the same 160 edges of the edge-indexed arrays (`block_is_restriction`).
-/
import proofs.«151895_j50173807952913_2_alg».proof.Proof.Gen.KernelIdeal.Frame
import proofs.«151895_j50173807952913_2_alg».proof.Proof.KBlock
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeSpec
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the edge-indexed windows and the output sit at block `(t, 0, 0)`, the
    weight windows at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_8.index t (0 : Fin 3) = t.val ∧ win0_8.index t (1 : Fin 3) = 0 ∧ win0_8.index t (2 : Fin 3) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0 :=
  (by decide +kernel : ∀ t : Fin grid0.N, _)

/-- Edge `n < 160` of block `b < 500` is edge `160 b + n < 80000`. -/
theorem edge_lt {b : ℕ} (hb : b < 500) {n : ℕ} (hn : n < 160) : b * 160 + n < 80000 := by omega

/-- The messages of all 80000 edges, from the arrays as the region finds them. -/
def edgeMessages (c : Dev nD) : S80000x36x4.Idx → EReal :=
  msg 80000 (V m c main_arg3) (V m c main_v77) (V m c main_v84) (V m c main_v91) (V m c main_arg6) (V m c main_arg7)
    (V m c main_arg8) (V m c main_arg9)

/-- A block of 160 edges is a restriction: if the eight loaded blocks are edges `160 b … 160 b + 159` of the
    edge-indexed arrays and the whole weight arrays, the stored payload at `(e, i, mm)` is the message of edge
    `160 b + e` at `(i, mm)`. -/
theorem block_is_restriction (EM : S80000x36x36.Idx → EReal) (EQ EK EV : S80000x36x4.Idx → EReal)
    (W1 : S16x16.Idx → EReal) (B1 : S16.Idx → EReal) (W2 : S16x16.Idx → EReal) (B2 : S16.Idx → EReal)
    (x0 : Vec Ideal S160x36x36 .f32) (x1 x2 x3 : Vec Ideal S160x36x4 .f32) (x4 : Vec Ideal S16x16 .f32)
    (x5 : Vec Ideal S16 .f32) (x6 : Vec Ideal S16x16 .f32) (x7 : Vec Ideal S16 .f32) (b : ℕ) (hb : b < 500)
    (h0 : ∀ y : S160x36x36.Idx, x0 y = EM (ix3 (⟨b * 160 + (y 0).val, edge_lt hb (y 0).isLt⟩ : Fin 80000) (y 1) (y 2)))
    (h1 : ∀ y : S160x36x4.Idx, x1 y = EQ (ix3 (⟨b * 160 + (y 0).val, edge_lt hb (y 0).isLt⟩ : Fin 80000) (y 1) (y 2)))
    (h2 : ∀ y : S160x36x4.Idx, x2 y = EK (ix3 (⟨b * 160 + (y 0).val, edge_lt hb (y 0).isLt⟩ : Fin 80000) (y 1) (y 2)))
    (h3 : ∀ y : S160x36x4.Idx, x3 y = EV (ix3 (⟨b * 160 + (y 0).val, edge_lt hb (y 0).isLt⟩ : Fin 80000) (y 1) (y 2)))
    (h4 : x4 = W1) (h5 : x5 = B1) (h6 : x6 = W2) (h7 : x7 = B2) (y : S160x36x4.Idx) :
    k0_pay1 (k0_pay2 x0) (k0_pay3 x3) (k0_pay4 x0 x1 x2 x4 x5 x6 x7) y
      = msg 80000 EM EQ EK EV W1 B1 W2 B2
          (ix3 (⟨b * 160 + (y 0).val, edge_lt hb (y 0).isLt⟩ : Fin 80000) (y 1) (y 2)) := by
  subst h4 h5 h6 h7
  obtain ⟨e, i, mm, rfl⟩ : ∃ (e : Fin 160) (i : Fin 36) (mm : Fin 4), y = ix3 e i mm := ⟨y 0, y 1, y 2, eq_ix3 y⟩
  rw [BlockValue.payload_eq, msg_ix3]
  refine Eq.trans ?_ (msg_ix3 80000 EM EQ EK EV x4 x5 x6 x7 ⟨b * 160 + e.val, edge_lt hb e.isLt⟩ i mm).symm
  have e0 : (fun (i j : Fin 36) => x0 (ix3 e i j)) = fun i j => EM (ix3 (⟨b * 160 + e.val, edge_lt hb e.isLt⟩ : Fin 80000) i j) :=
    funext fun i => funext fun j => h0 (ix3 e i j)
  have e1 : (fun (i : Fin 36) (cc : Fin 4) => x1 (ix3 e i cc)) = fun i cc => EQ (ix3 (⟨b * 160 + e.val, edge_lt hb e.isLt⟩ : Fin 80000) i cc) :=
    funext fun i => funext fun cc => h1 (ix3 e i cc)
  have e2 : (fun (j : Fin 36) (k : Fin 4) => x2 (ix3 e j k)) = fun j k => EK (ix3 (⟨b * 160 + e.val, edge_lt hb e.isLt⟩ : Fin 80000) j k) :=
    funext fun j => funext fun k => h2 (ix3 e j k)
  have e3 : (fun (j : Fin 36) (cc : Fin 4) => x3 (ix3 e j cc)) = fun j cc => EV (ix3 (⟨b * 160 + e.val, edge_lt hb e.isLt⟩ : Fin 80000) j cc) :=
    funext fun j => funext fun cc => h3 (ix3 e j cc)
  rw [e0, e1, e2, e3]

end Cert.KernelIdeal.ArrayValue

end
-- ==== Proof.KReadA.lean ====
/-
  Blocks of the region's windows, read off their arrays (the edge matrices, the gathered queries and keys).

  An element of the block at point `t` sits in the array, on each axis, at the block index times the block's extent
  plus its own coordinate. With the index maps of the grid: a block of an edge-indexed window is edges
  `160 t … 160 t + 159` of its array, a block of a weight window is the whole array.
-/
import proofs.«151895_j50173807952913_2_alg».proof.Proof.KIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeSpec
open Idealize.ShloMosaic.Pipeline (Dat)

variable (m : (ℓ : Loc nD τ sig) → Buf (Elt Ideal) ℓ)

/-- Window 0's block at point `t` is edges `160 t …` of its array. -/
theorem read0 (c : Dev nD) (t : Fin cfg0.N) (ht : t.val < 500) (y0 : S160x36x36.Idx) :
    iblk m c 0 t y0 = V m c main_arg3 (ix3 (⟨t.val * 160 + (y0 0).val, edge_lt ht (y0 0).isLt⟩ : Fin 80000) (y0 1) (y0 2)) := by
  obtain ⟨a0, a1, a2⟩ := (idx_facts t).1
  unfold iblk
  rw [View.read_apply, cast_eq]
  refine congrArg (V m c main_arg3) (funext fun a => Fin.ext ?_)
  match a with
  | ⟨0, _⟩ => show win0_0.index t (0 : Fin 3) * 160 + 1 * (y0 0).val = t.val * 160 + (y0 0).val; rw [a0]; omega
  | ⟨1, _⟩ => show win0_0.index t (1 : Fin 3) * 36 + 1 * (y0 1).val = (y0 1).val; rw [a1]; omega
  | ⟨2, _⟩ => show win0_0.index t (2 : Fin 3) * 36 + 1 * (y0 2).val = (y0 2).val; rw [a2]; omega

/-- Window 1's block at point `t` is edges `160 t …` of its array. -/
theorem read1 (c : Dev nD) (t : Fin cfg0.N) (ht : t.val < 500) (y0 : S160x36x4.Idx) :
    iblk m c 1 t y0 = V m c main_v77 (ix3 (⟨t.val * 160 + (y0 0).val, edge_lt ht (y0 0).isLt⟩ : Fin 80000) (y0 1) (y0 2)) := by
  obtain ⟨a0, a1, a2⟩ := (idx_facts t).2.1
  unfold iblk
  rw [View.read_apply, cast_eq]
  refine congrArg (V m c main_v77) (funext fun a => Fin.ext ?_)
  match a with
  | ⟨0, _⟩ => show win0_1.index t (0 : Fin 3) * 160 + 1 * (y0 0).val = t.val * 160 + (y0 0).val; rw [a0]; omega
  | ⟨1, _⟩ => show win0_1.index t (1 : Fin 3) * 36 + 1 * (y0 1).val = (y0 1).val; rw [a1]; omega
  | ⟨2, _⟩ => show win0_1.index t (2 : Fin 3) * 4 + 1 * (y0 2).val = (y0 2).val; rw [a2]; omega

/-- Window 2's block at point `t` is edges `160 t …` of its array. -/
theorem read2 (c : Dev nD) (t : Fin cfg0.N) (ht : t.val < 500) (y0 : S160x36x4.Idx) :
    iblk m c 2 t y0 = V m c main_v84 (ix3 (⟨t.val * 160 + (y0 0).val, edge_lt ht (y0 0).isLt⟩ : Fin 80000) (y0 1) (y0 2)) := by
  obtain ⟨a0, a1, a2⟩ := (idx_facts t).2.2.1
  unfold iblk
  rw [View.read_apply, cast_eq]
  refine congrArg (V m c main_v84) (funext fun a => Fin.ext ?_)
  match a with
  | ⟨0, _⟩ => show win0_2.index t (0 : Fin 3) * 160 + 1 * (y0 0).val = t.val * 160 + (y0 0).val; rw [a0]; omega
  | ⟨1, _⟩ => show win0_2.index t (1 : Fin 3) * 36 + 1 * (y0 1).val = (y0 1).val; rw [a1]; omega
  | ⟨2, _⟩ => show win0_2.index t (2 : Fin 3) * 4 + 1 * (y0 2).val = (y0 2).val; rw [a2]; omega

end Cert.KernelIdeal.ArrayValue

end
-- ==== Proof.KReadB.lean ====
/-
  Blocks of the region's windows, read off their arrays (the gathered values, the first layer's weights and bias).

  An element of the block at point `t` sits in the array, on each axis, at the block index times the block's extent
  plus its own coordinate. With the index maps of the grid: a block of an edge-indexed window is edges
  `160 t … 160 t + 159` of its array, a block of a weight window is the whole array.
-/
import proofs.«151895_j50173807952913_2_alg».proof.Proof.KIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeSpec
open Idealize.ShloMosaic.Pipeline (Dat)

variable (m : (ℓ : Loc nD τ sig) → Buf (Elt Ideal) ℓ)

/-- Window 3's block at point `t` is edges `160 t …` of its array. -/
theorem read3 (c : Dev nD) (t : Fin cfg0.N) (ht : t.val < 500) (y0 : S160x36x4.Idx) :
    iblk m c 3 t y0 = V m c main_v91 (ix3 (⟨t.val * 160 + (y0 0).val, edge_lt ht (y0 0).isLt⟩ : Fin 80000) (y0 1) (y0 2)) := by
  obtain ⟨a0, a1, a2⟩ := (idx_facts t).2.2.2.1
  unfold iblk
  rw [View.read_apply, cast_eq]
  refine congrArg (V m c main_v91) (funext fun a => Fin.ext ?_)
  match a with
  | ⟨0, _⟩ => show win0_3.index t (0 : Fin 3) * 160 + 1 * (y0 0).val = t.val * 160 + (y0 0).val; rw [a0]; omega
  | ⟨1, _⟩ => show win0_3.index t (1 : Fin 3) * 36 + 1 * (y0 1).val = (y0 1).val; rw [a1]; omega
  | ⟨2, _⟩ => show win0_3.index t (2 : Fin 3) * 4 + 1 * (y0 2).val = (y0 2).val; rw [a2]; omega

/-- Window 4's block at every point is its whole array. -/
theorem read4 (c : Dev nD) (t : Fin cfg0.N) : iblk m c 4 t = V m c main_arg6 := by
  obtain ⟨a0, a1⟩ := (idx_facts t).2.2.2.2.2.1
  funext y0
  unfold iblk
  rw [View.read_apply, cast_eq]
  refine congrArg (V m c main_arg6) (funext fun a => Fin.ext ?_)
  match a with
  | ⟨0, _⟩ => show win0_4.index t (0 : Fin 2) * 16 + 1 * (y0 0).val = (y0 0).val; rw [a0]; omega
  | ⟨1, _⟩ => show win0_4.index t (1 : Fin 2) * 16 + 1 * (y0 1).val = (y0 1).val; rw [a1]; omega

/-- Window 5's block at every point is its whole array. -/
theorem read5 (c : Dev nD) (t : Fin cfg0.N) : iblk m c 5 t = V m c main_arg7 := by
  have a0 := (idx_facts t).2.2.2.2.2.2.1
  funext y0
  unfold iblk
  rw [View.read_apply, cast_eq]
  refine congrArg (V m c main_arg7) (funext fun a => Fin.ext ?_)
  match a with
  | ⟨0, _⟩ => show win0_5.index t (0 : Fin 1) * 16 + 1 * (y0 0).val = (y0 0).val; rw [a0]; omega

end Cert.KernelIdeal.ArrayValue

end
-- ==== Proof.KReadC.lean ====
/-
  Blocks of the region's windows, read off their arrays (the second layer's weights and bias, the output window).

  An element of the block at point `t` sits in the array, on each axis, at the block index times the block's extent
  plus its own coordinate. With the index maps of the grid: a block of an edge-indexed window is edges
  `160 t … 160 t + 159` of its array, a block of a weight window is the whole array.
-/
import proofs.«151895_j50173807952913_2_alg».proof.Proof.KIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeSpec
open Idealize.ShloMosaic.Pipeline (Dat)

variable (m : (ℓ : Loc nD τ sig) → Buf (Elt Ideal) ℓ)

/-- Window 6's block at every point is its whole array. -/
theorem read6 (c : Dev nD) (t : Fin cfg0.N) : iblk m c 6 t = V m c main_arg8 := by
  obtain ⟨a0, a1⟩ := (idx_facts t).2.2.2.2.2.2.2.1
  funext y0
  unfold iblk
  rw [View.read_apply, cast_eq]
  refine congrArg (V m c main_arg8) (funext fun a => Fin.ext ?_)
  match a with
  | ⟨0, _⟩ => show win0_6.index t (0 : Fin 2) * 16 + 1 * (y0 0).val = (y0 0).val; rw [a0]; omega
  | ⟨1, _⟩ => show win0_6.index t (1 : Fin 2) * 16 + 1 * (y0 1).val = (y0 1).val; rw [a1]; omega

/-- Window 7's block at every point is its whole array. -/
theorem read7 (c : Dev nD) (t : Fin cfg0.N) : iblk m c 7 t = V m c main_arg9 := by
  have a0 := (idx_facts t).2.2.2.2.2.2.2.2
  funext y0
  unfold iblk
  rw [View.read_apply, cast_eq]
  refine congrArg (V m c main_arg9) (funext fun a => Fin.ext ?_)
  match a with
  | ⟨0, _⟩ => show win0_7.index t (0 : Fin 1) * 16 + 1 * (y0 0).val = (y0 0).val; rw [a0]; omega

/-- The output window's block at point `t` sits at edges `160 t …` of the output array. -/
theorem emb8 (t : Fin cfg0.N) (ht : t.val < 500) (y : S160x36x4.Idx) :
    ((cfg0.win 8).blk t).view.emb y = ix3 (⟨t.val * 160 + (y 0).val, edge_lt ht (y 0).isLt⟩ : Fin 80000) (y 1) (y 2) := by
  obtain ⟨a0, a1, a2⟩ := (idx_facts t).2.2.2.2.1
  refine funext fun a => Fin.ext ?_
  match a with
  | ⟨0, _⟩ => show win0_8.index t (0 : Fin 3) * 160 + 1 * (y 0).val = t.val * 160 + (y 0).val; rw [a0]; omega
  | ⟨1, _⟩ => show win0_8.index t (1 : Fin 3) * 36 + 1 * (y 1).val = (y 1).val; rw [a1]; omega
  | ⟨2, _⟩ => show win0_8.index t (2 : Fin 3) * 4 + 1 * (y 2).val = (y 2).val; rw [a2]; omega

end Cert.KernelIdeal.ArrayValue

end
-- ==== Proof.KArray.lean ====
/-
  The kernel's output array after the region: the messages of all 80000 edges.

  What point `t` writes back is the body's payload of the point's eight blocks; by the block reads and the block lemma
  that is block `t` of `edgeMessages`. Edge `e` lies in the block of point `e / 160`, so the blocks cover the array,
  and the array ends holding `edgeMessages`.
-/
import proofs.«151895_j50173807952913_2_alg».proof.Proof.KReadA
import proofs.«151895_j50173807952913_2_alg».proof.Proof.KReadB
import proofs.«151895_j50173807952913_2_alg».proof.Proof.KReadC

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeSpec
open Idealize.ShloMosaic.Pipeline (Dat)

variable (m : (ℓ : Loc nD τ sig) → Buf (Elt Ideal) ℓ)

set_option maxHeartbeats 1000000 in
/-- WHAT POINT `t` WRITES BACK is block `t` of the messages of all edges. -/
theorem flushed_eq (c : Dev nD) (t : Fin cfg0.N) :
    (dats m 0 c).flushed 8 t = ((cfg0.win 8).blk t).view.read (Elt Ideal) (edgeMessages m c) := by
  show (cfg0.win 8).cut (grid0.coords t) ((dats m 0 c).after 8 t) = _
  rw [after0_8]
  unfold out0_8
  rw [View.canon_unit_zero hz3]
  simp only [View.ld_unit_zero (S := S160x36x36) hz3, View.ld_unit_zero (S := S160x36x4) hz3,
    View.ld_unit_zero (S := S16x16) hz2, View.ld_unit_zero (S := S16) hz1]
  have ht : t.val < 500 := by have h := t.isLt; have hN : cfg0.N = 500 := N_0; omega
  funext y
  refine (block_is_restriction (V m c main_arg3) (V m c main_v77) (V m c main_v84) (V m c main_v91) (V m c main_arg6)
    (V m c main_arg7) (V m c main_arg8) (V m c main_arg9) (iblk m c 0 t) (iblk m c 1 t) (iblk m c 2 t) (iblk m c 3 t)
    (iblk m c 4 t) (iblk m c 5 t) (iblk m c 6 t) (iblk m c 7 t) t.val ht (read0 m c t ht) (read1 m c t ht) (read2 m c t ht)
    (read3 m c t ht) (read4 m c t) (read5 m c t) (read6 m c t) (read7 m c t) y).trans ?_
  rw [View.read_apply, emb8 t ht y]
  exact (cast_eq _ _).symm

/-- An index of the output array is in point `t`'s block iff each coordinate is in the block's range on its axis. -/
theorem mem_blk (t : Fin cfg0.N) (i : S80000x36x4.Idx) :
    i ∈ ((cfg0.win 8).blk t).view.set ↔ ∀ a : Fin 3, win0_8.index t a * S160x36x4.size a ≤ (i a).val
      ∧ (i a).val < win0_8.index t a * S160x36x4.size a + S160x36x4.size a := by
  show i ∈ ((View.whole main_v92).slice (win0_8.rect t)).set ↔ _
  rw [View.set_slice_whole, Rect.mem_set_unit]
  exact Iff.rfl

/-- Every index of the output array is in the block of the point its edge belongs to. -/
theorem cover (i : S80000x36x4.Idx) :
    ∃ t : Fin cfg0.N, (cfg0.win 8).flush t = true ∧ i ∈ ((cfg0.win 8).blk t).view.set := by
  have hi0 : (i 0).val < 80000 := (i 0).isLt
  have hi1 : (i 1).val < 36 := (i 1).isLt
  have hi2 : (i 2).val < 4 := (i 2).isLt
  have hN : cfg0.N = 500 := N_0
  have hlt : (i 0).val / 160 < cfg0.N := by rw [hN]; omega
  obtain ⟨-, -, -, -, ⟨a80, a81, a82⟩, -⟩ := idx_facts ⟨(i 0).val / 160, hlt⟩
  refine ⟨⟨(i 0).val / 160, hlt⟩, flush0_8 _, ?_⟩
  rw [mem_blk]
  intro a
  match a with
  | ⟨0, _⟩ =>
    show win0_8.index ⟨(i 0).val / 160, hlt⟩ (0 : Fin 3) * 160 ≤ (i 0).val
      ∧ (i 0).val < win0_8.index ⟨(i 0).val / 160, hlt⟩ (0 : Fin 3) * 160 + 160
    rw [a80]; show (i 0).val / 160 * 160 ≤ (i 0).val ∧ (i 0).val < (i 0).val / 160 * 160 + 160; omega
  | ⟨1, _⟩ =>
    show win0_8.index ⟨(i 0).val / 160, hlt⟩ (1 : Fin 3) * 36 ≤ (i 1).val
      ∧ (i 1).val < win0_8.index ⟨(i 0).val / 160, hlt⟩ (1 : Fin 3) * 36 + 36
    rw [a81]; omega
  | ⟨2, _⟩ =>
    show win0_8.index ⟨(i 0).val / 160, hlt⟩ (2 : Fin 3) * 4 ≤ (i 2).val
      ∧ (i 2).val < win0_8.index ⟨(i 0).val / 160, hlt⟩ (2 : Fin 3) * 4 + 4
    rw [a82]; omega

/-- THE OUTPUT ARRAY after the region: the messages of all edges. -/
theorem final8 (c : Dev nD) : (dats m 0 c).arrAt 8 cfg0.N = edgeMessages m c :=
  (dats m 0 c).arrAt_eq_of_cover 8 (edgeMessages m c) (fun t _ => flushed_eq m c t) cover

end Cert.KernelIdeal.ArrayValue

end
-- ==== Proof.KRun.lean ====
/-
  The kernel program's run, with its result named.

  After the region the program scatters the edge messages back to the nodes and gathers the coefficient rows, by
  host operations. The frame run leaves every buffer that is not one of the region's arrays at the fold of those
  operations over the region's exit contents: the output array at the messages of all edges, every other buffer as
  the region found it. The result buffer is therefore that fold at the result, and the argument arrays end as
  launched.
-/
import proofs.«151895_j50173807952913_2_alg».proof.Proof.KArray

noncomputable section

namespace Cert.KernelIdeal.RunValue

open Cert.KernelIdeal Cert.KernelIdeal.Gen Cert.KernelIdeal.ArrayValue Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Core `c`'s buffer contents when the region ends: its arrays as the pipeline leaves them, every other buffer as
    the region found it. -/
def exitContents (c : Dev nD) : Valuation τ sig (Elt Ideal) :=
  Pipeline.withArrays (cfgs 0).spec c (V0 m c) fun w => (dats m 0 c).arrAt w (cfgs 0).N

/-- The program's result: the fold of the operations after the region over the exit contents, at the result buffer. -/
def result (c : Dev nD) : Buf (Elt Ideal) ((c.tc : Thread nD τ).loc main_v114) :=
  Pipeline.afterTail₀ cfgs (dats m) 0 (V0 m) [hostOps1] c main_v114

theorem result_eq (c : Dev nD) :
    result m c = StableHlo.after hostOps1 (exitContents m c) (Proc.devRef .tc main_v114) := by
  unfold result Pipeline.afterTail₀ exitContents
  simp only [List.flatten_cons, List.flatten_nil, List.append_nil]

/-- At the output array the exit contents are the messages of all edges. -/
theorem exit_v92 (c : Dev nD) : exitContents m c (Proc.devRef .tc main_v92) = edgeMessages m c :=
  (Pipeline.withArrays_arr spec0 launch0.win.arr_inj c _ _ 8).trans (final8 m c)

/-- At a buffer that is no array of the region the exit contents are the entry contents. -/
theorem exit_keep (c : Dev nD) (b : Ref sig .tc) (hb : ∀ w, Pipeline.arrRef spec0 w ≠ b) :
    exitContents m c (Proc.devRef .tc b) = V0 m c (Proc.devRef .tc b) :=
  Pipeline.withArrays_of_ne spec0 c (V0 m c) _ b hb

/-- The run: every weakly fair execution terminates with the result buffer at `result` and the argument arrays as
    launched. -/
theorem run_value : θ_run defs (onTc (τ := τ) (main (F := Ideal))) ⟨m, fun _ => 0, ρ⟩ (fun r => ∀ c : Dev nD,
      r.2.mem ((c.tc : Thread nD τ).loc main_v114) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v114 (Pipeline.mem_restRefs_of main_v114 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c)))⟩)
    (run_main m ρ)

end Cert.KernelIdeal.RunValue

end
-- ==== Proof.RefOps.lean ====
/- @main as lists, a line-by-line transcription. Each statement (hlo rfl (X) (fun _ => .ret ⟨⟩)) of a window is the
   entry X; a call line is its callee's lines, the callee's argument and the call record's fields written as typed
   references. With each list: every operation touches TensorCore references only, and none allocates. -/
import proofs.«151895_j50173807952913_2_alg».proof.Proof.Gen.ReferenceIdeal
import Idealize.ShloMosaic.Lib.StableHlo.Run

set_option maxRecDepth 2048

noncomputable section

namespace Cert.ReferenceIdeal.RefRun

open Cert.ReferenceIdeal Cert.ReferenceIdeal.Gen Idealize.ShloMosaic Idealize.ShloMosaic.TcCoe

variable {F : FTy → Type} [FloatOps F]

/-- 15 operations: @main's operations before the call of @cumsum. -/
abbrev headA : List (HloOp τ sig (Elt F)) :=
  [ StableHlo.nullary main_c (constantI S_ 32 0#32),
    StableHlo.unary main_c main_v0 (broadcastInDim S5000 ![] bcast_S_S5000 : (⟨S_, .i32⟩ : BufTy).Contents (Elt F) → (⟨S5000, .i32⟩ : BufTy).Contents (Elt F)),
    StableHlo.nullary main_c_0 (constantI S_ 32 0#32),
    StableHlo.unary main_c_0 main_v1 (broadcastInDim S180000 ![] bcast_S_S180000 : (⟨S_, .i32⟩ : BufTy).Contents (Elt F) → (⟨S180000, .i32⟩ : BufTy).Contents (Elt F)),
    StableHlo.binary main_arg5 main_v1 main_v2 (cmpi .slt : (⟨S180000, .i32⟩ : BufTy).Contents (Elt F) → (⟨S180000, .i32⟩ : BufTy).Contents (Elt F) → (⟨S180000, .i1⟩ : BufTy).Contents (Elt F)),
    StableHlo.nullary main_c_1 (constantI S_ 32 5000#32),
    StableHlo.unary main_c_1 main_v3 (broadcastInDim S180000 ![] bcast_S_S180000 : (⟨S_, .i32⟩ : BufTy).Contents (Elt F) → (⟨S180000, .i32⟩ : BufTy).Contents (Elt F)),
    StableHlo.binary main_arg5 main_v3 main_v4 (addi : (⟨S180000, .i32⟩ : BufTy).Contents (Elt F) → (⟨S180000, .i32⟩ : BufTy).Contents (Elt F) → (⟨S180000, .i32⟩ : BufTy).Contents (Elt F)),
    StableHlo.ternary main_v2 main_v4 main_arg5 main_v5 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v5 main_v6 (broadcastInDim S180000x1 ![0] bcast_S180000_S180000x1_0 : (⟨S180000, .i32⟩ : BufTy).Contents (Elt F) → (⟨S180000x1, .i32⟩ : BufTy).Contents (Elt F)),
    StableHlo.nullary main_c_2 (constantI S_ 32 1#32),
    StableHlo.unary main_c_2 main_v7 (broadcastInDim S180000 ![] bcast_S_S180000 : (⟨S_, .i32⟩ : BufTy).Contents (Elt F) → (⟨S180000, .i32⟩ : BufTy).Contents (Elt F)),
    StableHlo.ternary main_v0 main_v6 main_v7 main_v8 ((fun x i u => Host.scatter scatter_S5000_S180000x1_S180000_n_0_0_1 IntOp.addi x i u) : (⟨S5000, .i32⟩ : BufTy).Contents (Elt F) → (⟨S180000x1, .i32⟩ : BufTy).Contents (Elt F) → (⟨S180000, .i32⟩ : BufTy).Contents (Elt F) → (⟨S5000, .i32⟩ : BufTy).Contents (Elt F)),
    StableHlo.nullary main_c_3 (constantI S_ 32 0#32),
    StableHlo.unary main_c_3 main_v9 (broadcastInDim S1 ![] bcast_S_S1 : (⟨S_, .i32⟩ : BufTy).Contents (Elt F) → (⟨S1, .i32⟩ : BufTy).Contents (Elt F)) ]
theorem headA_sub : (headA : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub ..⟩
theorem headA_fresh : (headA : List (HloOp τ sig (Elt F))).Forall fun op => op.fresh = ∅ := by
  simp only [List.Forall]; repeat' constructor

/-- 3 operations: the operations of the call of @cumsum (through @cumsum_0), result main_v10. -/
abbrev headB : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v8 : StableHlo.TRef sig ⟨S5000, .i32⟩) (.of main_call0_call0_v0 : StableHlo.TRef sig ⟨S_, .i32⟩) (.of main_v10 : StableHlo.TRef sig ⟨S5000, .i32⟩) (fun x v => Host.reduceWindow IntOp.addi ![5000] ![1] ![4999] ![0] x v reduceWindows_S5000_S5000_w5000s1p4999_0 h_S_) ]
theorem headB_sub : (headB : List (HloOp τ sig (Elt F))).Forall fun op => op.bufs ⊆ StableHlo.tcRefs τ sig :=
  ⟨StableHlo.nullary_bufs_sub .., StableHlo.unary_bufs_sub .., StableHlo.binary_bufs_sub ..⟩
theorem headB_fresh : (headB : List (HloOp τ sig (Elt F))).Forall fun op => op.fresh = ∅ := by
  simp only [List.Forall]; repeat' constructor

set_option maxHeartbeats 40000000 in
/-- 44 operations: the rest of @main's first window. -/
abbrev headC : List (HloOp τ sig (Elt F)) :=
  ( StableHlo.unary main_v10 main_v11 ((extractStridedSlice S4999 ![0] · slices_S5000_S4999_0) : (⟨S5000, .i32⟩ : BufTy).Contents (Elt F) → (⟨S4999, .i32⟩ : BufTy).Contents (Elt F))
  :: StableHlo.binary main_v9 main_v11 main_v12 ((fun a b => concatenate S5000 0 [⟨S1, a⟩, ⟨S4999, b⟩] concatenates_S1_S4999_S5000_d0) : (⟨S1, .i32⟩ : BufTy).Contents (Elt F) → (⟨S4999, .i32⟩ : BufTy).Contents (Elt F) → (⟨S5000, .i32⟩ : BufTy).Contents (Elt F))
  :: StableHlo.nullary main_v13 (iotaInDim S180000 32 0)
  :: StableHlo.nullary main_c_4 (constantI S_ 32 0#32)
  :: StableHlo.unary main_c_4 main_v14 (broadcastInDim S180000 ![] bcast_S_S180000 : (⟨S_, .i32⟩ : BufTy).Contents (Elt F) → (⟨S180000, .i32⟩ : BufTy).Contents (Elt F))
  :: StableHlo.binary main_arg5 main_v14 main_v15 (cmpi .slt : (⟨S180000, .i32⟩ : BufTy).Contents (Elt F) → (⟨S180000, .i32⟩ : BufTy).Contents (Elt F) → (⟨S180000, .i1⟩ : BufTy).Contents (Elt F))
  :: StableHlo.nullary main_c_5 (constantI S_ 32 5000#32)
  :: StableHlo.unary main_c_5 main_v16 (broadcastInDim S180000 ![] bcast_S_S180000 : (⟨S_, .i32⟩ : BufTy).Contents (Elt F) → (⟨S180000, .i32⟩ : BufTy).Contents (Elt F))
  :: StableHlo.binary main_arg5 main_v16 main_v17 (addi : (⟨S180000, .i32⟩ : BufTy).Contents (Elt F) → (⟨S180000, .i32⟩ : BufTy).Contents (Elt F) → (⟨S180000, .i32⟩ : BufTy).Contents (Elt F))
  :: StableHlo.ternary main_v15 main_v17 main_arg5 main_v18 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F))
  :: StableHlo.unary main_v18 main_v19 (broadcastInDim S180000x1 ![0] bcast_S180000_S180000x1_0 : (⟨S180000, .i32⟩ : BufTy).Contents (Elt F) → (⟨S180000x1, .i32⟩ : BufTy).Contents (Elt F))
  :: StableHlo.binary main_v12 main_v19 main_v20 ((fun x i => Host.gather gather_S5000_S180000x1_S180000_n_0_n_n_0_1_1 x i) : (⟨S5000, .i32⟩ : BufTy).Contents (Elt F) → (⟨S180000x1, .i32⟩ : BufTy).Contents (Elt F) → (⟨S180000, .i32⟩ : BufTy).Contents (Elt F))
  :: StableHlo.binary main_v13 main_v20 main_v21 (subi : (⟨S180000, .i32⟩ : BufTy).Contents (Elt F) → (⟨S180000, .i32⟩ : BufTy).Contents (Elt F) → (⟨S180000, .i32⟩ : BufTy).Contents (Elt F))
  :: StableHlo.nullary main_cst (constant S_ .f32 0x00000000#32)
  :: StableHlo.unary main_cst main_v22 (broadcastInDim S5000x36x4 ![] bcast_S_S5000x36x4 : (⟨S_, .f32⟩ : BufTy).Contents (Elt F) → (⟨S5000x36x4, .f32⟩ : BufTy).Contents (Elt F))
  :: StableHlo.nullary main_c_6 (constantI S_ 32 0#32)
  :: StableHlo.unary main_c_6 main_v23 (broadcastInDim S180000 ![] bcast_S_S180000 : (⟨S_, .i32⟩ : BufTy).Contents (Elt F) → (⟨S180000, .i32⟩ : BufTy).Contents (Elt F))
  :: StableHlo.binary main_arg5 main_v23 main_v24 (cmpi .slt : (⟨S180000, .i32⟩ : BufTy).Contents (Elt F) → (⟨S180000, .i32⟩ : BufTy).Contents (Elt F) → (⟨S180000, .i1⟩ : BufTy).Contents (Elt F))
  :: StableHlo.nullary main_c_7 (constantI S_ 32 5000#32)
  :: StableHlo.unary main_c_7 main_v25 (broadcastInDim S180000 ![] bcast_S_S180000 : (⟨S_, .i32⟩ : BufTy).Contents (Elt F) → (⟨S180000, .i32⟩ : BufTy).Contents (Elt F))
  :: StableHlo.binary main_arg5 main_v25 main_v26 (addi : (⟨S180000, .i32⟩ : BufTy).Contents (Elt F) → (⟨S180000, .i32⟩ : BufTy).Contents (Elt F) → (⟨S180000, .i32⟩ : BufTy).Contents (Elt F))
  :: StableHlo.ternary main_v24 main_v26 main_arg5 main_v27 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F))
  :: StableHlo.nullary main_c_8 (constantI S_ 32 0#32)
  :: StableHlo.unary main_c_8 main_v28 (broadcastInDim S180000 ![] bcast_S_S180000 : (⟨S_, .i32⟩ : BufTy).Contents (Elt F) → (⟨S180000, .i32⟩ : BufTy).Contents (Elt F))
  :: StableHlo.binary main_v21 main_v28 main_v29 (cmpi .slt : (⟨S180000, .i32⟩ : BufTy).Contents (Elt F) → (⟨S180000, .i32⟩ : BufTy).Contents (Elt F) → (⟨S180000, .i1⟩ : BufTy).Contents (Elt F))
  :: StableHlo.nullary main_c_9 (constantI S_ 32 36#32)
  :: StableHlo.unary main_c_9 main_v30 (broadcastInDim S180000 ![] bcast_S_S180000 : (⟨S_, .i32⟩ : BufTy).Contents (Elt F) → (⟨S180000, .i32⟩ : BufTy).Contents (Elt F))
  :: StableHlo.binary main_v21 main_v30 main_v31 (addi : (⟨S180000, .i32⟩ : BufTy).Contents (Elt F) → (⟨S180000, .i32⟩ : BufTy).Contents (Elt F) → (⟨S180000, .i32⟩ : BufTy).Contents (Elt F))
  :: StableHlo.ternary main_v29 main_v31 main_v21 main_v32 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F))
  :: StableHlo.unary main_v27 main_v33 (broadcastInDim S180000x1 ![0] bcast_S180000_S180000x1_0 : (⟨S180000, .i32⟩ : BufTy).Contents (Elt F) → (⟨S180000x1, .i32⟩ : BufTy).Contents (Elt F))
  :: StableHlo.unary main_v32 main_v34 (broadcastInDim S180000x1 ![0] bcast_S180000_S180000x1_0 : (⟨S180000, .i32⟩ : BufTy).Contents (Elt F) → (⟨S180000x1, .i32⟩ : BufTy).Contents (Elt F))
  :: StableHlo.binary main_v33 main_v34 main_v35 ((fun a b => concatenate S180000x2 1 [⟨S180000x1, a⟩, ⟨S180000x1, b⟩] concatenates_S180000x1_S180000x1_S180000x2_d1) : (⟨S180000x1, .i32⟩ : BufTy).Contents (Elt F) → (⟨S180000x1, .i32⟩ : BufTy).Contents (Elt F) → (⟨S180000x2, .i32⟩ : BufTy).Contents (Elt F))
  :: StableHlo.ternary main_v22 main_v35 main_arg0 main_v36 ((fun x i u => Host.scatter scatter_S5000x36x4_S180000x2_S180000x4_1_01_01_1 (fun _ b => b) x i u) : (⟨S5000x36x4, .f32⟩ : BufTy).Contents (Elt F) → (⟨S180000x2, .i32⟩ : BufTy).Contents (Elt F) → (⟨S180000x4, .f32⟩ : BufTy).Contents (Elt F) → (⟨S5000x36x4, .f32⟩ : BufTy).Contents (Elt F))
  :: StableHlo.nullary main_cst_10 (constant S_ .f32 0x00000000#32)
  :: StableHlo.unary main_cst_10 main_v37 (broadcastInDim S5000x36x4 ![] bcast_S_S5000x36x4 : (⟨S_, .f32⟩ : BufTy).Contents (Elt F) → (⟨S5000x36x4, .f32⟩ : BufTy).Contents (Elt F))
  :: StableHlo.nullary main_c_11 (constantI S_ 32 0#32)
  :: StableHlo.unary main_c_11 main_v38 (broadcastInDim S180000 ![] bcast_S_S180000 : (⟨S_, .i32⟩ : BufTy).Contents (Elt F) → (⟨S180000, .i32⟩ : BufTy).Contents (Elt F))
  :: StableHlo.binary main_arg5 main_v38 main_v39 (cmpi .slt : (⟨S180000, .i32⟩ : BufTy).Contents (Elt F) → (⟨S180000, .i32⟩ : BufTy).Contents (Elt F) → (⟨S180000, .i1⟩ : BufTy).Contents (Elt F))
  :: StableHlo.nullary main_c_12 (constantI S_ 32 5000#32)
  :: StableHlo.unary main_c_12 main_v40 (broadcastInDim S180000 ![] bcast_S_S180000 : (⟨S_, .i32⟩ : BufTy).Contents (Elt F) → (⟨S180000, .i32⟩ : BufTy).Contents (Elt F))
  :: StableHlo.binary main_arg5 main_v40 main_v41 (addi : (⟨S180000, .i32⟩ : BufTy).Contents (Elt F) → (⟨S180000, .i32⟩ : BufTy).Contents (Elt F) → (⟨S180000, .i32⟩ : BufTy).Contents (Elt F))
  :: StableHlo.ternary main_v39 main_v41 main_arg5 main_v42 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F))
  :: StableHlo.nullary main_c_13 (constantI S_ 32 0#32)
  :: StableHlo.unary main_c_13 main_v43 (broadcastInDim S180000 ![] bcast_S_S180000 : (⟨S_, .i32⟩ : BufTy).Contents (Elt F) → (⟨S180000, .i32⟩ : BufTy).Contents (Elt F))
  :: [] )
set_option maxHeartbeats 40000000 in
theorem headC_sub : (headC : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub ..⟩
set_option maxHeartbeats 40000000 in
theorem headC_fresh : (headC : List (HloOp τ sig (Elt F))).Forall fun op => op.fresh = ∅ := by
  simp only [List.Forall]; repeat' constructor

set_option maxHeartbeats 40000000 in
/-- 60 operations: @main's second window. -/
abbrev headD : List (HloOp τ sig (Elt F)) :=
  ( StableHlo.binary main_v21 main_v43 main_v44 (cmpi .slt : (⟨S180000, .i32⟩ : BufTy).Contents (Elt F) → (⟨S180000, .i32⟩ : BufTy).Contents (Elt F) → (⟨S180000, .i1⟩ : BufTy).Contents (Elt F))
  :: StableHlo.nullary main_c_14 (constantI S_ 32 36#32)
  :: StableHlo.unary main_c_14 main_v45 (broadcastInDim S180000 ![] bcast_S_S180000 : (⟨S_, .i32⟩ : BufTy).Contents (Elt F) → (⟨S180000, .i32⟩ : BufTy).Contents (Elt F))
  :: StableHlo.binary main_v21 main_v45 main_v46 (addi : (⟨S180000, .i32⟩ : BufTy).Contents (Elt F) → (⟨S180000, .i32⟩ : BufTy).Contents (Elt F) → (⟨S180000, .i32⟩ : BufTy).Contents (Elt F))
  :: StableHlo.ternary main_v44 main_v46 main_v21 main_v47 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F))
  :: StableHlo.unary main_v42 main_v48 (broadcastInDim S180000x1 ![0] bcast_S180000_S180000x1_0 : (⟨S180000, .i32⟩ : BufTy).Contents (Elt F) → (⟨S180000x1, .i32⟩ : BufTy).Contents (Elt F))
  :: StableHlo.unary main_v47 main_v49 (broadcastInDim S180000x1 ![0] bcast_S180000_S180000x1_0 : (⟨S180000, .i32⟩ : BufTy).Contents (Elt F) → (⟨S180000x1, .i32⟩ : BufTy).Contents (Elt F))
  :: StableHlo.binary main_v48 main_v49 main_v50 ((fun a b => concatenate S180000x2 1 [⟨S180000x1, a⟩, ⟨S180000x1, b⟩] concatenates_S180000x1_S180000x1_S180000x2_d1) : (⟨S180000x1, .i32⟩ : BufTy).Contents (Elt F) → (⟨S180000x1, .i32⟩ : BufTy).Contents (Elt F) → (⟨S180000x2, .i32⟩ : BufTy).Contents (Elt F))
  :: StableHlo.ternary main_v37 main_v50 main_arg1 main_v51 ((fun x i u => Host.scatter scatter_S5000x36x4_S180000x2_S180000x4_1_01_01_1 (fun _ b => b) x i u) : (⟨S5000x36x4, .f32⟩ : BufTy).Contents (Elt F) → (⟨S180000x2, .i32⟩ : BufTy).Contents (Elt F) → (⟨S180000x4, .f32⟩ : BufTy).Contents (Elt F) → (⟨S5000x36x4, .f32⟩ : BufTy).Contents (Elt F))
  :: StableHlo.nullary main_cst_15 (constant S_ .f32 0x00000000#32)
  :: StableHlo.unary main_cst_15 main_v52 (broadcastInDim S5000x36x4 ![] bcast_S_S5000x36x4 : (⟨S_, .f32⟩ : BufTy).Contents (Elt F) → (⟨S5000x36x4, .f32⟩ : BufTy).Contents (Elt F))
  :: StableHlo.nullary main_c_16 (constantI S_ 32 0#32)
  :: StableHlo.unary main_c_16 main_v53 (broadcastInDim S180000 ![] bcast_S_S180000 : (⟨S_, .i32⟩ : BufTy).Contents (Elt F) → (⟨S180000, .i32⟩ : BufTy).Contents (Elt F))
  :: StableHlo.binary main_arg5 main_v53 main_v54 (cmpi .slt : (⟨S180000, .i32⟩ : BufTy).Contents (Elt F) → (⟨S180000, .i32⟩ : BufTy).Contents (Elt F) → (⟨S180000, .i1⟩ : BufTy).Contents (Elt F))
  :: StableHlo.nullary main_c_17 (constantI S_ 32 5000#32)
  :: StableHlo.unary main_c_17 main_v55 (broadcastInDim S180000 ![] bcast_S_S180000 : (⟨S_, .i32⟩ : BufTy).Contents (Elt F) → (⟨S180000, .i32⟩ : BufTy).Contents (Elt F))
  :: StableHlo.binary main_arg5 main_v55 main_v56 (addi : (⟨S180000, .i32⟩ : BufTy).Contents (Elt F) → (⟨S180000, .i32⟩ : BufTy).Contents (Elt F) → (⟨S180000, .i32⟩ : BufTy).Contents (Elt F))
  :: StableHlo.ternary main_v54 main_v56 main_arg5 main_v57 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F))
  :: StableHlo.nullary main_c_18 (constantI S_ 32 0#32)
  :: StableHlo.unary main_c_18 main_v58 (broadcastInDim S180000 ![] bcast_S_S180000 : (⟨S_, .i32⟩ : BufTy).Contents (Elt F) → (⟨S180000, .i32⟩ : BufTy).Contents (Elt F))
  :: StableHlo.binary main_v21 main_v58 main_v59 (cmpi .slt : (⟨S180000, .i32⟩ : BufTy).Contents (Elt F) → (⟨S180000, .i32⟩ : BufTy).Contents (Elt F) → (⟨S180000, .i1⟩ : BufTy).Contents (Elt F))
  :: StableHlo.nullary main_c_19 (constantI S_ 32 36#32)
  :: StableHlo.unary main_c_19 main_v60 (broadcastInDim S180000 ![] bcast_S_S180000 : (⟨S_, .i32⟩ : BufTy).Contents (Elt F) → (⟨S180000, .i32⟩ : BufTy).Contents (Elt F))
  :: StableHlo.binary main_v21 main_v60 main_v61 (addi : (⟨S180000, .i32⟩ : BufTy).Contents (Elt F) → (⟨S180000, .i32⟩ : BufTy).Contents (Elt F) → (⟨S180000, .i32⟩ : BufTy).Contents (Elt F))
  :: StableHlo.ternary main_v59 main_v61 main_v21 main_v62 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F))
  :: StableHlo.unary main_v57 main_v63 (broadcastInDim S180000x1 ![0] bcast_S180000_S180000x1_0 : (⟨S180000, .i32⟩ : BufTy).Contents (Elt F) → (⟨S180000x1, .i32⟩ : BufTy).Contents (Elt F))
  :: StableHlo.unary main_v62 main_v64 (broadcastInDim S180000x1 ![0] bcast_S180000_S180000x1_0 : (⟨S180000, .i32⟩ : BufTy).Contents (Elt F) → (⟨S180000x1, .i32⟩ : BufTy).Contents (Elt F))
  :: StableHlo.binary main_v63 main_v64 main_v65 ((fun a b => concatenate S180000x2 1 [⟨S180000x1, a⟩, ⟨S180000x1, b⟩] concatenates_S180000x1_S180000x1_S180000x2_d1) : (⟨S180000x1, .i32⟩ : BufTy).Contents (Elt F) → (⟨S180000x1, .i32⟩ : BufTy).Contents (Elt F) → (⟨S180000x2, .i32⟩ : BufTy).Contents (Elt F))
  :: StableHlo.ternary main_v52 main_v65 main_arg2 main_v66 ((fun x i u => Host.scatter scatter_S5000x36x4_S180000x2_S180000x4_1_01_01_1 (fun _ b => b) x i u) : (⟨S5000x36x4, .f32⟩ : BufTy).Contents (Elt F) → (⟨S180000x2, .i32⟩ : BufTy).Contents (Elt F) → (⟨S180000x4, .f32⟩ : BufTy).Contents (Elt F) → (⟨S5000x36x4, .f32⟩ : BufTy).Contents (Elt F))
  :: StableHlo.unary main_arg4 main_v67 ((extractStridedSlice S1x80000 ![0, 0] · slices_S2x80000_S1x80000_0_0) : (⟨S2x80000, .i32⟩ : BufTy).Contents (Elt F) → (⟨S1x80000, .i32⟩ : BufTy).Contents (Elt F))
  :: StableHlo.reshape main_v67 main_v68 rfl shapeCasts_S1x80000_S80000
  :: StableHlo.unary main_arg4 main_v69 ((extractStridedSlice S1x80000 ![1, 0] · slices_S2x80000_S1x80000_1_0) : (⟨S2x80000, .i32⟩ : BufTy).Contents (Elt F) → (⟨S1x80000, .i32⟩ : BufTy).Contents (Elt F))
  :: StableHlo.reshape main_v69 main_v70 rfl shapeCasts_S1x80000_S80000
  :: StableHlo.nullary main_c_20 (constantI S_ 32 0#32)
  :: StableHlo.unary main_c_20 main_v71 (broadcastInDim S80000 ![] bcast_S_S80000 : (⟨S_, .i32⟩ : BufTy).Contents (Elt F) → (⟨S80000, .i32⟩ : BufTy).Contents (Elt F))
  :: StableHlo.binary main_v68 main_v71 main_v72 (cmpi .slt : (⟨S80000, .i32⟩ : BufTy).Contents (Elt F) → (⟨S80000, .i32⟩ : BufTy).Contents (Elt F) → (⟨S80000, .i1⟩ : BufTy).Contents (Elt F))
  :: StableHlo.nullary main_c_21 (constantI S_ 32 5000#32)
  :: StableHlo.unary main_c_21 main_v73 (broadcastInDim S80000 ![] bcast_S_S80000 : (⟨S_, .i32⟩ : BufTy).Contents (Elt F) → (⟨S80000, .i32⟩ : BufTy).Contents (Elt F))
  :: StableHlo.binary main_v68 main_v73 main_v74 (addi : (⟨S80000, .i32⟩ : BufTy).Contents (Elt F) → (⟨S80000, .i32⟩ : BufTy).Contents (Elt F) → (⟨S80000, .i32⟩ : BufTy).Contents (Elt F))
  :: StableHlo.ternary main_v72 main_v74 main_v68 main_v75 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F))
  :: StableHlo.unary main_v75 main_v76 (broadcastInDim S80000x1 ![0] bcast_S80000_S80000x1_0 : (⟨S80000, .i32⟩ : BufTy).Contents (Elt F) → (⟨S80000x1, .i32⟩ : BufTy).Contents (Elt F))
  :: StableHlo.binary main_v36 main_v76 main_v77 ((fun x i => Host.gather gather_S5000x36x4_S80000x1_S80000x36x4_12_0_n_n_0_1_1364 x i) : (⟨S5000x36x4, .f32⟩ : BufTy).Contents (Elt F) → (⟨S80000x1, .i32⟩ : BufTy).Contents (Elt F) → (⟨S80000x36x4, .f32⟩ : BufTy).Contents (Elt F))
  :: StableHlo.nullary main_c_22 (constantI S_ 32 0#32)
  :: StableHlo.unary main_c_22 main_v78 (broadcastInDim S80000 ![] bcast_S_S80000 : (⟨S_, .i32⟩ : BufTy).Contents (Elt F) → (⟨S80000, .i32⟩ : BufTy).Contents (Elt F))
  :: StableHlo.binary main_v70 main_v78 main_v79 (cmpi .slt : (⟨S80000, .i32⟩ : BufTy).Contents (Elt F) → (⟨S80000, .i32⟩ : BufTy).Contents (Elt F) → (⟨S80000, .i1⟩ : BufTy).Contents (Elt F))
  :: StableHlo.nullary main_c_23 (constantI S_ 32 5000#32)
  :: StableHlo.unary main_c_23 main_v80 (broadcastInDim S80000 ![] bcast_S_S80000 : (⟨S_, .i32⟩ : BufTy).Contents (Elt F) → (⟨S80000, .i32⟩ : BufTy).Contents (Elt F))
  :: StableHlo.binary main_v70 main_v80 main_v81 (addi : (⟨S80000, .i32⟩ : BufTy).Contents (Elt F) → (⟨S80000, .i32⟩ : BufTy).Contents (Elt F) → (⟨S80000, .i32⟩ : BufTy).Contents (Elt F))
  :: StableHlo.ternary main_v79 main_v81 main_v70 main_v82 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F))
  :: StableHlo.unary main_v82 main_v83 (broadcastInDim S80000x1 ![0] bcast_S80000_S80000x1_0 : (⟨S80000, .i32⟩ : BufTy).Contents (Elt F) → (⟨S80000x1, .i32⟩ : BufTy).Contents (Elt F))
  :: StableHlo.binary main_v51 main_v83 main_v84 ((fun x i => Host.gather gather_S5000x36x4_S80000x1_S80000x36x4_12_0_n_n_0_1_1364 x i) : (⟨S5000x36x4, .f32⟩ : BufTy).Contents (Elt F) → (⟨S80000x1, .i32⟩ : BufTy).Contents (Elt F) → (⟨S80000x36x4, .f32⟩ : BufTy).Contents (Elt F))
  :: StableHlo.nullary main_c_24 (constantI S_ 32 0#32)
  :: StableHlo.unary main_c_24 main_v85 (broadcastInDim S80000 ![] bcast_S_S80000 : (⟨S_, .i32⟩ : BufTy).Contents (Elt F) → (⟨S80000, .i32⟩ : BufTy).Contents (Elt F))
  :: StableHlo.binary main_v70 main_v85 main_v86 (cmpi .slt : (⟨S80000, .i32⟩ : BufTy).Contents (Elt F) → (⟨S80000, .i32⟩ : BufTy).Contents (Elt F) → (⟨S80000, .i1⟩ : BufTy).Contents (Elt F))
  :: StableHlo.nullary main_c_25 (constantI S_ 32 5000#32)
  :: StableHlo.unary main_c_25 main_v87 (broadcastInDim S80000 ![] bcast_S_S80000 : (⟨S_, .i32⟩ : BufTy).Contents (Elt F) → (⟨S80000, .i32⟩ : BufTy).Contents (Elt F))
  :: StableHlo.binary main_v70 main_v87 main_v88 (addi : (⟨S80000, .i32⟩ : BufTy).Contents (Elt F) → (⟨S80000, .i32⟩ : BufTy).Contents (Elt F) → (⟨S80000, .i32⟩ : BufTy).Contents (Elt F))
  :: StableHlo.ternary main_v86 main_v88 main_v70 main_v89 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F))
  :: StableHlo.unary main_v89 main_v90 (broadcastInDim S80000x1 ![0] bcast_S80000_S80000x1_0 : (⟨S80000, .i32⟩ : BufTy).Contents (Elt F) → (⟨S80000x1, .i32⟩ : BufTy).Contents (Elt F))
  :: StableHlo.binary main_v66 main_v90 main_v91 ((fun x i => Host.gather gather_S5000x36x4_S80000x1_S80000x36x4_12_0_n_n_0_1_1364 x i) : (⟨S5000x36x4, .f32⟩ : BufTy).Contents (Elt F) → (⟨S80000x1, .i32⟩ : BufTy).Contents (Elt F) → (⟨S80000x36x4, .f32⟩ : BufTy).Contents (Elt F))
  :: [] )
set_option maxHeartbeats 40000000 in
theorem headD_sub : (headD : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
set_option maxHeartbeats 40000000 in
theorem headD_fresh : (headD : List (HloOp τ sig (Elt F))).Forall fun op => op.fresh = ∅ := by
  simp only [List.Forall]; repeat' constructor

/-- 8 operations: main_v92 … main_v99, the operations before the call of @silu. -/
abbrev midA : List (HloOp τ sig (Elt F)) :=
  [ StableHlo.binary main_v77 main_arg3 main_v92 ((fun l r => Host.dotGeneral dot_S80000x36x4_S80000x36x36_S80000x4x36_1_1_2_2_0_0 none l r) : (⟨S80000x36x4, .f32⟩ : BufTy).Contents (Elt F) → (⟨S80000x36x36, .f32⟩ : BufTy).Contents (Elt F) → (⟨S80000x4x36, .f32⟩ : BufTy).Contents (Elt F)),
    StableHlo.binary main_v92 main_v84 main_v93 ((fun l r => Host.dotGeneral dot_S80000x4x36_S80000x36x4_S80000x4x4_2_1_1_2_0_0 none l r) : (⟨S80000x4x36, .f32⟩ : BufTy).Contents (Elt F) → (⟨S80000x36x4, .f32⟩ : BufTy).Contents (Elt F) → (⟨S80000x4x4, .f32⟩ : BufTy).Contents (Elt F)),
    StableHlo.reshape main_v93 main_v94 rfl shapeCasts_S80000x4x4_S80000x16,
    StableHlo.unary main_arg6 main_v95 ((transpose S16x16 [1, 0] · transposes_S16x16_S16x16_1_0) : (⟨S16x16, .f32⟩ : BufTy).Contents (Elt F) → (⟨S16x16, .f32⟩ : BufTy).Contents (Elt F)),
    StableHlo.binary main_v94 main_v95 main_v96 ((fun l r => Host.dotGeneral dot_S80000x16_S16x16_S80000x16_1_0_0_1_n_n none l r) : (⟨S80000x16, .f32⟩ : BufTy).Contents (Elt F) → (⟨S16x16, .f32⟩ : BufTy).Contents (Elt F) → (⟨S80000x16, .f32⟩ : BufTy).Contents (Elt F)),
    StableHlo.unary main_arg7 main_v97 (broadcastInDim S1x16 ![1] bcast_S16_S1x16_1 : (⟨S16, .f32⟩ : BufTy).Contents (Elt F) → (⟨S1x16, .f32⟩ : BufTy).Contents (Elt F)),
    StableHlo.unary main_v97 main_v98 (broadcastInDim S80000x16 ![0, 1] bcast_S1x16_S80000x16_0_1 : (⟨S1x16, .f32⟩ : BufTy).Contents (Elt F) → (⟨S80000x16, .f32⟩ : BufTy).Contents (Elt F)),
    StableHlo.binary main_v96 main_v98 main_v99 (addf : (⟨S80000x16, .f32⟩ : BufTy).Contents (Elt F) → (⟨S80000x16, .f32⟩ : BufTy).Contents (Elt F) → (⟨S80000x16, .f32⟩ : BufTy).Contents (Elt F)) ]
theorem midA_sub : (midA : List (HloOp τ sig (Elt F))).Forall fun op => op.bufs ⊆ StableHlo.tcRefs τ sig :=
  ⟨StableHlo.binary_bufs_sub .., StableHlo.binary_bufs_sub .., StableHlo.reshape_bufs_sub .., StableHlo.unary_bufs_sub .., StableHlo.binary_bufs_sub .., StableHlo.unary_bufs_sub .., StableHlo.unary_bufs_sub .., StableHlo.binary_bufs_sub ..⟩
theorem midA_fresh : (midA : List (HloOp τ sig (Elt F))).Forall fun op => op.fresh = ∅ := by
  simp only [List.Forall]; repeat' constructor

/-- 9 operations: the operations of the call of @silu, result main_v100. -/
abbrev midB : List (HloOp τ sig (Elt F)) :=
  [ StableHlo.TRef.unary (.of main_v99 : StableHlo.TRef sig ⟨S80000x16, .f32⟩) (.of main_call1_v0 : StableHlo.TRef sig ⟨S80000x16, .f32⟩) Host.negf,
    StableHlo.TRef.unary (.of main_call1_v0 : StableHlo.TRef sig ⟨S80000x16, .f32⟩) (.of main_call1_v1 : StableHlo.TRef sig ⟨S80000x16, .f32⟩) Host.exp,
    StableHlo.TRef.nullary (.of main_call1_cst : StableHlo.TRef sig ⟨S_, .f32⟩) (constant S_ .f32 0x3F800000#32),
    StableHlo.TRef.unary (.of main_call1_cst : StableHlo.TRef sig ⟨S_, .f32⟩) (.of main_call1_v2 : StableHlo.TRef sig ⟨S80000x16, .f32⟩) (broadcastInDim S80000x16 ![] bcast_S_S80000x16),
    StableHlo.TRef.binary (.of main_call1_v2 : StableHlo.TRef sig ⟨S80000x16, .f32⟩) (.of main_call1_v1 : StableHlo.TRef sig ⟨S80000x16, .f32⟩) (.of main_call1_v3 : StableHlo.TRef sig ⟨S80000x16, .f32⟩) addf,
    StableHlo.TRef.nullary (.of main_call1_cst_0 : StableHlo.TRef sig ⟨S_, .f32⟩) (constant S_ .f32 0x3F800000#32),
    StableHlo.TRef.unary (.of main_call1_cst_0 : StableHlo.TRef sig ⟨S_, .f32⟩) (.of main_call1_v4 : StableHlo.TRef sig ⟨S80000x16, .f32⟩) (broadcastInDim S80000x16 ![] bcast_S_S80000x16),
    StableHlo.TRef.binary (.of main_call1_v4 : StableHlo.TRef sig ⟨S80000x16, .f32⟩) (.of main_call1_v3 : StableHlo.TRef sig ⟨S80000x16, .f32⟩) (.of main_call1_v5 : StableHlo.TRef sig ⟨S80000x16, .f32⟩) Host.divf,
    StableHlo.TRef.binary (.of main_v99 : StableHlo.TRef sig ⟨S80000x16, .f32⟩) (.of main_call1_v5 : StableHlo.TRef sig ⟨S80000x16, .f32⟩) (.of main_v100 : StableHlo.TRef sig ⟨S80000x16, .f32⟩) mulf ]
theorem midB_sub : (midB : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem midB_fresh : (midB : List (HloOp τ sig (Elt F))).Forall fun op => op.fresh = ∅ := by
  simp only [List.Forall]; repeat' constructor

/-- 8 operations: main_v101 … main_v108. -/
abbrev midC : List (HloOp τ sig (Elt F)) :=
  [ StableHlo.unary main_arg8 main_v101 ((transpose S16x16 [1, 0] · transposes_S16x16_S16x16_1_0) : (⟨S16x16, .f32⟩ : BufTy).Contents (Elt F) → (⟨S16x16, .f32⟩ : BufTy).Contents (Elt F)),
    StableHlo.binary main_v100 main_v101 main_v102 ((fun l r => Host.dotGeneral dot_S80000x16_S16x16_S80000x16_1_0_0_1_n_n none l r) : (⟨S80000x16, .f32⟩ : BufTy).Contents (Elt F) → (⟨S16x16, .f32⟩ : BufTy).Contents (Elt F) → (⟨S80000x16, .f32⟩ : BufTy).Contents (Elt F)),
    StableHlo.unary main_arg9 main_v103 (broadcastInDim S1x16 ![1] bcast_S16_S1x16_1 : (⟨S16, .f32⟩ : BufTy).Contents (Elt F) → (⟨S1x16, .f32⟩ : BufTy).Contents (Elt F)),
    StableHlo.unary main_v103 main_v104 (broadcastInDim S80000x16 ![0, 1] bcast_S1x16_S80000x16_0_1 : (⟨S1x16, .f32⟩ : BufTy).Contents (Elt F) → (⟨S80000x16, .f32⟩ : BufTy).Contents (Elt F)),
    StableHlo.binary main_v102 main_v104 main_v105 (addf : (⟨S80000x16, .f32⟩ : BufTy).Contents (Elt F) → (⟨S80000x16, .f32⟩ : BufTy).Contents (Elt F) → (⟨S80000x16, .f32⟩ : BufTy).Contents (Elt F)),
    StableHlo.reshape main_v105 main_v106 rfl shapeCasts_S80000x16_S80000x4x4,
    StableHlo.binary main_arg3 main_v91 main_v107 ((fun l r => Host.dotGeneral dot_S80000x36x36_S80000x36x4_S80000x36x4_2_1_1_2_0_0 none l r) : (⟨S80000x36x36, .f32⟩ : BufTy).Contents (Elt F) → (⟨S80000x36x4, .f32⟩ : BufTy).Contents (Elt F) → (⟨S80000x36x4, .f32⟩ : BufTy).Contents (Elt F)),
    StableHlo.binary main_v107 main_v106 main_v108 ((fun l r => Host.dotGeneral dot_S80000x36x4_S80000x4x4_S80000x36x4_2_1_1_2_0_0 none l r) : (⟨S80000x36x4, .f32⟩ : BufTy).Contents (Elt F) → (⟨S80000x4x4, .f32⟩ : BufTy).Contents (Elt F) → (⟨S80000x36x4, .f32⟩ : BufTy).Contents (Elt F)) ]
theorem midC_sub : (midC : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.reshape_bufs_sub .., StableHlo.binary_bufs_sub .., StableHlo.binary_bufs_sub ..⟩
theorem midC_fresh : (midC : List (HloOp τ sig (Elt F))).Forall fun op => op.fresh = ∅ := by
  simp only [List.Forall]; repeat' constructor

/-- 29 operations: main_cst_26 … main_v130. -/
abbrev tailOps : List (HloOp τ sig (Elt F)) :=
  [ StableHlo.nullary main_cst_26 (constant S_ .f32 0x00000000#32),
    StableHlo.unary main_cst_26 main_v109 (broadcastInDim S5000x36x4 ![] bcast_S_S5000x36x4 : (⟨S_, .f32⟩ : BufTy).Contents (Elt F) → (⟨S5000x36x4, .f32⟩ : BufTy).Contents (Elt F)),
    StableHlo.nullary main_c_27 (constantI S_ 32 0#32),
    StableHlo.unary main_c_27 main_v110 (broadcastInDim S80000 ![] bcast_S_S80000 : (⟨S_, .i32⟩ : BufTy).Contents (Elt F) → (⟨S80000, .i32⟩ : BufTy).Contents (Elt F)),
    StableHlo.binary main_v68 main_v110 main_v111 (cmpi .slt : (⟨S80000, .i32⟩ : BufTy).Contents (Elt F) → (⟨S80000, .i32⟩ : BufTy).Contents (Elt F) → (⟨S80000, .i1⟩ : BufTy).Contents (Elt F)),
    StableHlo.nullary main_c_28 (constantI S_ 32 5000#32),
    StableHlo.unary main_c_28 main_v112 (broadcastInDim S80000 ![] bcast_S_S80000 : (⟨S_, .i32⟩ : BufTy).Contents (Elt F) → (⟨S80000, .i32⟩ : BufTy).Contents (Elt F)),
    StableHlo.binary main_v68 main_v112 main_v113 (addi : (⟨S80000, .i32⟩ : BufTy).Contents (Elt F) → (⟨S80000, .i32⟩ : BufTy).Contents (Elt F) → (⟨S80000, .i32⟩ : BufTy).Contents (Elt F)),
    StableHlo.ternary main_v111 main_v113 main_v68 main_v114 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    StableHlo.unary main_v114 main_v115 (broadcastInDim S80000x1 ![0] bcast_S80000_S80000x1_0 : (⟨S80000, .i32⟩ : BufTy).Contents (Elt F) → (⟨S80000x1, .i32⟩ : BufTy).Contents (Elt F)),
    StableHlo.ternary main_v109 main_v115 main_v108 main_v116 ((fun x i u => Host.scatterAdd scatter_S5000x36x4_S80000x1_S80000x36x4_12_0_0_1 x i u) : (⟨S5000x36x4, .f32⟩ : BufTy).Contents (Elt F) → (⟨S80000x1, .i32⟩ : BufTy).Contents (Elt F) → (⟨S80000x36x4, .f32⟩ : BufTy).Contents (Elt F) → (⟨S5000x36x4, .f32⟩ : BufTy).Contents (Elt F)),
    StableHlo.nullary main_c_29 (constantI S_ 32 0#32),
    StableHlo.unary main_c_29 main_v117 (broadcastInDim S180000 ![] bcast_S_S180000 : (⟨S_, .i32⟩ : BufTy).Contents (Elt F) → (⟨S180000, .i32⟩ : BufTy).Contents (Elt F)),
    StableHlo.binary main_arg5 main_v117 main_v118 (cmpi .slt : (⟨S180000, .i32⟩ : BufTy).Contents (Elt F) → (⟨S180000, .i32⟩ : BufTy).Contents (Elt F) → (⟨S180000, .i1⟩ : BufTy).Contents (Elt F)),
    StableHlo.nullary main_c_30 (constantI S_ 32 5000#32),
    StableHlo.unary main_c_30 main_v119 (broadcastInDim S180000 ![] bcast_S_S180000 : (⟨S_, .i32⟩ : BufTy).Contents (Elt F) → (⟨S180000, .i32⟩ : BufTy).Contents (Elt F)),
    StableHlo.binary main_arg5 main_v119 main_v120 (addi : (⟨S180000, .i32⟩ : BufTy).Contents (Elt F) → (⟨S180000, .i32⟩ : BufTy).Contents (Elt F) → (⟨S180000, .i32⟩ : BufTy).Contents (Elt F)),
    StableHlo.ternary main_v118 main_v120 main_arg5 main_v121 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.nullary main_c_31 (constantI S_ 32 0#32),
    StableHlo.unary main_c_31 main_v122 (broadcastInDim S180000 ![] bcast_S_S180000 : (⟨S_, .i32⟩ : BufTy).Contents (Elt F) → (⟨S180000, .i32⟩ : BufTy).Contents (Elt F)),
    StableHlo.binary main_v21 main_v122 main_v123 (cmpi .slt : (⟨S180000, .i32⟩ : BufTy).Contents (Elt F) → (⟨S180000, .i32⟩ : BufTy).Contents (Elt F) → (⟨S180000, .i1⟩ : BufTy).Contents (Elt F)),
    StableHlo.nullary main_c_32 (constantI S_ 32 36#32),
    StableHlo.unary main_c_32 main_v124 (broadcastInDim S180000 ![] bcast_S_S180000 : (⟨S_, .i32⟩ : BufTy).Contents (Elt F) → (⟨S180000, .i32⟩ : BufTy).Contents (Elt F)),
    StableHlo.binary main_v21 main_v124 main_v125 (addi : (⟨S180000, .i32⟩ : BufTy).Contents (Elt F) → (⟨S180000, .i32⟩ : BufTy).Contents (Elt F) → (⟨S180000, .i32⟩ : BufTy).Contents (Elt F)),
    StableHlo.ternary main_v123 main_v125 main_v21 main_v126 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v121 main_v127 (broadcastInDim S180000x1 ![0] bcast_S180000_S180000x1_0 : (⟨S180000, .i32⟩ : BufTy).Contents (Elt F) → (⟨S180000x1, .i32⟩ : BufTy).Contents (Elt F)),
    StableHlo.unary main_v126 main_v128 (broadcastInDim S180000x1 ![0] bcast_S180000_S180000x1_0 : (⟨S180000, .i32⟩ : BufTy).Contents (Elt F) → (⟨S180000x1, .i32⟩ : BufTy).Contents (Elt F)),
    StableHlo.binary main_v127 main_v128 main_v129 ((fun a b => concatenate S180000x2 1 [⟨S180000x1, a⟩, ⟨S180000x1, b⟩] concatenates_S180000x1_S180000x1_S180000x2_d1) : (⟨S180000x1, .i32⟩ : BufTy).Contents (Elt F) → (⟨S180000x1, .i32⟩ : BufTy).Contents (Elt F) → (⟨S180000x2, .i32⟩ : BufTy).Contents (Elt F)),
    StableHlo.binary main_v116 main_v129 main_v130 ((fun x i => Host.gather gather_S5000x36x4_S180000x2_S180000x4_1_01_n_n_01_1_114 x i) : (⟨S5000x36x4, .f32⟩ : BufTy).Contents (Elt F) → (⟨S180000x2, .i32⟩ : BufTy).Contents (Elt F) → (⟨S180000x4, .f32⟩ : BufTy).Contents (Elt F)) ]
theorem tailOps_sub : (tailOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩
theorem tailOps_fresh : (tailOps : List (HloOp τ sig (Elt F))).Forall fun op => op.fresh = ∅ := by
  simp only [List.Forall]; repeat' constructor

/-- The operations before the middle: 122. -/
abbrev headOps : List (HloOp τ sig (Elt F)) := headA ++ headB ++ headC ++ headD
/-- The middle: 25 operations, main_v92 … main_v108. -/
abbrev midOps : List (HloOp τ sig (Elt F)) := midA ++ midB ++ midC
/-- All of @main's operations, in order. -/
abbrev ops : List (HloOp τ sig (Elt F)) := headOps ++ midOps ++ tailOps

theorem headOps_sub : (headOps : List (HloOp τ sig (Elt F))).Forall fun op => op.bufs ⊆ StableHlo.tcRefs τ sig :=
  List.forall_append.mpr ⟨List.forall_append.mpr ⟨List.forall_append.mpr ⟨headA_sub, headB_sub⟩, headC_sub⟩, headD_sub⟩
theorem midOps_sub : (midOps : List (HloOp τ sig (Elt F))).Forall fun op => op.bufs ⊆ StableHlo.tcRefs τ sig :=
  List.forall_append.mpr ⟨List.forall_append.mpr ⟨midA_sub, midB_sub⟩, midC_sub⟩
theorem ops_sub : (ops : List (HloOp τ sig (Elt F))).Forall fun op => op.bufs ⊆ StableHlo.tcRefs τ sig :=
  List.forall_append.mpr ⟨List.forall_append.mpr ⟨headOps_sub, midOps_sub⟩, tailOps_sub⟩

theorem headOps_fresh : (headOps : List (HloOp τ sig (Elt F))).Forall fun op => op.fresh = ∅ :=
  List.forall_append.mpr ⟨List.forall_append.mpr ⟨List.forall_append.mpr ⟨headA_fresh, headB_fresh⟩, headC_fresh⟩, headD_fresh⟩
theorem midOps_fresh : (midOps : List (HloOp τ sig (Elt F))).Forall fun op => op.fresh = ∅ :=
  List.forall_append.mpr ⟨List.forall_append.mpr ⟨midA_fresh, midB_fresh⟩, midC_fresh⟩
theorem ops_fresh : (ops : List (HloOp τ sig (Elt F))).Forall fun op => op.fresh = ∅ :=
  List.forall_append.mpr ⟨List.forall_append.mpr ⟨headOps_fresh, midOps_fresh⟩, tailOps_fresh⟩

end Cert.ReferenceIdeal.RefRun

end
-- ==== Proof.RefRun.lean ====
/- The reference's run: @main is the straight line of the operations listed in RefOps (its three windows
   peeled against the lists, the two calls' bodies inlined), so every weakly fair execution terminates with each
   TensorCore buffer at the fold of the operations' results over the launch contents. The fold is split into the
   part before the middle, the middle (main_v92 … main_v108) and the tail; which buffers the parts leave alone, and
   what the middle computes as a pure term of the eight values it reads, are stated over the fold. -/
import proofs.«151895_j50173807952913_2_alg».proof.Proof.RefOps
import Idealize.ShloMosaic.Lib.StableHlo.Run
import Idealize.ShloMosaic.Lib.Pipeline.Regions

set_option maxRecDepth 2048

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## @main is one line of operations -/

/-- The first window: the operations before the call of @cumsum, the call's, the rest. -/
theorem main_part0_chain (c : Dev nD) : main_part0 (F := F) c = (Pipeline.chainK
  [ StableHlo.seq headA,
    StableHlo.seq headB ]
  (StableHlo.seq headC) : Prog (TpuEff nD τ sig (Elt F) (Pipeline.Sig Λ₀ (Fin 0) fun p => (pcfgs (F := F) p).Adm) .tc) PUnit) := by
  chain_rfl

/-- The second window: one stretch. -/
theorem main_part1_chain (c : Dev nD) : main_part1 (F := F) c = (Pipeline.chainK
  [  ]
  (StableHlo.seq headD) : Prog (TpuEff nD τ sig (Elt F) (Pipeline.Sig Λ₀ (Fin 0) fun p => (pcfgs (F := F) p).Adm) .tc) PUnit) := by
  chain_rfl

/-- The last window: the operations before the call of @silu, the call's, the rest of the middle, the tail. -/
theorem main_part2_chain (c : Dev nD) : main_part2 (F := F) c = (Pipeline.chain
  [ StableHlo.seq midA,
    StableHlo.seq midB,
    StableHlo.seq midC,
    StableHlo.seq tailOps ] : Prog (TpuEff nD τ sig (Elt F) (Pipeline.Sig Λ₀ (Fin 0) fun p => (pcfgs (F := F) p).Adm) .tc) PUnit) := by
  chain_rfl

/-- Lines run one after the other are their concatenation run as one. -/
theorem chain_map_seq {Λ : Labels} (ls : List (List (HloOp τ sig (Elt F)))) :
    (Pipeline.chain (ls.map fun l => (StableHlo.seq l : Prog (TpuEff nD τ sig (Elt F) Λ .tc) PUnit)))
      = StableHlo.seq ls.flatten := by
  induction ls with
  | nil => rfl
  | cons l ls ih => simp only [List.map_cons, Pipeline.chain_cons, List.flatten_cons, StableHlo.seq_append, ih]

/-- @main is the straight line of its 176 operations. -/
theorem main_eq (c : Dev nD) : main (F := F) c = StableHlo.seq ops := by
  have h : main (F := F) c = (Pipeline.chain
      [ StableHlo.seq headA, StableHlo.seq headB, StableHlo.seq headC, StableHlo.seq headD,
        StableHlo.seq midA, StableHlo.seq midB, StableHlo.seq midC, StableHlo.seq tailOps ] : Prog (TpuEff nD τ sig (Elt F) (Pipeline.Sig Λ₀ (Fin 0) fun p => (pcfgs (F := F) p).Adm) .tc) PUnit) := by
    show (main_part0 (F := F) c >>= fun _ => main_part1 (F := F) c >>= fun _ => main_part2 (F := F) c) = _
    rewrite [main_part2_chain, main_part1_chain, Pipeline.chainK_bind_chain, main_part0_chain, Pipeline.chainK_bind_chain]
    rfl
  rw [h]
  refine (chain_map_seq [headA, headB, headC, headD, midA, midB, midC, tailOps]).trans (congrArg StableHlo.seq ?_)
  simp only [ops, headOps, midOps, List.flatten_cons, List.flatten_nil, List.append_nil, List.append_assoc]

/-! ## The fold, in parts -/

/-- The fold over a concatenation is the fold over the second list from the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of @main terminates, and
    every final state has each TensorCore buffer at the tail's fold over the middle's over the head's over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = StableHlo.after tailOps (StableHlo.after midOps (StableHlo.after headOps (StableHlo.launchContents m c)))
            (Proc.devRef .tc b) :=
  (θ_run defs _ _).mono (fun _ h c b => (h c b).trans (by rw [ops, after_append, after_append]))
    (StableHlo.run_seq scopedRefs_eq scopedSems_eq defs main (fun _ => ops) main_eq (fun _ => ops_sub) m ρ
      (hfresh := fun _ => List.forall_iff_forall_mem.mp ops_fresh))

/-! ## What the parts leave alone

Each operation writes its own result buffer only, so a buffer that is no operation's result in a part keeps its
contents through that part's fold. -/

/-- No operation of the middle writes main_v68. -/
theorem mid_keeps_v68 (W : Valuation τ sig (Elt F)) :
    StableHlo.after midOps W (Proc.devRef .tc main_v68) = W (Proc.devRef .tc main_v68) :=
  StableHlo.after_of_forall_not_mem (b := Proc.devRef .tc main_v68) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation of the middle writes main_arg5. -/
theorem mid_keeps_arg5 (W : Valuation τ sig (Elt F)) :
    StableHlo.after midOps W (Proc.devRef .tc main_arg5) = W (Proc.devRef .tc main_arg5) :=
  StableHlo.after_of_forall_not_mem (b := Proc.devRef .tc main_arg5) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation of the middle writes main_v21. -/
theorem mid_keeps_v21 (W : Valuation τ sig (Elt F)) :
    StableHlo.after midOps W (Proc.devRef .tc main_v21) = W (Proc.devRef .tc main_v21) :=
  StableHlo.after_of_forall_not_mem (b := Proc.devRef .tc main_v21) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation before the middle writes main_arg3. -/
theorem head_keeps_arg3 (W : Valuation τ sig (Elt F)) :
    StableHlo.after headOps W (Proc.devRef .tc main_arg3) = W (Proc.devRef .tc main_arg3) :=
  StableHlo.after_of_forall_not_mem (b := Proc.devRef .tc main_arg3) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation before the middle writes main_arg5. -/
theorem head_keeps_arg5 (W : Valuation τ sig (Elt F)) :
    StableHlo.after headOps W (Proc.devRef .tc main_arg5) = W (Proc.devRef .tc main_arg5) :=
  StableHlo.after_of_forall_not_mem (b := Proc.devRef .tc main_arg5) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation before the middle writes main_arg6. -/
theorem head_keeps_arg6 (W : Valuation τ sig (Elt F)) :
    StableHlo.after headOps W (Proc.devRef .tc main_arg6) = W (Proc.devRef .tc main_arg6) :=
  StableHlo.after_of_forall_not_mem (b := Proc.devRef .tc main_arg6) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation before the middle writes main_arg7. -/
theorem head_keeps_arg7 (W : Valuation τ sig (Elt F)) :
    StableHlo.after headOps W (Proc.devRef .tc main_arg7) = W (Proc.devRef .tc main_arg7) :=
  StableHlo.after_of_forall_not_mem (b := Proc.devRef .tc main_arg7) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation before the middle writes main_arg8. -/
theorem head_keeps_arg8 (W : Valuation τ sig (Elt F)) :
    StableHlo.after headOps W (Proc.devRef .tc main_arg8) = W (Proc.devRef .tc main_arg8) :=
  StableHlo.after_of_forall_not_mem (b := Proc.devRef .tc main_arg8) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation before the middle writes main_arg9. -/
theorem head_keeps_arg9 (W : Valuation τ sig (Elt F)) :
    StableHlo.after headOps W (Proc.devRef .tc main_arg9) = W (Proc.devRef .tc main_arg9) :=
  StableHlo.after_of_forall_not_mem (b := Proc.devRef .tc main_arg9) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## What the middle computes

The middle reads eight values — the edge tensor main_arg3, the gathered query, key and value main_v77, main_v84,
main_v91, and the two layers' weights and biases main_arg6 … main_arg9 — and its last result main_v108 is the
following term of them. Per edge: the query block contracted with the edge matrix and then with the key block gives a
4 × 4 score matrix, read as a vector of 16; a two-layer network acts on it (an affine map, x ↦ x · 1/(1 + exp (−x)),
an affine map); its output, read as a 4 × 4 matrix again, multiplies the edge matrix's product with the value block. -/

/-- The first layer's output before its activation, per edge a vector of 16: the score matrix
    (queryᵀ · edge · key, read as a vector of 16) times the transposed first weights, plus the first bias. -/
def midHidden (em : FVec F S80000x36x36 .f32) (eq ek : FVec F S80000x36x4 .f32) (w1 : FVec F S16x16 .f32)
    (b1 : FVec F S16 .f32) : FVec F S80000x16 .f32 :=
  addf
    (Host.dotGeneral dot_S80000x16_S16x16_S80000x16_1_0_0_1_n_n none
      (fun i => shapeCast S80000x16
        (Host.dotGeneral dot_S80000x4x36_S80000x36x4_S80000x4x4_2_1_1_2_0_0 none
          (Host.dotGeneral dot_S80000x36x4_S80000x36x36_S80000x4x36_1_1_2_2_0_0 none eq em) ek)
        shapeCasts_S80000x4x4_S80000x16 i)
      (transpose S16x16 [1, 0] w1 transposes_S16x16_S16x16_1_0))
    (broadcastInDim S80000x16 ![0, 1] bcast_S1x16_S80000x16_0_1 (broadcastInDim S1x16 ![1] bcast_S16_S1x16_1 b1))

/-- The middle's result main_v108 as a term of the eight values it reads: with h the first layer's output
    `midHidden`, the activation is h · (1 / (1 + exp (−h))); the second layer's output, read per edge as a 4 × 4
    matrix, multiplies (edge · value) on the right. -/
def midTerm (em : FVec F S80000x36x36 .f32) (eq ek ev : FVec F S80000x36x4 .f32) (w1 : FVec F S16x16 .f32)
    (b1 : FVec F S16 .f32) (w2 : FVec F S16x16 .f32) (b2 : FVec F S16 .f32) : FVec F S80000x36x4 .f32 :=
  Host.dotGeneral dot_S80000x36x4_S80000x4x4_S80000x36x4_2_1_1_2_0_0 none
    (Host.dotGeneral dot_S80000x36x36_S80000x36x4_S80000x36x4_2_1_1_2_0_0 none em ev)
    (fun i => shapeCast S80000x4x4
      (addf
        (Host.dotGeneral dot_S80000x16_S16x16_S80000x16_1_0_0_1_n_n none
          (mulf (midHidden em eq ek w1 b1)
            (Host.divf
              (broadcastInDim S80000x16 ![] bcast_S_S80000x16 (constant S_ .f32 0x3F800000#32))
              (addf
                (broadcastInDim S80000x16 ![] bcast_S_S80000x16 (constant S_ .f32 0x3F800000#32))
                (Host.exp (Host.negf (midHidden em eq ek w1 b1))))))
          (transpose S16x16 [1, 0] w2 transposes_S16x16_S16x16_1_0))
        (broadcastInDim S80000x16 ![0, 1] bcast_S1x16_S80000x16_0_1 (broadcastInDim S1x16 ![1] bcast_S16_S1x16_1 b2)))
      shapeCasts_S80000x16_S80000x4x4 i)

set_option maxHeartbeats 4000000 in
/-- The middle's fold at main_v108 is `midTerm` of the contents, before the middle, of the eight buffers it reads. -/
theorem mid_reads (W : Valuation τ sig (Elt F)) :
    StableHlo.after midOps W (Proc.devRef .tc main_v108)
      = midTerm (W (Proc.devRef .tc main_arg3)) (W (Proc.devRef .tc main_v77)) (W (Proc.devRef .tc main_v84))
          (W (Proc.devRef .tc main_v91)) (W (Proc.devRef .tc main_arg6)) (W (Proc.devRef .tc main_arg7))
          (W (Proc.devRef .tc main_arg8)) (W (Proc.devRef .tc main_arg9)) := by
  simp only [midOps, midA, midB, midC, List.cons_append, List.nil_append]
  after_results_simp
  rfl

end Cert.ReferenceIdeal.RefRun

end
-- ==== Proof.RMid.lean ====
/-
  The reference's edge-wise chain, read entry by entry, is the same message function.

  Between the shared gathers and the shared scatter-add the reference computes, for all 80000 edges at once: the
  query block contracted with the edge matrix over rows and the result with the key block (the same 4 × 4 score,
  the first product's factors in the other order), the score flattened, two dense layers against transposed
  weights with `x · (1 / (1 + e^(-x)))` between them, and the transported value block mixed by the unflattened
  output. On the extended reals the reciprocal form IS the logistic function, the pattern of the constant is the
  number one, and a product of two extended reals commutes: so the chain's result is `Cert.EdgeSpec.msg 80000` of
  its eight operands.
-/
import proofs.«151895_j50173807952913_2_alg».proof.Proof.RefRun
import proofs.«151895_j50173807952913_2_alg».proof.Proof.EdgeSpec
import proofs.«151895_j50173807952913_2_alg».proof.Proof.LibDotFin
import Idealize.ShloMosaic.Lib.ValueLayout
import Idealize.ShloMosaic.Lib.Pipeline.Value
import Idealize.ShloMosaic.PureOps.IdealRules

noncomputable section

namespace Cert.ReferenceIdeal.MidValue

open Cert.ReferenceIdeal Cert.ReferenceIdeal.Gen Cert.ReferenceIdeal.RefRun
open Idealize.ShloMosaic Idealize.ShloMosaic.ValueIdx Cert.EdgeSpec

/-! ## The five products, each at an output position -/

theorem dg_rows (Q : FVec Ideal S80000x36x4 .f32) (A : FVec Ideal S80000x36x36 .f32) (e : Fin 80000) (c : Fin 4) (j : Fin 36) :
    Host.dotGeneral dot_S80000x36x4_S80000x36x36_S80000x4x36_1_1_2_2_0_0 none Q A (ix3 e c j)
      = ∑ i : Fin 36, Q (ix3 e i c) * A (ix3 e i j) := by
  refine (Ideal.dotGeneral_apply _ none .single Q A _).trans ?_
  refine dot_sum_fin _ 36 rfl rfl Q A _ (fun i => ix3 e i c) (fun i => ix3 e i j) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

theorem dg_cols (T : FVec Ideal S80000x4x36 .f32) (Kk : FVec Ideal S80000x36x4 .f32) (e : Fin 80000) (c m : Fin 4) :
    Host.dotGeneral dot_S80000x4x36_S80000x36x4_S80000x4x4_2_1_1_2_0_0 none T Kk (ix3 e c m)
      = ∑ j : Fin 36, T (ix3 e c j) * Kk (ix3 e j m) := by
  refine (Ideal.dotGeneral_apply _ none .single T Kk _).trans ?_
  refine dot_sum_fin _ 36 rfl rfl T Kk _ (fun j => ix3 e c j) (fun j => ix3 e j m) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

theorem dg_transport (A : FVec Ideal S80000x36x36 .f32) (Vv : FVec Ideal S80000x36x4 .f32) (e : Fin 80000) (i : Fin 36) (c : Fin 4) :
    Host.dotGeneral dot_S80000x36x36_S80000x36x4_S80000x36x4_2_1_1_2_0_0 none A Vv (ix3 e i c)
      = ∑ j : Fin 36, A (ix3 e i j) * Vv (ix3 e j c) := by
  refine (Ideal.dotGeneral_apply _ none .single A Vv _).trans ?_
  refine dot_sum_fin _ 36 rfl rfl A Vv _ (fun j => ix3 e i j) (fun j => ix3 e j c) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

theorem dg_mix (T : FVec Ideal S80000x36x4 .f32) (Mx : FVec Ideal S80000x4x4 .f32) (e : Fin 80000) (i : Fin 36) (m : Fin 4) :
    Host.dotGeneral dot_S80000x36x4_S80000x4x4_S80000x36x4_2_1_1_2_0_0 none T Mx (ix3 e i m)
      = ∑ c : Fin 4, T (ix3 e i c) * Mx (ix3 e c m) := by
  refine (Ideal.dotGeneral_apply _ none .single T Mx _).trans ?_
  refine dot_sum_fin _ 4 rfl rfl T Mx _ (fun c => ix3 e i c) (fun c => ix3 e c m) ?_ ?_
  · intro q a
    match a with
    | ⟨0, _⟩ => rfl
    | ⟨1, _⟩ => rfl
    | ⟨2, _⟩ => rfl
  · intro q a
    match a with
    | ⟨0, _⟩ => rfl
    | ⟨1, _⟩ => rfl
    | ⟨2, _⟩ => rfl

theorem dg_dense (X : FVec Ideal S80000x16 .f32) (W : FVec Ideal S16x16 .f32) (e : Fin 80000) (o : Fin 16) :
    Host.dotGeneral dot_S80000x16_S16x16_S80000x16_1_0_0_1_n_n none X (transpose S16x16 [1, 0] W transposes_S16x16_S16x16_1_0) (ix2 e o)
      = ∑ p : Fin 16, X (ix2 e p) * W (ix2 o p) := by
  refine (Ideal.dotGeneral_apply _ none .single X _ _).trans ?_
  refine (dot_sum_fin _ 16 rfl rfl X _ _ (fun p => ix2 e p) (fun p => ix2 p o) ?_ ?_).trans ?_
  · intro q a
    match a with
    | ⟨0, _⟩ => rfl
    | ⟨1, _⟩ => rfl
  · intro q a
    match a with
    | ⟨0, _⟩ => rfl
    | ⟨1, _⟩ => rfl
  · exact Finset.sum_congr rfl fun p _ => congrArg (X (ix2 e p) * ·) (transpose_ix2_apply W _ p o)

/-! ## The bias, the constant one, the two reshapes, the activation -/

/-- A bias vector broadcast to a row and then over the edges reads, at `(e, o)`, the bias at `o`. -/
theorem bias_row (b : FVec Ideal S16 .f32) (e : Fin 80000) (o : Fin 16) :
    broadcastInDim S80000x16 ![0, 1] bcast_S1x16_S80000x16_0_1 (broadcastInDim S1x16 ![1] bcast_S16_S1x16_1 b) (ix2 e o)
      = b (ix1 o) := by
  refine (broadcastInDim_apply ![0, 1] bcast_S1x16_S80000x16_0_1 _ (ix2 e o) (ix2 (0 : Fin 1) o) fun a => ?_).trans ?_
  · match a with
    | ⟨0, _⟩ => rfl
    | ⟨1, _⟩ => rfl
  · refine broadcastInDim_apply ![1] bcast_S16_S1x16_1 b (ix2 (0 : Fin 1) o) (ix1 o) fun a => ?_
    match a with
    | ⟨0, _⟩ => rfl

/-- The splat of the pattern of `1.0` is the number one at every position. -/
theorem one_at (j : S80000x16.Idx) :
    broadcastInDim S80000x16 ![] bcast_S_S80000x16 (constant (F := Ideal) S_ .f32 0x3F800000#32) j = (1 : EReal) :=
  (broadcastInDim_apply ![] bcast_S_S80000x16 _ j ix0 fun a => a.elim0).trans (IdealRules.sign_bit.ideal_onePat .f32)

theorem flatten (a : FVec Ideal S80000x4x4 .f32) (e : Fin 80000) (p : Fin 16) :
    shapeCast S80000x16 a shapeCasts_S80000x4x4_S80000x16 (ix2 e p)
      = a (ix3 e (⟨p.val / 4, by omega⟩ : Fin 4) (⟨p.val % 4, by omega⟩ : Fin 4)) :=
  shapeCast_apply a _ _ _ (by
    rw [Shape.rowMajor_val_three, Shape.rowMajor_val_two]
    show (e.val * 4 + p.val / 4) * 4 + p.val % 4 = e.val * 16 + p.val
    omega)

theorem unflatten (x : FVec Ideal S80000x16 .f32) (e : Fin 80000) (c m : Fin 4) :
    shapeCast S80000x4x4 x shapeCasts_S80000x16_S80000x4x4 (ix3 e c m)
      = x (ix2 e (⟨c.val * 4 + m.val, by omega⟩ : Fin 16)) :=
  shapeCast_apply x _ _ _ (by
    rw [Shape.rowMajor_val_two, Shape.rowMajor_val_three]
    show e.val * 16 + (c.val * 4 + m.val) = (e.val * 4 + c.val) * 4 + m.val
    omega)

theorem mul_logistic_congr {a b : EReal} (h : a = b) : a * Ideal.logistic a = b * Ideal.logistic b := by rw [h]

/-- The activation as the reference spells it: `x · (1 / (1 + e^(-x)))` with the host's quotient, exponential and
    negation, is `x · logistic x` at every position. -/
theorem act_host (H : FVec Ideal S80000x16 .f32) (j : S80000x16.Idx) :
    mulf H (Host.divf (broadcastInDim S80000x16 ![] bcast_S_S80000x16 (constant S_ .f32 0x3F800000#32))
      (addf (broadcastInDim S80000x16 ![] bcast_S_S80000x16 (constant S_ .f32 0x3F800000#32)) (Host.exp (Host.negf H)))) j
      = H j * Ideal.logistic (H j) := by
  show H j * Ideal.div (broadcastInDim S80000x16 ![] bcast_S_S80000x16 (constant (F := Ideal) S_ .f32 0x3F800000#32) j)
      (broadcastInDim S80000x16 ![] bcast_S_S80000x16 (constant (F := Ideal) S_ .f32 0x3F800000#32) j + Ideal.exp (-(H j))) = _
  rw [one_at]
  rfl

/-! ## The chain, entry by entry -/

/-- The first dense layer's output before the activation. -/
theorem hidden_eq (em : FVec Ideal S80000x36x36 .f32) (eq ek : FVec Ideal S80000x36x4 .f32) (w1 : FVec Ideal S16x16 .f32)
    (b1 : FVec Ideal S16 .f32) (e : Fin 80000) (q : Fin 16) :
    midHidden em eq ek w1 b1 (ix2 e q)
      = dense (flat (score (fun i j => em (ix3 e i j)) (fun i c => eq (ix3 e i c)) (fun j m => ek (ix3 e j m))))
          (fun o p => w1 (ix2 o p)) (fun o => b1 (ix1 o)) q := by
  unfold midHidden dense
  refine congrArg₂ (· + ·) ?_ (bias_row b1 e q)
  refine (dg_dense _ _ e q).trans (Finset.sum_congr rfl fun r _ => congrArg₂ (· * ·) ?_ rfl)
  refine (flatten _ e r).trans ?_
  unfold flat score
  refine (dg_cols _ _ e _ _).trans (Finset.sum_congr rfl fun j _ => congrArg₂ (· * ·) ?_ rfl)
  exact (dg_rows _ _ e _ j).trans (Finset.sum_congr rfl fun i _ => mul_comm _ _)

/-- The chain's result at `(e, i, mm)` is edge `e`'s message at `(i, mm)`. -/
theorem midTerm_at (em : FVec Ideal S80000x36x36 .f32) (eq ek ev : FVec Ideal S80000x36x4 .f32) (w1 : FVec Ideal S16x16 .f32)
    (b1 : FVec Ideal S16 .f32) (w2 : FVec Ideal S16x16 .f32) (b2 : FVec Ideal S16 .f32) (e : Fin 80000) (i : Fin 36) (mm : Fin 4) :
    midTerm em eq ek ev w1 b1 w2 b2 (ix3 e i mm) = msg 80000 em eq ek ev w1 b1 w2 b2 (ix3 e i mm) := by
  rw [msg_ix3]
  unfold midTerm edgeMsg
  refine (dg_mix _ _ e i mm).trans (Finset.sum_congr rfl fun c _ => congrArg₂ (· * ·) (dg_transport em ev e i c) ?_)
  unfold mlp dense silu
  refine (unflatten _ e c mm).trans ?_
  refine congrArg₂ (· + ·) ?_ (bias_row b2 e _)
  refine (dg_dense _ _ e _).trans (Finset.sum_congr rfl fun q _ => congrArg₂ (· * ·) ?_ rfl)
  exact (act_host _ _).trans (mul_logistic_congr (hidden_eq em eq ek w1 b1 e q))

/-- The reference's edge-wise chain is the message function of its operands. -/
theorem midTerm_eq (em : FVec Ideal S80000x36x36 .f32) (eq ek ev : FVec Ideal S80000x36x4 .f32) (w1 : FVec Ideal S16x16 .f32)
    (b1 : FVec Ideal S16 .f32) (w2 : FVec Ideal S16x16 .f32) (b2 : FVec Ideal S16 .f32) :
    midTerm em eq ek ev w1 b1 w2 b2 = msg 80000 em eq ek ev w1 b1 w2 b2 := by
  funext y
  obtain ⟨e, i, mm, rfl⟩ : ∃ (e : Fin 80000) (i : Fin 36) (mm : Fin 4), y = ix3 e i mm := ⟨y 0, y 1, y 2, eq_ix3 y⟩
  exact midTerm_at em eq ek ev w1 b1 w2 b2 e i mm

end Cert.ReferenceIdeal.MidValue

end
-- ==== Proof.RKeepsHead.lean ====
/-
  Each operation writes its own result buffer only, and no operation before the edge-wise chain has an argument
  array as its result: the arguments keep their contents through that part's fold.
-/
import proofs.«151895_j50173807952913_2_alg».proof.Proof.RefRun

set_option maxRecDepth 2048

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 4000000 in
/-- No operation of this part writes argument 0. -/
theorem head_keeps_arg0' (W : Valuation τ sig (Elt F)) :
    StableHlo.after headOps W (Proc.devRef .tc main_arg0) = W (Proc.devRef .tc main_arg0) :=
  StableHlo.after_of_forall_not_mem (b := Proc.devRef .tc main_arg0) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 1. -/
theorem head_keeps_arg1' (W : Valuation τ sig (Elt F)) :
    StableHlo.after headOps W (Proc.devRef .tc main_arg1) = W (Proc.devRef .tc main_arg1) :=
  StableHlo.after_of_forall_not_mem (b := Proc.devRef .tc main_arg1) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 2. -/
theorem head_keeps_arg2' (W : Valuation τ sig (Elt F)) :
    StableHlo.after headOps W (Proc.devRef .tc main_arg2) = W (Proc.devRef .tc main_arg2) :=
  StableHlo.after_of_forall_not_mem (b := Proc.devRef .tc main_arg2) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 4. -/
theorem head_keeps_arg4' (W : Valuation τ sig (Elt F)) :
    StableHlo.after headOps W (Proc.devRef .tc main_arg4) = W (Proc.devRef .tc main_arg4) :=
  StableHlo.after_of_forall_not_mem (b := Proc.devRef .tc main_arg4) _ _ (List.forall_iff_forall_mem.mp (by
    simp only [headOps, headA, headB, headC, headD, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.ReferenceIdeal.RefRun

end
-- ==== Proof.RKeepsTail.lean ====
/-
  Each operation writes its own result buffer only, and no operation of the edge-wise chain or after it has an
  argument array as its result: the arguments keep their contents through those parts' folds.
-/
import proofs.«151895_j50173807952913_2_alg».proof.Proof.RefRun

set_option maxRecDepth 2048

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 4000000 in
/-- No operation of this part writes argument 0. -/
theorem mid_keeps_arg0 (W : Valuation τ sig (Elt F)) :
    StableHlo.after midOps W (Proc.devRef .tc main_arg0) = W (Proc.devRef .tc main_arg0) :=
  StableHlo.after_of_forall_not_mem (b := Proc.devRef .tc main_arg0) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 1. -/
theorem mid_keeps_arg1 (W : Valuation τ sig (Elt F)) :
    StableHlo.after midOps W (Proc.devRef .tc main_arg1) = W (Proc.devRef .tc main_arg1) :=
  StableHlo.after_of_forall_not_mem (b := Proc.devRef .tc main_arg1) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 2. -/
theorem mid_keeps_arg2 (W : Valuation τ sig (Elt F)) :
    StableHlo.after midOps W (Proc.devRef .tc main_arg2) = W (Proc.devRef .tc main_arg2) :=
  StableHlo.after_of_forall_not_mem (b := Proc.devRef .tc main_arg2) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 3. -/
theorem mid_keeps_arg3 (W : Valuation τ sig (Elt F)) :
    StableHlo.after midOps W (Proc.devRef .tc main_arg3) = W (Proc.devRef .tc main_arg3) :=
  StableHlo.after_of_forall_not_mem (b := Proc.devRef .tc main_arg3) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 4. -/
theorem mid_keeps_arg4 (W : Valuation τ sig (Elt F)) :
    StableHlo.after midOps W (Proc.devRef .tc main_arg4) = W (Proc.devRef .tc main_arg4) :=
  StableHlo.after_of_forall_not_mem (b := Proc.devRef .tc main_arg4) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 6. -/
theorem mid_keeps_arg6 (W : Valuation τ sig (Elt F)) :
    StableHlo.after midOps W (Proc.devRef .tc main_arg6) = W (Proc.devRef .tc main_arg6) :=
  StableHlo.after_of_forall_not_mem (b := Proc.devRef .tc main_arg6) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 7. -/
theorem mid_keeps_arg7 (W : Valuation τ sig (Elt F)) :
    StableHlo.after midOps W (Proc.devRef .tc main_arg7) = W (Proc.devRef .tc main_arg7) :=
  StableHlo.after_of_forall_not_mem (b := Proc.devRef .tc main_arg7) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 8. -/
theorem mid_keeps_arg8 (W : Valuation τ sig (Elt F)) :
    StableHlo.after midOps W (Proc.devRef .tc main_arg8) = W (Proc.devRef .tc main_arg8) :=
  StableHlo.after_of_forall_not_mem (b := Proc.devRef .tc main_arg8) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 9. -/
theorem mid_keeps_arg9 (W : Valuation τ sig (Elt F)) :
    StableHlo.after midOps W (Proc.devRef .tc main_arg9) = W (Proc.devRef .tc main_arg9) :=
  StableHlo.after_of_forall_not_mem (b := Proc.devRef .tc main_arg9) _ _ (List.forall_iff_forall_mem.mp (by
    simp only [midOps, midA, midB, midC, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 0. -/
theorem tail_keeps_arg0 (W : Valuation τ sig (Elt F)) :
    StableHlo.after tailOps W (Proc.devRef .tc main_arg0) = W (Proc.devRef .tc main_arg0) :=
  StableHlo.after_of_forall_not_mem (b := Proc.devRef .tc main_arg0) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 1. -/
theorem tail_keeps_arg1 (W : Valuation τ sig (Elt F)) :
    StableHlo.after tailOps W (Proc.devRef .tc main_arg1) = W (Proc.devRef .tc main_arg1) :=
  StableHlo.after_of_forall_not_mem (b := Proc.devRef .tc main_arg1) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 2. -/
theorem tail_keeps_arg2 (W : Valuation τ sig (Elt F)) :
    StableHlo.after tailOps W (Proc.devRef .tc main_arg2) = W (Proc.devRef .tc main_arg2) :=
  StableHlo.after_of_forall_not_mem (b := Proc.devRef .tc main_arg2) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 3. -/
theorem tail_keeps_arg3 (W : Valuation τ sig (Elt F)) :
    StableHlo.after tailOps W (Proc.devRef .tc main_arg3) = W (Proc.devRef .tc main_arg3) :=
  StableHlo.after_of_forall_not_mem (b := Proc.devRef .tc main_arg3) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 4. -/
theorem tail_keeps_arg4 (W : Valuation τ sig (Elt F)) :
    StableHlo.after tailOps W (Proc.devRef .tc main_arg4) = W (Proc.devRef .tc main_arg4) :=
  StableHlo.after_of_forall_not_mem (b := Proc.devRef .tc main_arg4) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 5. -/
theorem tail_keeps_arg5 (W : Valuation τ sig (Elt F)) :
    StableHlo.after tailOps W (Proc.devRef .tc main_arg5) = W (Proc.devRef .tc main_arg5) :=
  StableHlo.after_of_forall_not_mem (b := Proc.devRef .tc main_arg5) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 6. -/
theorem tail_keeps_arg6 (W : Valuation τ sig (Elt F)) :
    StableHlo.after tailOps W (Proc.devRef .tc main_arg6) = W (Proc.devRef .tc main_arg6) :=
  StableHlo.after_of_forall_not_mem (b := Proc.devRef .tc main_arg6) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 7. -/
theorem tail_keeps_arg7 (W : Valuation τ sig (Elt F)) :
    StableHlo.after tailOps W (Proc.devRef .tc main_arg7) = W (Proc.devRef .tc main_arg7) :=
  StableHlo.after_of_forall_not_mem (b := Proc.devRef .tc main_arg7) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 8. -/
theorem tail_keeps_arg8 (W : Valuation τ sig (Elt F)) :
    StableHlo.after tailOps W (Proc.devRef .tc main_arg8) = W (Proc.devRef .tc main_arg8) :=
  StableHlo.after_of_forall_not_mem (b := Proc.devRef .tc main_arg8) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of this part writes argument 9. -/
theorem tail_keeps_arg9 (W : Valuation τ sig (Elt F)) :
    StableHlo.after tailOps W (Proc.devRef .tc main_arg9) = W (Proc.devRef .tc main_arg9) :=
  StableHlo.after_of_forall_not_mem (b := Proc.devRef .tc main_arg9) _ _ (List.forall_iff_forall_mem.mp (by
    simp only [tailOps, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.ReferenceIdeal.RefRun

end
-- ==== Proof.Agree.lean ====
/- The reference and the kernel program do the same host operations before and after their middles, on buffers of the
   same names (before) or numbered 16 apart (after): read as pure terms of the argument buffers the two folds are the
   same term, up to each program's own copies of the shape abbreviations and dimension records, which unfold to the
   same literals. So from valuations that agree on the arguments read, the two folds agree at the buffers the middles
   read (the gathered query, key and value, the edges' first row, the position of a node in its graph) and, after
   middles with equal results, at the result. -/
import proofs.«151895_j50173807952913_2_alg».proof.Proof.RefRun
import proofs.«151895_j50173807952913_2_alg».proof.Proof.Gen.KernelIdeal.Frame
import Idealize.ShloMosaic.PureOps.Ideal
import Idealize.ShloMosaic.Lib.StableHlo.Run

set_option maxRecDepth 8192
set_option Elab.async false

noncomputable section

namespace Cert.Agree

open Idealize.ShloMosaic Idealize.ShloMosaic.TcCoe Idealize.SL.Sem

/-- The concatenation of two vectors along an axis, the two vectors arguments of their own. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = concat2 t a s₁ s₂ x y h := rfl

/-! ## Before the middles

Each fold is evaluated at the buffer read: an operation's result at its own buffer is its function of its operands'
contents, at any other buffer what was there. What is left on each side is a term over the valuation at the argument
buffers; the hypotheses identify those, and the two terms are then equal by unfolding the two programs' abbreviations. -/

set_option maxHeartbeats 40000000 in
attribute [local irreducible] Host.gather Host.scatter Host.scatterAdd Host.reduceWindow concatenate concat2 in
/-- The gathered query blocks: the first argument batched by graph (a scatter by graph and position), gathered by the edges' first row. -/
theorem head_v77 (LR : Valuation Cert.ReferenceIdeal.τ Cert.ReferenceIdeal.sig (Elt Ideal)) (LK : Valuation Cert.KernelIdeal.τ Cert.KernelIdeal.sig (Elt Ideal))
    (h0 : LR (Proc.devRef .tc Cert.ReferenceIdeal.main_arg0) = LK (Proc.devRef .tc Cert.KernelIdeal.main_arg0))
    (h4 : LR (Proc.devRef .tc Cert.ReferenceIdeal.main_arg4) = LK (Proc.devRef .tc Cert.KernelIdeal.main_arg4))
    (h5 : LR (Proc.devRef .tc Cert.ReferenceIdeal.main_arg5) = LK (Proc.devRef .tc Cert.KernelIdeal.main_arg5)) :
    StableHlo.after (Cert.ReferenceIdeal.RefRun.headOps (F := Ideal)) LR (Proc.devRef .tc Cert.ReferenceIdeal.main_v77)
      = StableHlo.after (List.flatten [Cert.KernelIdeal.Gen.hostOps0, Cert.KernelIdeal.Gen.hostOps0_1, Cert.KernelIdeal.Gen.hostOps0_2]) LK (Proc.devRef .tc Cert.KernelIdeal.main_v77) := by
  simp only [Cert.ReferenceIdeal.RefRun.headOps, Cert.ReferenceIdeal.RefRun.headA, Cert.ReferenceIdeal.RefRun.headB, Cert.ReferenceIdeal.RefRun.headC, Cert.ReferenceIdeal.RefRun.headD,
    Cert.KernelIdeal.Gen.hostOps0, Cert.KernelIdeal.Gen.hostOps0_1, Cert.KernelIdeal.Gen.hostOps0_2,
    List.flatten_cons, List.flatten_nil, List.append_nil, List.cons_append, List.nil_append]
  simp (disch := decide) only [StableHlo.after_cons, StableHlo.after_nil,
    StableHlo.nullary_result', StableHlo.unary_result', StableHlo.binary_result', StableHlo.ternary_result',
    StableHlo.quaternary_result', StableHlo.reshape_result',
    StableHlo.nullary_result_ne', StableHlo.unary_result_ne', StableHlo.binary_result_ne', StableHlo.ternary_result_ne',
    StableHlo.quaternary_result_ne', StableHlo.reshape_result_ne', concatenate_pair]
  rw [h0, h4, h5]
  rfl

set_option maxHeartbeats 40000000 in
attribute [local irreducible] Host.gather Host.scatter Host.scatterAdd Host.reduceWindow concatenate concat2 in
/-- The gathered key blocks: the second argument batched by graph, gathered by the edges' second row. -/
theorem head_v84 (LR : Valuation Cert.ReferenceIdeal.τ Cert.ReferenceIdeal.sig (Elt Ideal)) (LK : Valuation Cert.KernelIdeal.τ Cert.KernelIdeal.sig (Elt Ideal))
    (h1 : LR (Proc.devRef .tc Cert.ReferenceIdeal.main_arg1) = LK (Proc.devRef .tc Cert.KernelIdeal.main_arg1))
    (h4 : LR (Proc.devRef .tc Cert.ReferenceIdeal.main_arg4) = LK (Proc.devRef .tc Cert.KernelIdeal.main_arg4))
    (h5 : LR (Proc.devRef .tc Cert.ReferenceIdeal.main_arg5) = LK (Proc.devRef .tc Cert.KernelIdeal.main_arg5)) :
    StableHlo.after (Cert.ReferenceIdeal.RefRun.headOps (F := Ideal)) LR (Proc.devRef .tc Cert.ReferenceIdeal.main_v84)
      = StableHlo.after (List.flatten [Cert.KernelIdeal.Gen.hostOps0, Cert.KernelIdeal.Gen.hostOps0_1, Cert.KernelIdeal.Gen.hostOps0_2]) LK (Proc.devRef .tc Cert.KernelIdeal.main_v84) := by
  simp only [Cert.ReferenceIdeal.RefRun.headOps, Cert.ReferenceIdeal.RefRun.headA, Cert.ReferenceIdeal.RefRun.headB, Cert.ReferenceIdeal.RefRun.headC, Cert.ReferenceIdeal.RefRun.headD,
    Cert.KernelIdeal.Gen.hostOps0, Cert.KernelIdeal.Gen.hostOps0_1, Cert.KernelIdeal.Gen.hostOps0_2,
    List.flatten_cons, List.flatten_nil, List.append_nil, List.cons_append, List.nil_append]
  simp (disch := decide) only [StableHlo.after_cons, StableHlo.after_nil,
    StableHlo.nullary_result', StableHlo.unary_result', StableHlo.binary_result', StableHlo.ternary_result',
    StableHlo.quaternary_result', StableHlo.reshape_result',
    StableHlo.nullary_result_ne', StableHlo.unary_result_ne', StableHlo.binary_result_ne', StableHlo.ternary_result_ne',
    StableHlo.quaternary_result_ne', StableHlo.reshape_result_ne', concatenate_pair]
  rw [h1, h4, h5]
  rfl

set_option maxHeartbeats 40000000 in
attribute [local irreducible] Host.gather Host.scatter Host.scatterAdd Host.reduceWindow concatenate concat2 in
/-- The gathered value blocks: the third argument batched by graph, gathered by the edges' second row. -/
theorem head_v91 (LR : Valuation Cert.ReferenceIdeal.τ Cert.ReferenceIdeal.sig (Elt Ideal)) (LK : Valuation Cert.KernelIdeal.τ Cert.KernelIdeal.sig (Elt Ideal))
    (h2 : LR (Proc.devRef .tc Cert.ReferenceIdeal.main_arg2) = LK (Proc.devRef .tc Cert.KernelIdeal.main_arg2))
    (h4 : LR (Proc.devRef .tc Cert.ReferenceIdeal.main_arg4) = LK (Proc.devRef .tc Cert.KernelIdeal.main_arg4))
    (h5 : LR (Proc.devRef .tc Cert.ReferenceIdeal.main_arg5) = LK (Proc.devRef .tc Cert.KernelIdeal.main_arg5)) :
    StableHlo.after (Cert.ReferenceIdeal.RefRun.headOps (F := Ideal)) LR (Proc.devRef .tc Cert.ReferenceIdeal.main_v91)
      = StableHlo.after (List.flatten [Cert.KernelIdeal.Gen.hostOps0, Cert.KernelIdeal.Gen.hostOps0_1, Cert.KernelIdeal.Gen.hostOps0_2]) LK (Proc.devRef .tc Cert.KernelIdeal.main_v91) := by
  simp only [Cert.ReferenceIdeal.RefRun.headOps, Cert.ReferenceIdeal.RefRun.headA, Cert.ReferenceIdeal.RefRun.headB, Cert.ReferenceIdeal.RefRun.headC, Cert.ReferenceIdeal.RefRun.headD,
    Cert.KernelIdeal.Gen.hostOps0, Cert.KernelIdeal.Gen.hostOps0_1, Cert.KernelIdeal.Gen.hostOps0_2,
    List.flatten_cons, List.flatten_nil, List.append_nil, List.cons_append, List.nil_append]
  simp (disch := decide) only [StableHlo.after_cons, StableHlo.after_nil,
    StableHlo.nullary_result', StableHlo.unary_result', StableHlo.binary_result', StableHlo.ternary_result',
    StableHlo.quaternary_result', StableHlo.reshape_result',
    StableHlo.nullary_result_ne', StableHlo.unary_result_ne', StableHlo.binary_result_ne', StableHlo.ternary_result_ne',
    StableHlo.quaternary_result_ne', StableHlo.reshape_result_ne', concatenate_pair]
  rw [h2, h4, h5]
  rfl

set_option maxHeartbeats 40000000 in
attribute [local irreducible] Host.gather Host.scatter Host.scatterAdd Host.reduceWindow concatenate concat2 in
/-- The edges' first row. -/
theorem head_v68 (LR : Valuation Cert.ReferenceIdeal.τ Cert.ReferenceIdeal.sig (Elt Ideal)) (LK : Valuation Cert.KernelIdeal.τ Cert.KernelIdeal.sig (Elt Ideal))
    (h4 : LR (Proc.devRef .tc Cert.ReferenceIdeal.main_arg4) = LK (Proc.devRef .tc Cert.KernelIdeal.main_arg4)) :
    StableHlo.after (Cert.ReferenceIdeal.RefRun.headOps (F := Ideal)) LR (Proc.devRef .tc Cert.ReferenceIdeal.main_v68)
      = StableHlo.after (List.flatten [Cert.KernelIdeal.Gen.hostOps0, Cert.KernelIdeal.Gen.hostOps0_1, Cert.KernelIdeal.Gen.hostOps0_2]) LK (Proc.devRef .tc Cert.KernelIdeal.main_v68) := by
  simp only [Cert.ReferenceIdeal.RefRun.headOps, Cert.ReferenceIdeal.RefRun.headA, Cert.ReferenceIdeal.RefRun.headB, Cert.ReferenceIdeal.RefRun.headC, Cert.ReferenceIdeal.RefRun.headD,
    Cert.KernelIdeal.Gen.hostOps0, Cert.KernelIdeal.Gen.hostOps0_1, Cert.KernelIdeal.Gen.hostOps0_2,
    List.flatten_cons, List.flatten_nil, List.append_nil, List.cons_append, List.nil_append]
  simp (disch := decide) only [StableHlo.after_cons, StableHlo.after_nil,
    StableHlo.nullary_result', StableHlo.unary_result', StableHlo.binary_result', StableHlo.ternary_result',
    StableHlo.quaternary_result', StableHlo.reshape_result',
    StableHlo.nullary_result_ne', StableHlo.unary_result_ne', StableHlo.binary_result_ne', StableHlo.ternary_result_ne',
    StableHlo.quaternary_result_ne', StableHlo.reshape_result_ne', concatenate_pair]
  rw [h4]
  rfl

set_option maxHeartbeats 40000000 in
attribute [local irreducible] Host.gather Host.scatter Host.scatterAdd Host.reduceWindow concatenate concat2 in
/-- The position of each node within its graph: its index less the exclusive prefix count of the graphs before. -/
theorem head_v21 (LR : Valuation Cert.ReferenceIdeal.τ Cert.ReferenceIdeal.sig (Elt Ideal)) (LK : Valuation Cert.KernelIdeal.τ Cert.KernelIdeal.sig (Elt Ideal))
    (h5 : LR (Proc.devRef .tc Cert.ReferenceIdeal.main_arg5) = LK (Proc.devRef .tc Cert.KernelIdeal.main_arg5)) :
    StableHlo.after (Cert.ReferenceIdeal.RefRun.headOps (F := Ideal)) LR (Proc.devRef .tc Cert.ReferenceIdeal.main_v21)
      = StableHlo.after (List.flatten [Cert.KernelIdeal.Gen.hostOps0, Cert.KernelIdeal.Gen.hostOps0_1, Cert.KernelIdeal.Gen.hostOps0_2]) LK (Proc.devRef .tc Cert.KernelIdeal.main_v21) := by
  simp only [Cert.ReferenceIdeal.RefRun.headOps, Cert.ReferenceIdeal.RefRun.headA, Cert.ReferenceIdeal.RefRun.headB, Cert.ReferenceIdeal.RefRun.headC, Cert.ReferenceIdeal.RefRun.headD,
    Cert.KernelIdeal.Gen.hostOps0, Cert.KernelIdeal.Gen.hostOps0_1, Cert.KernelIdeal.Gen.hostOps0_2,
    List.flatten_cons, List.flatten_nil, List.append_nil, List.cons_append, List.nil_append]
  simp (disch := decide) only [StableHlo.after_cons, StableHlo.after_nil,
    StableHlo.nullary_result', StableHlo.unary_result', StableHlo.binary_result', StableHlo.ternary_result',
    StableHlo.quaternary_result', StableHlo.reshape_result',
    StableHlo.nullary_result_ne', StableHlo.unary_result_ne', StableHlo.binary_result_ne', StableHlo.ternary_result_ne',
    StableHlo.quaternary_result_ne', StableHlo.reshape_result_ne', concatenate_pair]
  rw [h5]
  rfl

set_option maxHeartbeats 4000000 in
/-- No operation of the kernel program before its region writes main_arg5. -/
theorem kernel_head_keeps_arg5 (LK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2]) LK (Proc.devRef .tc Cert.KernelIdeal.main_arg5) = LK (Proc.devRef .tc Cert.KernelIdeal.main_arg5) :=
  StableHlo.after_of_forall_not_mem (b := Proc.devRef .tc Cert.KernelIdeal.main_arg5) _ _ (List.forall_iff_forall_mem.mp (by
    simp only [Cert.KernelIdeal.Gen.hostOps0, Cert.KernelIdeal.Gen.hostOps0_1, Cert.KernelIdeal.Gen.hostOps0_2, List.flatten_cons, List.flatten_nil,
      List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The graph index of each node is an argument neither side writes before its middle. -/
theorem head_arg5 (LR : Valuation Cert.ReferenceIdeal.τ Cert.ReferenceIdeal.sig (Elt Ideal)) (LK : Valuation Cert.KernelIdeal.τ Cert.KernelIdeal.sig (Elt Ideal))
    (h5 : LR (Proc.devRef .tc Cert.ReferenceIdeal.main_arg5) = LK (Proc.devRef .tc Cert.KernelIdeal.main_arg5)) :
    StableHlo.after (Cert.ReferenceIdeal.RefRun.headOps (F := Ideal)) LR (Proc.devRef .tc Cert.ReferenceIdeal.main_arg5)
      = StableHlo.after (List.flatten [Cert.KernelIdeal.Gen.hostOps0, Cert.KernelIdeal.Gen.hostOps0_1, Cert.KernelIdeal.Gen.hostOps0_2]) LK (Proc.devRef .tc Cert.KernelIdeal.main_arg5) :=
  (Cert.ReferenceIdeal.RefRun.head_keeps_arg5 LR).trans (h5.trans (kernel_head_keeps_arg5 LK).symm)

/-! ## After the middles -/

set_option maxHeartbeats 40000000 in
attribute [local irreducible] Host.gather Host.scatter Host.scatterAdd Host.reduceWindow concatenate concat2 in
/-- The two tails are the same operations (a scatter-add of the middle's result by the edges' first row, then a gather
    by node), on buffers numbered 16 apart: from equal middle results and equal index buffers they end equal. -/
theorem tail_agree (WR : Valuation Cert.ReferenceIdeal.τ Cert.ReferenceIdeal.sig (Elt Ideal)) (WK : Valuation Cert.KernelIdeal.τ Cert.KernelIdeal.sig (Elt Ideal))
    (hX : WR (Proc.devRef .tc Cert.ReferenceIdeal.main_v108) = WK (Proc.devRef .tc Cert.KernelIdeal.main_v92))
    (h68 : WR (Proc.devRef .tc Cert.ReferenceIdeal.main_v68) = WK (Proc.devRef .tc Cert.KernelIdeal.main_v68))
    (h5 : WR (Proc.devRef .tc Cert.ReferenceIdeal.main_arg5) = WK (Proc.devRef .tc Cert.KernelIdeal.main_arg5))
    (h21 : WR (Proc.devRef .tc Cert.ReferenceIdeal.main_v21) = WK (Proc.devRef .tc Cert.KernelIdeal.main_v21)) :
    StableHlo.after (Cert.ReferenceIdeal.RefRun.tailOps (F := Ideal)) WR (Proc.devRef .tc Cert.ReferenceIdeal.main_v130)
      = StableHlo.after (Cert.KernelIdeal.Gen.hostOps1 (F := Ideal)) WK (Proc.devRef .tc Cert.KernelIdeal.main_v114) := by
  simp only [Cert.ReferenceIdeal.RefRun.tailOps, Cert.KernelIdeal.Gen.hostOps1]
  simp (disch := decide) only [StableHlo.after_cons, StableHlo.after_nil,
    StableHlo.nullary_result', StableHlo.unary_result', StableHlo.binary_result', StableHlo.ternary_result',
    StableHlo.quaternary_result', StableHlo.reshape_result',
    StableHlo.nullary_result_ne', StableHlo.unary_result_ne', StableHlo.binary_result_ne', StableHlo.ternary_result_ne',
    StableHlo.quaternary_result_ne', StableHlo.reshape_result_ne', concatenate_pair]
  rw [hX, h68, h5, h21]
  rfl

end Cert.Agree

end
-- ==== Proof.Bridge.lean ====
/-
  The two programs end with equal results.

  Both programs compute, by the same host operations, the dense node blocks of query, key and value and their
  gathers along the edges; both end by the same scatter-add of the edge messages to the nodes and the same gather
  of the coefficient rows. Between the two, the kernel's region and the reference's chain of products compute the
  same message function of the same eight arrays. So from memories that agree on the arguments the shared first
  part leaves equal arrays on both sides, the middles leave equal messages, and the shared last part equal results.
-/
import proofs.«151895_j50173807952913_2_alg».proof.Defs
import proofs.«151895_j50173807952913_2_alg».proof.Proof.KRun
import proofs.«151895_j50173807952913_2_alg».proof.Proof.RMid
import proofs.«151895_j50173807952913_2_alg».proof.Proof.RKeepsHead
import proofs.«151895_j50173807952913_2_alg».proof.Proof.RKeepsTail
import proofs.«151895_j50173807952913_2_alg».proof.Proof.Agree

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What the reference leaves in its result buffer is the kernel program's result, when the launch memories agree
    on the ten arguments. -/
theorem result_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    StableHlo.after Cert.ReferenceIdeal.RefRun.tailOps (StableHlo.after Cert.ReferenceIdeal.RefRun.midOps (StableHlo.after Cert.ReferenceIdeal.RefRun.headOps
        (StableHlo.launchContents m' c))) (Proc.devRef .tc Cert.ReferenceIdeal.main_v130)
      = Cert.KernelIdeal.RunValue.result m c := by
  rw [Cert.KernelIdeal.RunValue.result_eq]
  -- the arrays the shared first part leaves, on both sides
  have e77 : StableHlo.after Cert.ReferenceIdeal.RefRun.headOps (StableHlo.launchContents m' c) (Proc.devRef .tc Cert.ReferenceIdeal.main_v77)
      = Cert.KernelIdeal.Gen.V m c Cert.KernelIdeal.main_v77 := Cert.Agree.head_v77 _ _ h0 h4 h5
  have e84 : StableHlo.after Cert.ReferenceIdeal.RefRun.headOps (StableHlo.launchContents m' c) (Proc.devRef .tc Cert.ReferenceIdeal.main_v84)
      = Cert.KernelIdeal.Gen.V m c Cert.KernelIdeal.main_v84 := Cert.Agree.head_v84 _ _ h1 h4 h5
  have e91 : StableHlo.after Cert.ReferenceIdeal.RefRun.headOps (StableHlo.launchContents m' c) (Proc.devRef .tc Cert.ReferenceIdeal.main_v91)
      = Cert.KernelIdeal.Gen.V m c Cert.KernelIdeal.main_v91 := Cert.Agree.head_v91 _ _ h2 h4 h5
  have e68 : StableHlo.after Cert.ReferenceIdeal.RefRun.headOps (StableHlo.launchContents m' c) (Proc.devRef .tc Cert.ReferenceIdeal.main_v68)
      = Cert.KernelIdeal.Gen.V m c Cert.KernelIdeal.main_v68 := Cert.Agree.head_v68 _ _ h4
  have e21 : StableHlo.after Cert.ReferenceIdeal.RefRun.headOps (StableHlo.launchContents m' c) (Proc.devRef .tc Cert.ReferenceIdeal.main_v21)
      = Cert.KernelIdeal.Gen.V m c Cert.KernelIdeal.main_v21 := Cert.Agree.head_v21 _ _ h5
  have e3 : StableHlo.after Cert.ReferenceIdeal.RefRun.headOps (StableHlo.launchContents m' c) (Proc.devRef .tc Cert.ReferenceIdeal.main_arg3)
      = Cert.KernelIdeal.Gen.V m c Cert.KernelIdeal.main_arg3 := (Cert.ReferenceIdeal.RefRun.head_keeps_arg3 _).trans (h3.trans (Cert.KernelIdeal.Gen.V_main_arg3 m c).symm)
  have e5 : StableHlo.after Cert.ReferenceIdeal.RefRun.headOps (StableHlo.launchContents m' c) (Proc.devRef .tc Cert.ReferenceIdeal.main_arg5)
      = Cert.KernelIdeal.Gen.V m c Cert.KernelIdeal.main_arg5 := (Cert.ReferenceIdeal.RefRun.head_keeps_arg5 _).trans (h5.trans (Cert.KernelIdeal.Gen.V_main_arg5 m c).symm)
  have e6 : StableHlo.after Cert.ReferenceIdeal.RefRun.headOps (StableHlo.launchContents m' c) (Proc.devRef .tc Cert.ReferenceIdeal.main_arg6)
      = Cert.KernelIdeal.Gen.V m c Cert.KernelIdeal.main_arg6 := (Cert.ReferenceIdeal.RefRun.head_keeps_arg6 _).trans (h6.trans (Cert.KernelIdeal.Gen.V_main_arg6 m c).symm)
  have e7 : StableHlo.after Cert.ReferenceIdeal.RefRun.headOps (StableHlo.launchContents m' c) (Proc.devRef .tc Cert.ReferenceIdeal.main_arg7)
      = Cert.KernelIdeal.Gen.V m c Cert.KernelIdeal.main_arg7 := (Cert.ReferenceIdeal.RefRun.head_keeps_arg7 _).trans (h7.trans (Cert.KernelIdeal.Gen.V_main_arg7 m c).symm)
  have e8 : StableHlo.after Cert.ReferenceIdeal.RefRun.headOps (StableHlo.launchContents m' c) (Proc.devRef .tc Cert.ReferenceIdeal.main_arg8)
      = Cert.KernelIdeal.Gen.V m c Cert.KernelIdeal.main_arg8 := (Cert.ReferenceIdeal.RefRun.head_keeps_arg8 _).trans (h8.trans (Cert.KernelIdeal.Gen.V_main_arg8 m c).symm)
  have e9 : StableHlo.after Cert.ReferenceIdeal.RefRun.headOps (StableHlo.launchContents m' c) (Proc.devRef .tc Cert.ReferenceIdeal.main_arg9)
      = Cert.KernelIdeal.Gen.V m c Cert.KernelIdeal.main_arg9 := (Cert.ReferenceIdeal.RefRun.head_keeps_arg9 _).trans (h9.trans (Cert.KernelIdeal.Gen.V_main_arg9 m c).symm)
  refine Cert.Agree.tail_agree _ _ ?_ ?_ ?_ ?_
  · -- the messages
    rw [Cert.ReferenceIdeal.RefRun.mid_reads, Cert.ReferenceIdeal.MidValue.midTerm_eq, Cert.KernelIdeal.RunValue.exit_v92, e3, e77, e84, e91, e6, e7, e8, e9]
    rfl
  · -- the source node of each edge
    rw [Cert.ReferenceIdeal.RefRun.mid_keeps_v68, e68]
    exact (Cert.KernelIdeal.RunValue.exit_keep m c Cert.KernelIdeal.main_v68 (by decide)).symm
  · -- the node of each coefficient row
    rw [Cert.ReferenceIdeal.RefRun.mid_keeps_arg5, e5]
    exact (Cert.KernelIdeal.RunValue.exit_keep m c Cert.KernelIdeal.main_arg5 (by decide)).symm
  · -- the position of each coefficient row within its node
    rw [Cert.ReferenceIdeal.RefRun.mid_keeps_v21, e21]
    exact (Cert.KernelIdeal.RunValue.exit_keep m c Cert.KernelIdeal.main_v21 (by decide)).symm

/-- The reference's run, with its result at the kernel program's and its arguments as launched. -/
theorem ref_run (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v130) = Cert.KernelIdeal.RunValue.result m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) :=
  (θ_run Cert.ReferenceIdeal.defs _ _).mono (fun _ h c =>
    ⟨(h c Cert.ReferenceIdeal.main_v130).trans (result_agree m m' c (hagree c).1 (hagree c).2.1 (hagree c).2.2.1 (hagree c).2.2.2.1
        (hagree c).2.2.2.2.1 (hagree c).2.2.2.2.2.1 (hagree c).2.2.2.2.2.2.1 (hagree c).2.2.2.2.2.2.2.1
        (hagree c).2.2.2.2.2.2.2.2.1 (hagree c).2.2.2.2.2.2.2.2.2),
     (h c Cert.ReferenceIdeal.main_arg0).trans ((Cert.ReferenceIdeal.RefRun.tail_keeps_arg0 _).trans ((Cert.ReferenceIdeal.RefRun.mid_keeps_arg0 _).trans (Cert.ReferenceIdeal.RefRun.head_keeps_arg0' _))),
     (h c Cert.ReferenceIdeal.main_arg1).trans ((Cert.ReferenceIdeal.RefRun.tail_keeps_arg1 _).trans ((Cert.ReferenceIdeal.RefRun.mid_keeps_arg1 _).trans (Cert.ReferenceIdeal.RefRun.head_keeps_arg1' _))),
     (h c Cert.ReferenceIdeal.main_arg2).trans ((Cert.ReferenceIdeal.RefRun.tail_keeps_arg2 _).trans ((Cert.ReferenceIdeal.RefRun.mid_keeps_arg2 _).trans (Cert.ReferenceIdeal.RefRun.head_keeps_arg2' _))),
     (h c Cert.ReferenceIdeal.main_arg3).trans ((Cert.ReferenceIdeal.RefRun.tail_keeps_arg3 _).trans ((Cert.ReferenceIdeal.RefRun.mid_keeps_arg3 _).trans (Cert.ReferenceIdeal.RefRun.head_keeps_arg3 _))),
     (h c Cert.ReferenceIdeal.main_arg4).trans ((Cert.ReferenceIdeal.RefRun.tail_keeps_arg4 _).trans ((Cert.ReferenceIdeal.RefRun.mid_keeps_arg4 _).trans (Cert.ReferenceIdeal.RefRun.head_keeps_arg4' _))),
     (h c Cert.ReferenceIdeal.main_arg5).trans ((Cert.ReferenceIdeal.RefRun.tail_keeps_arg5 _).trans ((Cert.ReferenceIdeal.RefRun.mid_keeps_arg5 _).trans (Cert.ReferenceIdeal.RefRun.head_keeps_arg5 _))),
     (h c Cert.ReferenceIdeal.main_arg6).trans ((Cert.ReferenceIdeal.RefRun.tail_keeps_arg6 _).trans ((Cert.ReferenceIdeal.RefRun.mid_keeps_arg6 _).trans (Cert.ReferenceIdeal.RefRun.head_keeps_arg6 _))),
     (h c Cert.ReferenceIdeal.main_arg7).trans ((Cert.ReferenceIdeal.RefRun.tail_keeps_arg7 _).trans ((Cert.ReferenceIdeal.RefRun.mid_keeps_arg7 _).trans (Cert.ReferenceIdeal.RefRun.head_keeps_arg7 _))),
     (h c Cert.ReferenceIdeal.main_arg8).trans ((Cert.ReferenceIdeal.RefRun.tail_keeps_arg8 _).trans ((Cert.ReferenceIdeal.RefRun.mid_keeps_arg8 _).trans (Cert.ReferenceIdeal.RefRun.head_keeps_arg8 _))),
     (h c Cert.ReferenceIdeal.main_arg9).trans ((Cert.ReferenceIdeal.RefRun.tail_keeps_arg9 _).trans ((Cert.ReferenceIdeal.RefRun.mid_keeps_arg9 _).trans (Cert.ReferenceIdeal.RefRun.head_keeps_arg9 _)))⟩)
    (Cert.ReferenceIdeal.RefRun.run m' ρ')

end Cert.Bridge

end
-- ==== Proof.lean ====
/-
  Equivalence, over the extended reals, of an edge-message kernel program and its reference.

  The program densifies the per-coefficient query, key and value rows into per-node 36 × 4 blocks, gathers them
  along the 80000 edges, computes each edge's message (the edge matrix contracted with query and key into a 4 × 4
  score, a two-layer perceptron on the score, the value block transported by the edge matrix and mixed by the
  perceptron's output), scatter-adds the messages to the source nodes and reads the coefficient rows back. The
  kernel program computes the messages in one pipelined region over blocks of 160 edges; the reference by whole-array
  products. The host operations around the messages are the same on both sides.

  The three frames: the kernel program's (at the word level and idealized) by the frame certificates of their
  regions; the reference's by its run with the result dropped. The idealization rewrote no operation, so there is
  nothing to preserve. The equality of results: Proof/Bridge.lean, over Proof/EdgeSpec.lean's message function —
  the kernel's block (Proof/KBlock.lean), its output array (Proof/KArray.lean) and run (Proof/KRun.lean), the
  reference's run (Proof/RefRun.lean) and its chain of products (Proof/RMid.lean), and the agreement of the shared
  host operations (Proof/Agree.lean).
-/
import proofs.«151895_j50173807952913_2_alg».proof.Defs
import proofs.«151895_j50173807952913_2_alg».proof.Proof.Gen.Kernel
import proofs.«151895_j50173807952913_2_alg».proof.Proof.Gen.Kernel.Frame
import proofs.«151895_j50173807952913_2_alg».proof.Proof.Gen.KernelIdeal
import proofs.«151895_j50173807952913_2_alg».proof.Proof.Gen.KernelIdeal.Frame
import proofs.«151895_j50173807952913_2_alg».proof.Proof.Gen.ReferenceIdeal
import proofs.«151895_j50173807952913_2_alg».proof.Proof.Gen.Pre_finite_inputs
import proofs.«151895_j50173807952913_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped (equal memories agree with themselves). -/
theorem frame_ri : Cert.frame_ReferenceIdeal := fun m ρ _ =>
  (θ_run Cert.ReferenceIdeal.defs _ _).mono (fun _ h c =>
    ⟨(h c Cert.ReferenceIdeal.main_arg0).trans ((Cert.ReferenceIdeal.RefRun.tail_keeps_arg0 _).trans ((Cert.ReferenceIdeal.RefRun.mid_keeps_arg0 _).trans (Cert.ReferenceIdeal.RefRun.head_keeps_arg0' _))),
     (h c Cert.ReferenceIdeal.main_arg1).trans ((Cert.ReferenceIdeal.RefRun.tail_keeps_arg1 _).trans ((Cert.ReferenceIdeal.RefRun.mid_keeps_arg1 _).trans (Cert.ReferenceIdeal.RefRun.head_keeps_arg1' _))),
     (h c Cert.ReferenceIdeal.main_arg2).trans ((Cert.ReferenceIdeal.RefRun.tail_keeps_arg2 _).trans ((Cert.ReferenceIdeal.RefRun.mid_keeps_arg2 _).trans (Cert.ReferenceIdeal.RefRun.head_keeps_arg2' _))),
     (h c Cert.ReferenceIdeal.main_arg3).trans ((Cert.ReferenceIdeal.RefRun.tail_keeps_arg3 _).trans ((Cert.ReferenceIdeal.RefRun.mid_keeps_arg3 _).trans (Cert.ReferenceIdeal.RefRun.head_keeps_arg3 _))),
     (h c Cert.ReferenceIdeal.main_arg4).trans ((Cert.ReferenceIdeal.RefRun.tail_keeps_arg4 _).trans ((Cert.ReferenceIdeal.RefRun.mid_keeps_arg4 _).trans (Cert.ReferenceIdeal.RefRun.head_keeps_arg4' _))),
     (h c Cert.ReferenceIdeal.main_arg5).trans ((Cert.ReferenceIdeal.RefRun.tail_keeps_arg5 _).trans ((Cert.ReferenceIdeal.RefRun.mid_keeps_arg5 _).trans (Cert.ReferenceIdeal.RefRun.head_keeps_arg5 _))),
     (h c Cert.ReferenceIdeal.main_arg6).trans ((Cert.ReferenceIdeal.RefRun.tail_keeps_arg6 _).trans ((Cert.ReferenceIdeal.RefRun.mid_keeps_arg6 _).trans (Cert.ReferenceIdeal.RefRun.head_keeps_arg6 _))),
     (h c Cert.ReferenceIdeal.main_arg7).trans ((Cert.ReferenceIdeal.RefRun.tail_keeps_arg7 _).trans ((Cert.ReferenceIdeal.RefRun.mid_keeps_arg7 _).trans (Cert.ReferenceIdeal.RefRun.head_keeps_arg7 _))),
     (h c Cert.ReferenceIdeal.main_arg8).trans ((Cert.ReferenceIdeal.RefRun.tail_keeps_arg8 _).trans ((Cert.ReferenceIdeal.RefRun.mid_keeps_arg8 _).trans (Cert.ReferenceIdeal.RefRun.head_keeps_arg8 _))),
     (h c Cert.ReferenceIdeal.main_arg9).trans ((Cert.ReferenceIdeal.RefRun.tail_keeps_arg9 _).trans ((Cert.ReferenceIdeal.RefRun.mid_keeps_arg9 _).trans (Cert.ReferenceIdeal.RefRun.head_keeps_arg9 _)))⟩)
    (Cert.ReferenceIdeal.RefRun.run m ρ)

theorem preserves : Cert.preserves_Kernel_KernelIdeal := trivial

theorem algebraic : Cert.algebraic_KernelIdeal_ReferenceIdeal := fun m ρ m' ρ' _ hagree =>
  ⟨fun c => Cert.KernelIdeal.RunValue.result m c, Cert.KernelIdeal.RunValue.run_value m ρ, Cert.Bridge.ref_run m m' ρ' hagree⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
